-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)) →
    ∃ (v0 : (c : Dev Cert.KernelIdeal.nD) → Buf (Elt Ideal) ((c.tc : Thread Cert.KernelIdeal.nD Cert.KernelIdeal.τ).loc Cert.KernelIdeal.main_v73)) (v1 : (c : Dev Cert.KernelIdeal.nD) → Buf (Elt Ideal) ((c.tc : Thread Cert.KernelIdeal.nD Cert.KernelIdeal.τ).loc Cert.KernelIdeal.main_v74)) (v2 : (c : Dev Cert.KernelIdeal.nD) → Buf (Elt Ideal) ((c.tc : Thread Cert.KernelIdeal.nD Cert.KernelIdeal.τ).loc Cert.KernelIdeal.main_v68_1)) (v3 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_v74) = v1 c
          ∧ r.2.mem ((c.tc : Thread Cert.KernelIdeal.nD Cert.KernelIdeal.τ).loc Cert.KernelIdeal.main_v68_1) = v2 c
          ∧ r.2.mem ((c.tc : Thread Cert.KernelIdeal.nD Cert.KernelIdeal.τ).loc Cert.KernelIdeal.main_v71) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v171) = v0 c
          ∧ r.2.mem ((c.tc : Thread Cert.ReferenceIdeal.nD Cert.ReferenceIdeal.τ).loc Cert.ReferenceIdeal.main_v158) = v1 c
          ∧ r.2.mem ((c.tc : Thread Cert.ReferenceIdeal.nD Cert.ReferenceIdeal.τ).loc Cert.ReferenceIdeal.main_v165) = v2 c
          ∧ r.2.mem ((c.tc : Thread Cert.ReferenceIdeal.nD Cert.ReferenceIdeal.τ).loc Cert.ReferenceIdeal.main_v172) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S50000x128 : Shape := ⟨2, ![50000, 128]⟩
abbrev S400000 : Shape := ⟨1, ![400000]⟩
abbrev S400000x1 : Shape := ⟨2, ![400000, 1]⟩
abbrev S800000 : Shape := ⟨1, ![800000]⟩
abbrev S800000x1 : Shape := ⟨2, ![800000, 1]⟩
abbrev S64x128 : Shape := ⟨2, ![64, 128]⟩
abbrev S128 : Shape := ⟨1, ![128]⟩
abbrev S128x128 : Shape := ⟨2, ![128, 128]⟩
abbrev S128x32 : Shape := ⟨2, ![128, 32]⟩
abbrev S32 : Shape := ⟨1, ![32]⟩
abbrev S32x1 : Shape := ⟨2, ![32, 1]⟩
abbrev S1 : Shape := ⟨1, ![1]⟩
abbrev S128x1 : Shape := ⟨2, ![128, 1]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S400000x1 : S_.BroadcastsInDim S400000x1 (![] : Fin 0 → Fin S400000x1.rank)
  reducesTo_S400000x1_S_d0_1 : S400000x1.ReducesTo [0, 1] S_
  bcast_S_S800000x1 : S_.BroadcastsInDim S800000x1 (![] : Fin 0 → Fin S800000x1.rank)
  reducesTo_S800000x1_S_d0_1 : S800000x1.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_
  bcast_S_S128x1 : S_.BroadcastsInDim S128x1 (![] : Fin 0 → Fin S128x1.rank)
  reducesTo_S128x1_S_d0_1 : S128x1.ReducesTo [0, 1] S_

variable [Facts]

def fn_part8 {F : FTy → Type} [FloatOps F] (main_arg34 : FVec F S1 .f32) (main_v133 : IVec S_ 1) (main_v136 : IVec S128x1 1) : IVec S_ 1 :=
  let main_c_53 : IVec S_ 1 := constantI S_ 1 1#1
  let main_v137 : IVec S_ 1 := (fun x v => Host.reduce IntOp.andi x v reducesTo_S128x1_S_d0_1 h_S_) main_v136 main_c_53
  let main_v138 : IVec S_ 1 := andi main_v133 main_v137
  let main_v139 : FVec F S1 .f32 := Host.absf main_arg34
  let main_cst_54 : FVec F S_ .f32 := constant S_ .f32 0x7F800000#32
  let main_v140 : FVec F S1 .f32 := broadcastInDim S1 ![] bcast_S_S1 main_cst_54
  let main_v141 : IVec S1 1 := cmpf .olt main_v139 main_v140
  let main_c_55 : IVec S_ 1 := constantI S_ 1 1#1
  let main_v142 : IVec S_ 1 := (fun x v => Host.reduce IntOp.andi x v reducesTo_S1_S_d0 h_S_) main_v141 main_c_55
  let main_v143 : IVec S_ 1 := andi main_v138 main_v142
  main_v143

def fn_part7 {F : FTy → Type} [FloatOps F] (main_arg31 : FVec F S32x1 .f32) (main_arg32 : FVec F S1 .f32) (main_arg33 : FVec F S128x1 .f32) (main_arg34 : FVec F S1 .f32) (main_v118 : IVec S_ 1) (main_v119 : FVec F S32 .f32) : IVec S_ 1 :=
  let main_cst_46 : FVec F S_ .f32 := constant S_ .f32 0x7F800000#32
  let main_v120 : FVec F S32 .f32 := broadcastInDim S32 ![] bcast_S_S32 main_cst_46
  let main_v121 : IVec S32 1 := cmpf .olt main_v119 main_v120
  let main_c_47 : IVec S_ 1 := constantI S_ 1 1#1
  let main_v122 : IVec S_ 1 := (fun x v => Host.reduce IntOp.andi x v reducesTo_S32_S_d0 h_S_) main_v121 main_c_47
  let main_v123 : IVec S_ 1 := andi main_v118 main_v122
  let main_v124 : FVec F S32x1 .f32 := Host.absf main_arg31
  let main_cst_48 : FVec F S_ .f32 := constant S_ .f32 0x7F800000#32
  let main_v125 : FVec F S32x1 .f32 := broadcastInDim S32x1 ![] bcast_S_S32x1 main_cst_48
  let main_v126 : IVec S32x1 1 := cmpf .olt main_v124 main_v125
  let main_c_49 : IVec S_ 1 := constantI S_ 1 1#1
  let main_v127 : IVec S_ 1 := (fun x v => Host.reduce IntOp.andi x v reducesTo_S32x1_S_d0_1 h_S_) main_v126 main_c_49
  let main_v128 : IVec S_ 1 := andi main_v123 main_v127
  let main_v129 : FVec F S1 .f32 := Host.absf main_arg32
  let main_cst_50 : FVec F S_ .f32 := constant S_ .f32 0x7F800000#32
  let main_v130 : FVec F S1 .f32 := broadcastInDim S1 ![] bcast_S_S1 main_cst_50
  let main_v131 : IVec S1 1 := cmpf .olt main_v129 main_v130
  let main_c_51 : IVec S_ 1 := constantI S_ 1 1#1
  let main_v132 : IVec S_ 1 := (fun x v => Host.reduce IntOp.andi x v reducesTo_S1_S_d0 h_S_) main_v131 main_c_51
  let main_v133 : IVec S_ 1 := andi main_v128 main_v132
  let main_v134 : FVec F S128x1 .f32 := Host.absf main_arg33
  let main_cst_52 : FVec F S_ .f32 := constant S_ .f32 0x7F800000#32
  let main_v135 : FVec F S128x1 .f32 := broadcastInDim S128x1 ![] bcast_S_S128x1 main_cst_52
  let main_v136 : IVec S128x1 1 := cmpf .olt main_v134 main_v135
  fn_part8 (F := F) main_arg34 main_v133 main_v136

def fn_part6 {F : FTy → Type} [FloatOps F] (main_arg27 : FVec F S128 .f32) (main_arg28 : FVec F S128 .f32) (main_arg29 : FVec F S128x32 .f32) (main_arg30 : FVec F S32 .f32) (main_arg31 : FVec F S32x1 .f32) (main_arg32 : FVec F S1 .f32) (main_arg33 : FVec F S128x1 .f32) (main_arg34 : FVec F S1 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128 .f32 := Host.absf main_arg27
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128 .f32 := Host.absf main_arg28
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128x32 .f32 := Host.absf main_arg29
  let main_cst_44 : FVec F S_ .f32 := constant S_ .f32 0x7F800000#32
  let main_v115 : FVec F S128x32 .f32 := broadcastInDim S128x32 ![] bcast_S_S128x32 main_cst_44
  let main_v116 : IVec S128x32 1 := cmpf .olt main_v114 main_v115
  let main_c_45 : IVec S_ 1 := constantI S_ 1 1#1
  let main_v117 : IVec S_ 1 := (fun x v => Host.reduce IntOp.andi x v reducesTo_S128x32_S_d0_1 h_S_) main_v116 main_c_45
  let main_v118 : IVec S_ 1 := andi main_v113 main_v117
  let main_v119 : FVec F S32 .f32 := Host.absf main_arg30
  fn_part7 (F := F) main_arg31 main_arg32 main_arg33 main_arg34 main_v118 main_v119

def fn_part5 {F : FTy → Type} [FloatOps F] (main_arg24 : FVec F S128 .f32) (main_arg25 : FVec F S128 .f32) (main_arg26 : FVec F S128 .f32) (main_arg27 : FVec F S128 .f32) (main_arg28 : FVec F S128 .f32) (main_arg29 : FVec F S128x32 .f32) (main_arg30 : FVec F S32 .f32) (main_arg31 : FVec F S32x1 .f32) (main_arg32 : FVec F S1 .f32) (main_arg33 : FVec F S128x1 .f32) (main_arg34 : FVec F S1 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg24
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg25
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128 .f32 := Host.absf main_arg26
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg27 main_arg28 main_arg29 main_arg30 main_arg31 main_arg32 main_arg33 main_arg34 main_v98 main_v101 main_c_39

def fn_part4 {F : FTy → Type} [FloatOps F] (main_arg20 : FVec F S128 .f32) (main_arg21 : FVec F S128x128 .f32) (main_arg22 : FVec F S128 .f32) (main_arg23 : FVec F S128x128 .f32) (main_arg24 : FVec F S128 .f32) (main_arg25 : FVec F S128 .f32) (main_arg26 : FVec F S128 .f32) (main_arg27 : FVec F S128 .f32) (main_arg28 : FVec F S128 .f32) (main_arg29 : FVec F S128x32 .f32) (main_arg30 : FVec F S32 .f32) (main_arg31 : FVec F S32x1 .f32) (main_arg32 : FVec F S1 .f32) (main_arg33 : FVec F S128x1 .f32) (main_arg34 : FVec F S1 .f32) (main_v63 : IVec S_ 1) (main_v67 : IVec S_ 1) : IVec S_ 1 :=
  let main_v68 : IVec S_ 1 := andi main_v63 main_v67
  let main_v69 : FVec F S128 .f32 := Host.absf main_arg20
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg21
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg22
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg23
  let main_cst_32 : FVec F S_ .f32 := constant S_ .f32 0x7F800000#32
  fn_part5 (F := F) main_arg24 main_arg25 main_arg26 main_arg27 main_arg28 main_arg29 main_arg30 main_arg31 main_arg32 main_arg33 main_arg34 main_v83 main_v84 main_cst_32

def fn_part3 {F : FTy → Type} [FloatOps F] (main_arg17 : FVec F S128x128 .f32) (main_arg18 : FVec F S128 .f32) (main_arg19 : FVec F S128x128 .f32) (main_arg20 : FVec F S128 .f32) (main_arg21 : FVec F S128x128 .f32) (main_arg22 : FVec F S128 .f32) (main_arg23 : FVec F S128x128 .f32) (main_arg24 : FVec F S128 .f32) (main_arg25 : FVec F S128 .f32) (main_arg26 : FVec F S128 .f32) (main_arg27 : FVec F S128 .f32) (main_arg28 : FVec F S128 .f32) (main_arg29 : FVec F S128x32 .f32) (main_arg30 : FVec F S32 .f32) (main_arg31 : FVec F S32x1 .f32) (main_arg32 : FVec F S1 .f32) (main_arg33 : FVec F S128x1 .f32) (main_arg34 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg17
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg18
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg19
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg20 main_arg21 main_arg22 main_arg23 main_arg24 main_arg25 main_arg26 main_arg27 main_arg28 main_arg29 main_arg30 main_arg31 main_arg32 main_arg33 main_arg34 main_v63 main_v67

def fn_part2 {F : FTy → Type} [FloatOps F] (main_arg13 : FVec F S128x128 .f32) (main_arg14 : FVec F S128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S128x128 .f32) (main_arg22 : FVec F S128 .f32) (main_arg23 : FVec F S128x128 .f32) (main_arg24 : FVec F S128 .f32) (main_arg25 : FVec F S128 .f32) (main_arg26 : FVec F S128 .f32) (main_arg27 : FVec F S128 .f32) (main_arg28 : FVec F S128 .f32) (main_arg29 : FVec F S128x32 .f32) (main_arg30 : FVec F S32 .f32) (main_arg31 : FVec F S32x1 .f32) (main_arg32 : FVec F S1 .f32) (main_arg33 : FVec F S128x1 .f32) (main_arg34 : FVec F S1 .f32) (main_v33 : IVec S_ 1) : IVec S_ 1 :=
  let main_v34 : FVec F S128x128 .f32 := Host.absf main_arg13
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg14
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg15
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg16
  let main_cst_18 : FVec F S_ .f32 := constant S_ .f32 0x7F800000#32
  let main_v50 : FVec F S128 .f32 := broadcastInDim S128 ![] bcast_S_S128 main_cst_18
  fn_part3 (F := F) main_arg17 main_arg18 main_arg19 main_arg20 main_arg21 main_arg22 main_arg23 main_arg24 main_arg25 main_arg26 main_arg27 main_arg28 main_arg29 main_arg30 main_arg31 main_arg32 main_arg33 main_arg34 main_v48 main_v49 main_v50

def fn_part1 {F : FTy → Type} [FloatOps F] (main_arg10 : FVec F S800000x1 .f32) (main_arg11 : FVec F S64x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S128x128 .f32) (main_arg22 : FVec F S128 .f32) (main_arg23 : FVec F S128x128 .f32) (main_arg24 : FVec F S128 .f32) (main_arg25 : FVec F S128 .f32) (main_arg26 : FVec F S128 .f32) (main_arg27 : FVec F S128 .f32) (main_arg28 : FVec F S128 .f32) (main_arg29 : FVec F S128x32 .f32) (main_arg30 : FVec F S32 .f32) (main_arg31 : FVec F S32x1 .f32) (main_arg32 : FVec F S1 .f32) (main_arg33 : FVec F S128x1 .f32) (main_arg34 : FVec F S1 .f32) (main_v13 : IVec S_ 1) (main_v16 : IVec S400000x1 1) : IVec S_ 1 :=
  let main_c_5 : IVec S_ 1 := constantI S_ 1 1#1
  let main_v17 : IVec S_ 1 := (fun x v => Host.reduce IntOp.andi x v reducesTo_S400000x1_S_d0_1 h_S_) main_v16 main_c_5
  let main_v18 : IVec S_ 1 := andi main_v13 main_v17
  let main_v19 : FVec F S800000x1 .f32 := Host.absf main_arg10
  let main_cst_6 : FVec F S_ .f32 := constant S_ .f32 0x7F800000#32
  let main_v20 : FVec F S800000x1 .f32 := broadcastInDim S800000x1 ![] bcast_S_S800000x1 main_cst_6
  let main_v21 : IVec S800000x1 1 := cmpf .olt main_v19 main_v20
  let main_c_7 : IVec S_ 1 := constantI S_ 1 1#1
  let main_v22 : IVec S_ 1 := (fun x v => Host.reduce IntOp.andi x v reducesTo_S800000x1_S_d0_1 h_S_) main_v21 main_c_7
  let main_v23 : IVec S_ 1 := andi main_v18 main_v22
  let main_v24 : FVec F S64x128 .f32 := Host.absf main_arg11
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg12
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_v33

def fn {F : FTy → Type} [FloatOps F] (main_arg0 : FVec F S200000x64 .f32) (main_arg1 : FVec F S50000x128 .f32) (main_arg2 : IVec S400000 32) (main_arg3 : IVec S400000 32) (main_arg4 : FVec F S400000x1 .f32) (main_arg5 : IVec S400000 32) (main_arg6 : IVec S400000 32) (main_arg7 : FVec F S400000x1 .f32) (main_arg8 : IVec S800000 32) (main_arg9 : IVec S800000 32) (main_arg10 : FVec F S800000x1 .f32) (main_arg11 : FVec F S64x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S128x128 .f32) (main_arg22 : FVec F S128 .f32) (main_arg23 : FVec F S128x128 .f32) (main_arg24 : FVec F S128 .f32) (main_arg25 : FVec F S128 .f32) (main_arg26 : FVec F S128 .f32) (main_arg27 : FVec F S128 .f32) (main_arg28 : FVec F S128 .f32) (main_arg29 : FVec F S128x32 .f32) (main_arg30 : FVec F S32 .f32) (main_arg31 : FVec F S32x1 .f32) (main_arg32 : FVec F S1 .f32) (main_arg33 : FVec F S128x1 .f32) (main_arg34 : FVec F S1 .f32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S400000x1 .f32 := Host.absf main_arg4
  let main_cst_2 : FVec F S_ .f32 := constant S_ .f32 0x7F800000#32
  let main_v10 : FVec F S400000x1 .f32 := broadcastInDim S400000x1 ![] bcast_S_S400000x1 main_cst_2
  let main_v11 : IVec S400000x1 1 := cmpf .olt main_v9 main_v10
  let main_c_3 : IVec S_ 1 := constantI S_ 1 1#1
  let main_v12 : IVec S_ 1 := (fun x v => Host.reduce IntOp.andi x v reducesTo_S400000x1_S_d0_1 h_S_) main_v11 main_c_3
  let main_v13 : IVec S_ 1 := andi main_v8 main_v12
  let main_v14 : FVec F S400000x1 .f32 := Host.absf main_arg7
  let main_cst_4 : FVec F S_ .f32 := constant S_ .f32 0x7F800000#32
  let main_v15 : FVec F S400000x1 .f32 := broadcastInDim S400000x1 ![] bcast_S_S400000x1 main_cst_4
  let main_v16 : IVec S400000x1 1 := cmpf .olt main_v14 main_v15
  fn_part1 (F := F) main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_v13 main_v16
-- ==== Kernel.lean ====
abbrev S200000x64 : Shape := ⟨2, ![200000, 64]⟩
abbrev S50000x128 : Shape := ⟨2, ![50000, 128]⟩
abbrev S400000 : Shape := ⟨1, ![400000]⟩
abbrev S400000x1 : Shape := ⟨2, ![400000, 1]⟩
abbrev S800000 : Shape := ⟨1, ![800000]⟩
abbrev S800000x1 : Shape := ⟨2, ![800000, 1]⟩
abbrev S64x128 : Shape := ⟨2, ![64, 128]⟩
abbrev S128 : Shape := ⟨1, ![128]⟩
abbrev S128x128 : Shape := ⟨2, ![128, 128]⟩
abbrev S128x32 : Shape := ⟨2, ![128, 32]⟩
abbrev S32 : Shape := ⟨1, ![32]⟩
abbrev S32x1 : Shape := ⟨2, ![32, 1]⟩
abbrev S1 : Shape := ⟨1, ![1]⟩
abbrev S128x1 : Shape := ⟨2, ![128, 1]⟩
abbrev S1x128 : Shape := ⟨2, ![1, 128]⟩
abbrev S200000x128 : Shape := ⟨2, ![200000, 128]⟩
abbrev S10000x64 : Shape := ⟨2, ![10000, 64]⟩
abbrev S10000x128 : Shape := ⟨2, ![10000, 128]⟩
abbrev S_ : Shape := ⟨0, ![]⟩
abbrev S400000x128 : Shape := ⟨2, ![400000, 128]⟩
abbrev S200000 : Shape := ⟨1, ![200000]⟩
abbrev S200000x1 : Shape := ⟨2, ![200000, 1]⟩
abbrev S50000 : Shape := ⟨1, ![50000]⟩
abbrev S50000x1 : Shape := ⟨2, ![50000, 1]⟩
abbrev S800000x128 : Shape := ⟨2, ![800000, 128]⟩
abbrev S1x32 : Shape := ⟨2, ![1, 32]⟩
abbrev S1x1 : Shape := ⟨2, ![1, 1]⟩
abbrev S10000x1 : Shape := ⟨2, ![10000, 1]⟩
abbrev S10000 : Shape := ⟨1, ![10000]⟩
abbrev S10000x32 : Shape := ⟨2, ![10000, 32]⟩
abbrev S10000x126 : Shape := ⟨2, ![10000, 126]⟩

abbrev nBuf : Space → Nat
  | .hbm => 129
  | .vmem => 60
  | .smem => 0
  | _ => 0

abbrev hbmTy0_0 (i : Nat) : BufTy := match i % 128 with
  | 0 => ⟨S200000x64, .f32⟩
  | 1 => ⟨S50000x128, .f32⟩
  | 2 => ⟨S400000, .i32⟩
  | 3 => ⟨S400000, .i32⟩
  | 4 => ⟨S400000x1, .f32⟩
  | 5 => ⟨S400000, .i32⟩
  | 6 => ⟨S400000, .i32⟩
  | 7 => ⟨S400000x1, .f32⟩
  | 8 => ⟨S800000, .i32⟩
  | 9 => ⟨S800000, .i32⟩
  | 10 => ⟨S800000x1, .f32⟩
  | 11 => ⟨S64x128, .f32⟩
  | 12 => ⟨S128, .f32⟩
  | 13 => ⟨S128x128, .f32⟩
  | 14 => ⟨S128, .f32⟩
  | 15 => ⟨S128x128, .f32⟩
  | 16 => ⟨S128, .f32⟩
  | 17 => ⟨S128x128, .f32⟩
  | 18 => ⟨S128, .f32⟩
  | 19 => ⟨S128x128, .f32⟩
  | 20 => ⟨S128, .f32⟩
  | 21 => ⟨S128x128, .f32⟩
  | 22 => ⟨S128, .f32⟩
  | 23 => ⟨S128x128, .f32⟩
  | 24 => ⟨S128, .f32⟩
  | 25 => ⟨S128, .f32⟩
  | 26 => ⟨S128, .f32⟩
  | 27 => ⟨S128, .f32⟩
  | 28 => ⟨S128, .f32⟩
  | 29 => ⟨S128x32, .f32⟩
  | 30 => ⟨S32, .f32⟩
  | 31 => ⟨S32x1, .f32⟩
  | 32 => ⟨S1, .f32⟩
  | 33 => ⟨S128x1, .f32⟩
  | 34 => ⟨S1, .f32⟩
  | 35 => ⟨S1x128, .f32⟩
  | 36 => ⟨S1x128, .f32⟩
  | 37 => ⟨S1x128, .f32⟩
  | 38 => ⟨S200000x128, .f32⟩
  | 39 => ⟨S200000x128, .bf16⟩
  | 40 => ⟨S1x128, .f32⟩
  | 41 => ⟨S1x128, .f32⟩
  | 42 => ⟨S1x128, .f32⟩
  | 43 => ⟨S1x128, .f32⟩
  | 44 => ⟨S50000x128, .f32⟩
  | 45 => ⟨S50000x128, .bf16⟩
  | 46 => ⟨S50000x128, .bf16⟩
  | 47 => ⟨S_, .i32⟩
  | 48 => ⟨S400000, .i32⟩
  | 49 => ⟨S400000, .i1⟩
  | 50 => ⟨S_, .i32⟩
  | 51 => ⟨S400000, .i32⟩
  | 52 => ⟨S400000, .i32⟩
  | 53 => ⟨S400000, .i32⟩
  | 54 => ⟨S400000x1, .i32⟩
  | 55 => ⟨S400000x128, .bf16⟩
  | 56 => ⟨S400000x128, .f32⟩
  | 57 => ⟨S400000x128, .f32⟩
  | 58 => ⟨S400000x128, .f32⟩
  | 59 => ⟨S_, .f32⟩
  | 60 => ⟨S200000x128, .f32⟩
  | 61 => ⟨S400000x1, .i32⟩
  | 62 => ⟨S200000x128, .f32⟩
  | 63 => ⟨S_, .f32⟩
  | 64 => ⟨S400000, .f32⟩
  | 65 => ⟨S_, .f32⟩
  | 66 => ⟨S200000, .f32⟩
  | 67 => ⟨S400000x1, .i32⟩
  | 68 => ⟨S200000, .f32⟩
  | 69 => ⟨S200000x1, .f32⟩
  | 70 => ⟨S_, .i32⟩
  | 71 => ⟨S400000, .i32⟩
  | 72 => ⟨S400000, .i1⟩
  | 73 => ⟨S_, .i32⟩
  | 74 => ⟨S400000, .i32⟩
  | 75 => ⟨S400000, .i32⟩
  | 76 => ⟨S400000, .i32⟩
  | 77 => ⟨S400000x1, .i32⟩
  | 78 => ⟨S400000x128, .bf16⟩
  | 79 => ⟨S400000x128, .f32⟩
  | 80 => ⟨S400000x128, .f32⟩
  | 81 => ⟨S400000x128, .f32⟩
  | 82 => ⟨S_, .f32⟩
  | 83 => ⟨S50000x128, .f32⟩
  | 84 => ⟨S400000x1, .i32⟩
  | 85 => ⟨S50000x128, .f32⟩
  | 86 => ⟨S_, .f32⟩
  | 87 => ⟨S400000, .f32⟩
  | 88 => ⟨S_, .f32⟩
  | 89 => ⟨S50000, .f32⟩
  | 90 => ⟨S400000x1, .i32⟩
  | 91 => ⟨S50000, .f32⟩
  | 92 => ⟨S50000x1, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000x128, .bf16⟩
  | 102 => ⟨S800000x128, .f32⟩
  | 103 => ⟨S800000x128, .f32⟩
  | 104 => ⟨S800000x128, .f32⟩
  | 105 => ⟨S_, .f32⟩
  | 106 => ⟨S50000x128, .f32⟩
  | 107 => ⟨S800000x1, .i32⟩
  | 108 => ⟨S50000x128, .f32⟩
  | 109 => ⟨S_, .f32⟩
  | 110 => ⟨S800000, .f32⟩
  | 111 => ⟨S_, .f32⟩
  | 112 => ⟨S50000, .f32⟩
  | 113 => ⟨S800000x1, .i32⟩
  | 114 => ⟨S50000, .f32⟩
  | 115 => ⟨S50000x1, .f32⟩
  | 116 => ⟨S1x128, .f32⟩
  | 117 => ⟨S1x128, .f32⟩
  | 118 => ⟨S1x32, .f32⟩
  | 119 => ⟨S1x1, .f32⟩
  | 120 => ⟨S1x1, .f32⟩
  | 121 => ⟨S200000x128, .f32⟩
  | 122 => ⟨S200000x128, .f32⟩
  | 123 => ⟨S1x128, .f32⟩
  | 124 => ⟨S1x128, .f32⟩
  | 125 => ⟨S50000x128, .f32⟩
  | 126 => ⟨S200000x1, .f32⟩
  | 127 => ⟨S200000, .f32⟩
  | _ => ⟨S200000x64, .f32⟩

abbrev hbmTy0_1 (i : Nat) : BufTy := match i % 128 with
  | 0 => ⟨S200000x1, .f32⟩
  | _ => ⟨S200000x64, .f32⟩

abbrev hbmTy (i : Nat) : BufTy := match i / 128 with
  | 0 => hbmTy0_0 i
  | 1 => hbmTy0_1 i
  | _ => ⟨S200000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .bf16⟩
  | .local _ .vmem, ⟨11, _⟩ => ⟨S10000x128, .bf16⟩
  | .local _ .vmem, ⟨12, _⟩ => ⟨S10000x128, .f32⟩
  | .local _ .vmem, ⟨13, _⟩ => ⟨S10000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S10000x128, .f32⟩
  | .local _ .vmem, ⟨23, _⟩ => ⟨S10000x128, .f32⟩
  | .local _ .vmem, ⟨24, _⟩ => ⟨S10000x128, .bf16⟩
  | .local _ .vmem, ⟨25, _⟩ => ⟨S10000x128, .bf16⟩
  | .local _ .vmem, ⟨26, _⟩ => ⟨S10000x128, .bf16⟩
  | .local _ .vmem, ⟨27, _⟩ => ⟨S10000x128, .bf16⟩
  | .local _ .vmem, ⟨28, _⟩ => ⟨S10000x128, .f32⟩
  | .local _ .vmem, ⟨29, _⟩ => ⟨S10000x128, .f32⟩
  | .local _ .vmem, ⟨30, _⟩ => ⟨S10000x128, .f32⟩
  | .local _ .vmem, ⟨31, _⟩ => ⟨S10000x128, .f32⟩
  | .local _ .vmem, ⟨32, _⟩ => ⟨S10000x1, .f32⟩
  | .local _ .vmem, ⟨33, _⟩ => ⟨S10000x1, .f32⟩
  | .local _ .vmem, ⟨34, _⟩ => ⟨S1x128, .f32⟩
  | .local _ .vmem, ⟨35, _⟩ => ⟨S1x128, .f32⟩
  | .local _ .vmem, ⟨36, _⟩ => ⟨S128x32, .f32⟩
  | .local _ .vmem, ⟨37, _⟩ => ⟨S1x32, .f32⟩
  | .local _ .vmem, ⟨38, _⟩ => ⟨S32x1, .f32⟩
  | .local _ .vmem, ⟨39, _⟩ => ⟨S1x1, .f32⟩
  | .local _ .vmem, ⟨40, _⟩ => ⟨S128x1, .f32⟩
  | .local _ .vmem, ⟨41, _⟩ => ⟨S1x1, .f32⟩
  | .local _ .vmem, ⟨42, _⟩ => ⟨S10000x128, .f32⟩
  | .local _ .vmem, ⟨43, _⟩ => ⟨S10000x128, .f32⟩
  | .local _ .vmem, ⟨44, _⟩ => ⟨S10000x128, .f32⟩
  | .local _ .vmem, ⟨45, _⟩ => ⟨S10000x128, .f32⟩
  | .local _ .vmem, ⟨46, _⟩ => ⟨S10000x128, .f32⟩
  | .local _ .vmem, ⟨47, _⟩ => ⟨S10000x128, .f32⟩
  | .local _ .vmem, ⟨48, _⟩ => ⟨S10000x128, .f32⟩
  | .local _ .vmem, ⟨49, _⟩ => ⟨S10000x128, .f32⟩
  | .local _ .vmem, ⟨50, _⟩ => ⟨S10000x1, .f32⟩
  | .local _ .vmem, ⟨51, _⟩ => ⟨S10000x1, .f32⟩
  | .local _ .vmem, ⟨52, _⟩ => ⟨S10000x128, .f32⟩
  | .local _ .vmem, ⟨53, _⟩ => ⟨S10000x128, .f32⟩
  | .local _ .vmem, ⟨54, _⟩ => ⟨S10000x1, .f32⟩
  | .local _ .vmem, ⟨55, _⟩ => ⟨S10000x1, .f32⟩
  | .local _ .vmem, ⟨56, _⟩ => ⟨S1x128, .f32⟩
  | .local _ .vmem, ⟨57, _⟩ => ⟨S1x128, .f32⟩
  | .local _ .vmem, ⟨58, _⟩ => ⟨S10000x128, .f32⟩
  | .local _ .vmem, ⟨59, _⟩ => ⟨S10000x128, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_v0 : Ref sig .tc := ⟨.hbm, 35, rfl⟩
abbrev main_v1 : Ref sig .tc := ⟨.hbm, 36, rfl⟩
abbrev main_v2 : Ref sig .tc := ⟨.hbm, 37, rfl⟩
abbrev main_v3_0 : Ref sig .tc := ⟨.hbm, 38, rfl⟩
abbrev main_v3_1 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8_0 : Ref sig .tc := ⟨.hbm, 44, rfl⟩
abbrev main_v8_1 : Ref sig .tc := ⟨.hbm, 45, rfl⟩
abbrev main_v8_2 : Ref sig .tc := ⟨.hbm, 46, rfl⟩
abbrev main_c : Ref sig .tc := ⟨.hbm, 47, rfl⟩
abbrev main_v9 : Ref sig .tc := ⟨.hbm, 48, rfl⟩
abbrev main_v10 : Ref sig .tc := ⟨.hbm, 49, rfl⟩
abbrev main_c_0 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_cst : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_cst_1 : Ref sig .tc := ⟨.hbm, 63, rfl⟩
abbrev main_v22 : Ref sig .tc := ⟨.hbm, 64, rfl⟩
abbrev main_cst_2 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_c_3 : Ref sig .tc := ⟨.hbm, 70, rfl⟩
abbrev main_v27 : Ref sig .tc := ⟨.hbm, 71, rfl⟩
abbrev main_v28 : Ref sig .tc := ⟨.hbm, 72, rfl⟩
abbrev main_c_4 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_cst_5 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_cst_6 : Ref sig .tc := ⟨.hbm, 86, rfl⟩
abbrev main_v40 : Ref sig .tc := ⟨.hbm, 87, rfl⟩
abbrev main_cst_7 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_c_8 : Ref sig .tc := ⟨.hbm, 93, rfl⟩
abbrev main_v45 : Ref sig .tc := ⟨.hbm, 94, rfl⟩
abbrev main_v46 : Ref sig .tc := ⟨.hbm, 95, rfl⟩
abbrev main_c_9 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_cst_10 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_cst_11 : Ref sig .tc := ⟨.hbm, 109, rfl⟩
abbrev main_v58 : Ref sig .tc := ⟨.hbm, 110, rfl⟩
abbrev main_cst_12 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68_0 : Ref sig .tc := ⟨.hbm, 121, rfl⟩
abbrev main_v68_1 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg9_1 : Ref sig .tc := ⟨.vmem, 23, rfl⟩
abbrev cc1_stg10_0 : Ref sig .tc := ⟨.vmem, 24, rfl⟩
abbrev cc1_stg10_1 : Ref sig .tc := ⟨.vmem, 25, rfl⟩
abbrev cc1_stg11_0 : Ref sig .tc := ⟨.vmem, 26, rfl⟩
abbrev cc1_stg11_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg4_0 : Ref sig .tc := ⟨.vmem, 35, rfl⟩
abbrev cc2_stg5_0 : Ref sig .tc := ⟨.vmem, 36, rfl⟩
abbrev cc2_stg6_0 : Ref sig .tc := ⟨.vmem, 37, rfl⟩
abbrev cc2_stg7_0 : Ref sig .tc := ⟨.vmem, 38, rfl⟩
abbrev cc2_stg8_0 : Ref sig .tc := ⟨.vmem, 39, rfl⟩
abbrev cc2_stg9_0 : Ref sig .tc := ⟨.vmem, 40, rfl⟩
abbrev cc2_stg10_0 : Ref sig .tc := ⟨.vmem, 41, rfl⟩
abbrev cc2_stg11_0 : Ref sig .tc := ⟨.vmem, 42, rfl⟩
abbrev cc2_stg11_1 : Ref sig .tc := ⟨.vmem, 43, rfl⟩
abbrev cc2_stg12_0 : Ref sig .tc := ⟨.vmem, 44, rfl⟩
abbrev cc2_stg12_1 : Ref sig .tc := ⟨.vmem, 45, rfl⟩
abbrev cc3_stg0_0 : Ref sig .tc := ⟨.vmem, 46, rfl⟩
abbrev cc3_stg0_1 : Ref sig .tc := ⟨.vmem, 47, rfl⟩
abbrev cc3_stg1_0 : Ref sig .tc := ⟨.vmem, 48, rfl⟩
abbrev cc3_stg1_1 : Ref sig .tc := ⟨.vmem, 49, rfl⟩
abbrev cc3_stg2_0 : Ref sig .tc := ⟨.vmem, 50, rfl⟩
abbrev cc3_stg2_1 : Ref sig .tc := ⟨.vmem, 51, rfl⟩
abbrev cc3_stg3_0 : Ref sig .tc := ⟨.vmem, 52, rfl⟩
abbrev cc3_stg3_1 : Ref sig .tc := ⟨.vmem, 53, rfl⟩
abbrev cc3_stg4_0 : Ref sig .tc := ⟨.vmem, 54, rfl⟩
abbrev cc3_stg4_1 : Ref sig .tc := ⟨.vmem, 55, rfl⟩
abbrev cc3_stg5_0 : Ref sig .tc := ⟨.vmem, 56, rfl⟩
abbrev cc3_stg6_0 : Ref sig .tc := ⟨.vmem, 57, rfl⟩
abbrev cc3_stg7_0 : Ref sig .tc := ⟨.vmem, 58, rfl⟩
abbrev cc3_stg7_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem9_1 : DmaSem sig := 23
abbrev cc1_sem10_0 : DmaSem sig := 24
abbrev cc1_sem10_1 : DmaSem sig := 25
abbrev cc1_sem11_0 : DmaSem sig := 26
abbrev cc1_sem11_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem4_0 : DmaSem sig := 35
abbrev cc2_sem5_0 : DmaSem sig := 36
abbrev cc2_sem6_0 : DmaSem sig := 37
abbrev cc2_sem7_0 : DmaSem sig := 38
abbrev cc2_sem8_0 : DmaSem sig := 39
abbrev cc2_sem9_0 : DmaSem sig := 40
abbrev cc2_sem10_0 : DmaSem sig := 41
abbrev cc2_sem11_0 : DmaSem sig := 42
abbrev cc2_sem11_1 : DmaSem sig := 43
abbrev cc2_sem12_0 : DmaSem sig := 44
abbrev cc2_sem12_1 : DmaSem sig := 45
abbrev cc3_sem0_0 : DmaSem sig := 46
abbrev cc3_sem0_1 : DmaSem sig := 47
abbrev cc3_sem1_0 : DmaSem sig := 48
abbrev cc3_sem1_1 : DmaSem sig := 49
abbrev cc3_sem2_0 : DmaSem sig := 50
abbrev cc3_sem2_1 : DmaSem sig := 51
abbrev cc3_sem3_0 : DmaSem sig := 52
abbrev cc3_sem3_1 : DmaSem sig := 53
abbrev cc3_sem4_0 : DmaSem sig := 54
abbrev cc3_sem4_1 : DmaSem sig := 55
abbrev cc3_sem5_0 : DmaSem sig := 56
abbrev cc3_sem6_0 : DmaSem sig := 57
abbrev cc3_sem7_0 : DmaSem sig := 58
abbrev cc3_sem7_1 : DmaSem sig := 59

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S10000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S10000x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S10000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S10000x128 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S10000x128 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_12 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S32x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x1 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S10000x128 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev stage2_12 : Fin 2 → Memref sig .tc .vmem S10000x128 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S10000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S10000x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S10000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  shapeCasts_S128_S1x128 : S128.ShapeCasts S1x128
  inb_S10000x64_S10000x64_0_0 : ∀ a, (![0, 0] : Fin 2 → Nat) a + S10000x64.size a ≤ S10000x64.size a
  h_S10000x64 : 0 < S10000x64.numel
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x128_S128x128_0_0 : ∀ a, (![0, 0] : Fin 2 → Nat) a + S128x128.size a ≤ S128x128.size a
  h_S128x128 : 0 < S128x128.numel
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  packedbf16_S10000x128_S10000x128_0_0 : (Rect.unit (s := S10000x128) ![0, 0] S10000x128.size inb_S10000x128_S10000x128_0_0).PackedRows (EltTy.packing .bf16)
  bcast_S_S400000 : S_.BroadcastsInDim S400000 (![] : Fin 0 → Fin S400000.rank)
  bcast_S400000_S400000x1_0 : S400000.BroadcastsInDim S400000x1 (![0] : Fin 1 → Fin S400000x1.rank)
  bcast_S400000x1_S400000x128_0_1 : S400000x1.BroadcastsInDim S400000x128 (![0, 1] : Fin 2 → Fin S400000x128.rank)
  bcast_S_S200000x128 : S_.BroadcastsInDim S200000x128 (![] : Fin 0 → Fin S200000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  shapeCasts_S32_S1x32 : S32.ShapeCasts S1x32
  shapeCasts_S1_S1x1 : S1.ShapeCasts S1x1
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  reduces_S10000x128_S10000 : S10000x128.Reduces [1] S10000
  shapeCasts_S10000_S10000x1 : S10000.ShapeCasts S10000x1
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S128x1_S128x1_0_0 : ∀ a, (![0, 0] : Fin 2 → Nat) a + S128x1.size a ≤ S128x1.size a
  h_S128x1 : 0 < S128x1.numel
  concatenates_S10000x1_S10000x1_S10000x126_S10000x128_d1 : Shape.Concatenates [S10000x1, S10000x1, S10000x126] S10000x128 1
  slices_S200000x128_S200000x1_0_0 : S200000x128.Slices ![0, 0] S200000x1
  shapeCasts_S200000x1_S200000 : S200000x1.ShapeCasts S200000
  slices_S200000x128_S200000x1_0_1 : S200000x128.Slices ![0, 1] S200000x1
  dot_S10000x64_S64x128_S10000x128_1_0_0_1_n_n_wf : DotDims.WF S10000x64 S64x128 S10000x128 [1] [0] [0] [1] [] []
  dot_S10000x128_S128x128_S10000x128_1_0_0_1_n_n_wf : DotDims.WF S10000x128 S128x128 S10000x128 [1] [0] [0] [1] [] []
  gather_S50000x128_S400000x1_S400000x128_1_0_n_n_0_1_1128_wf : GatherDims.WF S50000x128 S400000x1 S400000x128 [1] [0] [] [0] [] 1 ![1, 128]
  scatter_S200000x128_S400000x1_S400000x128_1_0_0_1_wf : ScatterDims.WF S200000x128 S400000x1 S400000x128 [1] [0] [0] 1
  scatter_S200000_S400000x1_S400000_n_0_0_1_wf : ScatterDims.WF S200000 S400000x1 S400000 [] [0] [0] 1
  gather_S200000x128_S400000x1_S400000x128_1_0_n_n_0_1_1128_wf : GatherDims.WF S200000x128 S400000x1 S400000x128 [1] [0] [] [0] [] 1 ![1, 128]
  scatter_S50000x128_S400000x1_S400000x128_1_0_0_1_wf : ScatterDims.WF S50000x128 S400000x1 S400000x128 [1] [0] [0] 1
  scatter_S50000_S400000x1_S400000_n_0_0_1_wf : ScatterDims.WF S50000 S400000x1 S400000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S10000x128_S128x32_S10000x32_1_0_0_1_n_n_wf : DotDims.WF S10000x128 S128x32 S10000x32 [1] [0] [0] [1] [] []
  dot_S10000x32_S32x1_S10000x1_1_0_0_1_n_n_wf : DotDims.WF S10000x32 S32x1 S10000x1 [1] [0] [0] [1] [] []
  dot_S10000x128_S128x1_S10000x1_1_0_0_1_n_n_wf : DotDims.WF S10000x128 S128x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S200000x64.size a
  hwx0_0 : ∀ i : grid0.Coords, EltTy.bits .f32 = 32 ∨ (Rect.block (s := S200000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x128.size a ≤ S200000x128.size a
  hwx0_7 : ∀ i : grid0.Coords, EltTy.bits .f32 = 32 ∨ (Rect.block (s := S200000x128) S10000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S10000x128.size a ≤ S200000x128.size a
  hwx0_8 : ∀ i : grid0.Coords, EltTy.bits .bf16 = 32 ∨ (Rect.block (s := S200000x128) S10000x128.size (cc0_transform_8 i) (hinb0_8 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S10000x128.size a ≤ S50000x128.size a
  hwx1_9 : ∀ i : grid1.Coords, EltTy.bits .f32 = 32 ∨ (Rect.block (s := S50000x128) S10000x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S10000x128.size a ≤ S50000x128.size a
  hwx1_10 : ∀ i : grid1.Coords, EltTy.bits .bf16 = 32 ∨ (Rect.block (s := S50000x128) S10000x128.size (cc1_transform_10 i) (hinb1_10 i)).WholeWords (EltTy.packing .bf16)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S10000x128.size a ≤ S50000x128.size a
  hwx1_11 : ∀ i : grid1.Coords, EltTy.bits .bf16 = 32 ∨ (Rect.block (s := S50000x128) S10000x128.size (cc1_transform_11 i) (hinb1_11 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S200000x128.size a
  hwx2_0 : ∀ i : grid2.Coords, EltTy.bits .f32 = 32 ∨ (Rect.block (s := S200000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S200000x128.size a
  hwx2_1 : ∀ i : grid2.Coords, EltTy.bits .f32 = 32 ∨ (Rect.block (s := S200000x128) S10000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S200000x1.size a
  hwx2_2 : ∀ i : grid2.Coords, EltTy.bits .f32 = 32 ∨ (Rect.block (s := S200000x1) S10000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x32.size a ≤ S128x32.size a
  hwx2_5 : ∀ i : grid2.Coords, EltTy.bits .f32 = 32 ∨ (Rect.block (s := S128x32) S128x32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x32.size a ≤ S1x32.size a
  hwx2_6 : ∀ i : grid2.Coords, EltTy.bits .f32 = 32 ∨ (Rect.block (s := S1x32) S1x32.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S32x1.size a ≤ S32x1.size a
  hwx2_7 : ∀ i : grid2.Coords, EltTy.bits .f32 = 32 ∨ (Rect.block (s := S32x1) S32x1.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x1.size a ≤ S1x1.size a
  hwx2_8 : ∀ i : grid2.Coords, EltTy.bits .f32 = 32 ∨ (Rect.block (s := S1x1) S1x1.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128x1.size a ≤ S128x1.size a
  hwx2_9 : ∀ i : grid2.Coords, EltTy.bits .f32 = 32 ∨ (Rect.block (s := S128x1) S128x1.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x1.size a ≤ S1x1.size a
  hwx2_10 : ∀ i : grid2.Coords, EltTy.bits .f32 = 32 ∨ (Rect.block (s := S1x1) S1x1.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S10000x128.size a ≤ S200000x128.size a
  hwx2_11 : ∀ i : grid2.Coords, EltTy.bits .f32 = 32 ∨ (Rect.block (s := S200000x128) S10000x128.size (cc2_transform_11 i) (hinb2_11 i)).WholeWords (EltTy.packing .f32)
  hstage2_12 : ∀ j, (stage2_12 j).IsWhole
  nbuf2_12 : grid2.bufCount reads2_12 false = 2
  hreads2_12 : ∀ i i' : grid2.Coords, (∀ a, reads2_12 a = true → i a = i' a) → cc2_transform_12 i = cc2_transform_12 i'
  hinb2_12 : ∀ (i : grid2.Coords) a, (cc2_transform_12 i a + 1) * S10000x128.size a ≤ S200000x128.size a
  hwx2_12 : ∀ i : grid2.Coords, EltTy.bits .f32 = 32 ∨ (Rect.block (s := S200000x128) S10000x128.size (cc2_transform_12 i) (hinb2_12 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .f32 = 32 ∨ (Rect.block (s := S50000x128) S10000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S50000x128.size a
  hwx3_1 : ∀ i : grid3.Coords, EltTy.bits .f32 = 32 ∨ (Rect.block (s := S50000x128) S10000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S50000x1.size a
  hwx3_2 : ∀ i : grid3.Coords, EltTy.bits .f32 = 32 ∨ (Rect.block (s := S50000x1) S10000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x128.size a ≤ S50000x128.size a
  hwx3_3 : ∀ i : grid3.Coords, EltTy.bits .f32 = 32 ∨ (Rect.block (s := S50000x128) S10000x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x1.size a ≤ S50000x1.size a
  hwx3_4 : ∀ i : grid3.Coords, EltTy.bits .f32 = 32 ∨ (Rect.block (s := S50000x1) S10000x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S10000x128.size a ≤ S50000x128.size a
  hwx3_7 : ∀ i : grid3.Coords, EltTy.bits .f32 = 32 ∨ (Rect.block (s := S50000x128) S10000x128.size (cc3_transform_7 i) (hinb3_7 i)).WholeWords (EltTy.packing .f32)

variable [Facts₀]

def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S200000x128_S400000x1_S400000x128_1_0_0_1 : ScatterDims S200000x128 S400000x1 S400000x128 where
  updateWindowDims := [1]
  insertedWindowDims := [0]
  scatterDimsToOperandDims := [0]
  indexVectorDim := 1
  wf := scatter_S200000x128_S400000x1_S400000x128_1_0_0_1_wf
def scatter_S200000_S400000x1_S400000_n_0_0_1 : ScatterDims S200000 S400000x1 S400000 where
  updateWindowDims := []
  insertedWindowDims := [0]
  scatterDimsToOperandDims := [0]
  indexVectorDim := 1
  wf := scatter_S200000_S400000x1_S400000_n_0_0_1_wf
def gather_S200000x128_S400000x1_S400000x128_1_0_n_n_0_1_1128 : GatherDims S200000x128 S400000x1 S400000x128 where
  offsetDims := [1]
  collapsedSliceDims := [0]
  operandBatchingDims := []
  startIndicesBatchingDims := []
  startIndexMap := [0]
  indexVectorDim := 1
  sliceSizes := ![1, 128]
  wf := gather_S200000x128_S400000x1_S400000x128_1_0_n_n_0_1_1128_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x32_S32x1_S10000x1_1_0_0_1_n_n : DotDims S10000x32 S32x1 S10000x1 where
  lhsContracting := [1]
  rhsContracting := [0]
  lhsNonContracting := [0]
  rhsNonContracting := [1]
  lhsBatch := []
  rhsBatch := []
  wf := dot_S10000x32_S32x1_S10000x1_1_0_0_1_n_n_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg11) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg13) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg21) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3_0) S10000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3_1) S10000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_arg1) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg15) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg17) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg19) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v6) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg23) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v7) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v8_0) S10000x128.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v8_1) S10000x128.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v8_2) S10000x128.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev win2_0 : Pipeline.Window sig grid2 :=
  Pipeline.Window.ofSpec (Memref.whole main_v3_0) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v26) S10000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v63) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v64) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg29) S128x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v65) S1x32.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg31) S32x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v66) S1x1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg33) S128x1.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v67) S1x1.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v68_0) S10000x128.size cc2_transform_11 reads2_11 true false 2 stage2_11 sem2_11
    hrank2 hreads2_11 hinb2_11 nbuf2_11 (Memref.isWhole_whole _) hwx2_11 hstage2_11

abbrev win2_12 : Pipeline.Window sig grid2 :=
  Pipeline.Window.ofSpec (Memref.whole main_v68_1) S10000x128.size cc2_transform_12 reads2_12 true false 2 stage2_12 sem2_12
    hrank2 hreads2_12 hinb2_12 nbuf2_12 (Memref.isWhole_whole _) hwx2_12 hstage2_12

abbrev win2 : Fin 13 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | ⟨_ + 13, h⟩ => absurd h (Nat.not_lt.2 (Nat.le_add_left _ _))
abbrev spec2 : Fin 13 → Pipeline.WinSpec sig grid2.rank := fun w => (win2 w).toWinSpec

abbrev win3_0 : Pipeline.Window sig grid3 :=
  Pipeline.Window.ofSpec (Memref.whole main_v8_0) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v39) S10000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v44) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v57) S10000x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v62) S10000x1.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v69) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v70) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v71) S10000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S200000x64 : Shape := ⟨2, ![200000, 64]⟩
abbrev S50000x128 : Shape := ⟨2, ![50000, 128]⟩
abbrev S400000 : Shape := ⟨1, ![400000]⟩
abbrev S400000x1 : Shape := ⟨2, ![400000, 1]⟩
abbrev S800000 : Shape := ⟨1, ![800000]⟩
abbrev S800000x1 : Shape := ⟨2, ![800000, 1]⟩
abbrev S64x128 : Shape := ⟨2, ![64, 128]⟩
abbrev S128 : Shape := ⟨1, ![128]⟩
abbrev S128x128 : Shape := ⟨2, ![128, 128]⟩
abbrev S128x32 : Shape := ⟨2, ![128, 32]⟩
abbrev S32 : Shape := ⟨1, ![32]⟩
abbrev S32x1 : Shape := ⟨2, ![32, 1]⟩
abbrev S1 : Shape := ⟨1, ![1]⟩
abbrev S128x1 : Shape := ⟨2, ![128, 1]⟩
abbrev S200000x128 : Shape := ⟨2, ![200000, 128]⟩
abbrev S1x128 : Shape := ⟨2, ![1, 128]⟩
abbrev S_ : Shape := ⟨0, ![]⟩
abbrev S400000x128 : Shape := ⟨2, ![400000, 128]⟩
abbrev S200000 : Shape := ⟨1, ![200000]⟩
abbrev S200000x1 : Shape := ⟨2, ![200000, 1]⟩
abbrev S50000 : Shape := ⟨1, ![50000]⟩
abbrev S50000x1 : Shape := ⟨2, ![50000, 1]⟩
abbrev S800000x128 : Shape := ⟨2, ![800000, 128]⟩
abbrev S200000x32 : Shape := ⟨2, ![200000, 32]⟩
abbrev S1x32 : Shape := ⟨2, ![1, 32]⟩
abbrev S1x1 : Shape := ⟨2, ![1, 1]⟩

abbrev nBuf : Space → Nat
  | .hbm => 251
  | .vmem => 0
  | .smem => 0
  | _ => 0

abbrev hbmTy0_0 (i : Nat) : BufTy := match i % 128 with
  | 0 => ⟨S200000x64, .f32⟩
  | 1 => ⟨S50000x128, .f32⟩
  | 2 => ⟨S400000, .i32⟩
  | 3 => ⟨S400000, .i32⟩
  | 4 => ⟨S400000x1, .f32⟩
  | 5 => ⟨S400000, .i32⟩
  | 6 => ⟨S400000, .i32⟩
  | 7 => ⟨S400000x1, .f32⟩
  | 8 => ⟨S800000, .i32⟩
  | 9 => ⟨S800000, .i32⟩
  | 10 => ⟨S800000x1, .f32⟩
  | 11 => ⟨S64x128, .f32⟩
  | 12 => ⟨S128, .f32⟩
  | 13 => ⟨S128x128, .f32⟩
  | 14 => ⟨S128, .f32⟩
  | 15 => ⟨S128x128, .f32⟩
  | 16 => ⟨S128, .f32⟩
  | 17 => ⟨S128x128, .f32⟩
  | 18 => ⟨S128, .f32⟩
  | 19 => ⟨S128x128, .f32⟩
  | 20 => ⟨S128, .f32⟩
  | 21 => ⟨S128x128, .f32⟩
  | 22 => ⟨S128, .f32⟩
  | 23 => ⟨S128x128, .f32⟩
  | 24 => ⟨S128, .f32⟩
  | 25 => ⟨S128, .f32⟩
  | 26 => ⟨S128, .f32⟩
  | 27 => ⟨S128, .f32⟩
  | 28 => ⟨S128, .f32⟩
  | 29 => ⟨S128x32, .f32⟩
  | 30 => ⟨S32, .f32⟩
  | 31 => ⟨S32x1, .f32⟩
  | 32 => ⟨S1, .f32⟩
  | 33 => ⟨S128x1, .f32⟩
  | 34 => ⟨S1, .f32⟩
  | 35 => ⟨S200000x128, .f32⟩
  | 36 => ⟨S1x128, .f32⟩
  | 37 => ⟨S200000x128, .f32⟩
  | 38 => ⟨S200000x128, .f32⟩
  | 39 => ⟨S_, .f32⟩
  | 40 => ⟨S200000x128, .f32⟩
  | 41 => ⟨S200000x128, .f32⟩
  | 42 => ⟨S200000x128, .f32⟩
  | 43 => ⟨S1x128, .f32⟩
  | 44 => ⟨S200000x128, .f32⟩
  | 45 => ⟨S200000x128, .f32⟩
  | 46 => ⟨S_, .f32⟩
  | 47 => ⟨S200000x128, .f32⟩
  | 48 => ⟨S200000x128, .f32⟩
  | 49 => ⟨S50000x128, .f32⟩
  | 50 => ⟨S1x128, .f32⟩
  | 51 => ⟨S50000x128, .f32⟩
  | 52 => ⟨S50000x128, .f32⟩
  | 53 => ⟨S_, .f32⟩
  | 54 => ⟨S50000x128, .f32⟩
  | 55 => ⟨S50000x128, .f32⟩
  | 56 => ⟨S50000x128, .f32⟩
  | 57 => ⟨S1x128, .f32⟩
  | 58 => ⟨S50000x128, .f32⟩
  | 59 => ⟨S50000x128, .f32⟩
  | 60 => ⟨S_, .f32⟩
  | 61 => ⟨S50000x128, .f32⟩
  | 62 => ⟨S50000x128, .f32⟩
  | 63 => ⟨S50000x128, .f32⟩
  | 64 => ⟨S1x128, .f32⟩
  | 65 => ⟨S50000x128, .f32⟩
  | 66 => ⟨S50000x128, .f32⟩
  | 67 => ⟨S_, .i32⟩
  | 68 => ⟨S400000, .i32⟩
  | 69 => ⟨S400000, .i1⟩
  | 70 => ⟨S_, .i32⟩
  | 71 => ⟨S400000, .i32⟩
  | 72 => ⟨S400000, .i32⟩
  | 73 => ⟨S400000, .i32⟩
  | 74 => ⟨S400000x1, .i32⟩
  | 75 => ⟨S400000x128, .f32⟩
  | 76 => ⟨S400000x128, .f32⟩
  | 77 => ⟨S400000x128, .f32⟩
  | 78 => ⟨S_, .f32⟩
  | 79 => ⟨S200000x128, .f32⟩
  | 80 => ⟨S400000x1, .i32⟩
  | 81 => ⟨S200000x128, .f32⟩
  | 82 => ⟨S_, .f32⟩
  | 83 => ⟨S400000, .f32⟩
  | 84 => ⟨S_, .f32⟩
  | 85 => ⟨S200000, .f32⟩
  | 86 => ⟨S400000x1, .i32⟩
  | 87 => ⟨S200000, .f32⟩
  | 88 => ⟨S_, .f32⟩
  | 89 => ⟨S200000, .f32⟩
  | 90 => ⟨S200000, .f32⟩
  | 91 => ⟨S200000x1, .f32⟩
  | 92 => ⟨S200000x128, .f32⟩
  | 93 => ⟨S200000x128, .f32⟩
  | 94 => ⟨S200000x128, .f32⟩
  | 95 => ⟨S1x128, .f32⟩
  | 96 => ⟨S200000x128, .f32⟩
  | 97 => ⟨S200000x128, .f32⟩
  | 98 => ⟨S_, .i32⟩
  | 99 => ⟨S400000, .i32⟩
  | 100 => ⟨S400000, .i1⟩
  | 101 => ⟨S_, .i32⟩
  | 102 => ⟨S400000, .i32⟩
  | 103 => ⟨S400000, .i32⟩
  | 104 => ⟨S400000, .i32⟩
  | 105 => ⟨S400000x1, .i32⟩
  | 106 => ⟨S400000x128, .f32⟩
  | 107 => ⟨S400000x128, .f32⟩
  | 108 => ⟨S400000x128, .f32⟩
  | 109 => ⟨S_, .f32⟩
  | 110 => ⟨S50000x128, .f32⟩
  | 111 => ⟨S400000x1, .i32⟩
  | 112 => ⟨S50000x128, .f32⟩
  | 113 => ⟨S_, .f32⟩
  | 114 => ⟨S400000, .f32⟩
  | 115 => ⟨S_, .f32⟩
  | 116 => ⟨S50000, .f32⟩
  | 117 => ⟨S400000x1, .i32⟩
  | 118 => ⟨S50000, .f32⟩
  | 119 => ⟨S_, .f32⟩
  | 120 => ⟨S50000, .f32⟩
  | 121 => ⟨S50000, .f32⟩
  | 122 => ⟨S50000x1, .f32⟩
  | 123 => ⟨S50000x128, .f32⟩
  | 124 => ⟨S50000x128, .f32⟩
  | 125 => ⟨S50000x128, .f32⟩
  | 126 => ⟨S1x128, .f32⟩
  | 127 => ⟨S50000x128, .f32⟩
  | _ => ⟨S200000x64, .f32⟩

abbrev hbmTy0_1 (i : Nat) : BufTy := match i % 128 with
  | 0 => ⟨S50000x128, .f32⟩
  | 1 => ⟨S_, .i32⟩
  | 2 => ⟨S800000, .i32⟩
  | 3 => ⟨S800000, .i1⟩
  | 4 => ⟨S_, .i32⟩
  | 5 => ⟨S800000, .i32⟩
  | 6 => ⟨S800000, .i32⟩
  | 7 => ⟨S800000, .i32⟩
  | 8 => ⟨S800000x1, .i32⟩
  | 9 => ⟨S800000x128, .f32⟩
  | 10 => ⟨S800000x128, .f32⟩
  | 11 => ⟨S800000x128, .f32⟩
  | 12 => ⟨S_, .f32⟩
  | 13 => ⟨S50000x128, .f32⟩
  | 14 => ⟨S800000x1, .i32⟩
  | 15 => ⟨S50000x128, .f32⟩
  | 16 => ⟨S_, .f32⟩
  | 17 => ⟨S800000, .f32⟩
  | 18 => ⟨S_, .f32⟩
  | 19 => ⟨S50000, .f32⟩
  | 20 => ⟨S800000x1, .i32⟩
  | 21 => ⟨S50000, .f32⟩
  | 22 => ⟨S_, .f32⟩
  | 23 => ⟨S50000, .f32⟩
  | 24 => ⟨S50000, .f32⟩
  | 25 => ⟨S50000x1, .f32⟩
  | 26 => ⟨S50000x128, .f32⟩
  | 27 => ⟨S50000x128, .f32⟩
  | 28 => ⟨S50000x128, .f32⟩
  | 29 => ⟨S_, .f32⟩
  | 30 => ⟨S200000, .f32⟩
  | 31 => ⟨S200000x1, .f32⟩
  | 32 => ⟨S_, .f32⟩
  | 33 => ⟨S200000x1, .f32⟩
  | 34 => ⟨S200000x1, .f32⟩
  | 35 => ⟨S200000x128, .f32⟩
  | 36 => ⟨S200000x128, .f32⟩
  | 37 => ⟨S200000x128, .f32⟩
  | 38 => ⟨S_, .f32⟩
  | 39 => ⟨S200000, .f32⟩
  | 40 => ⟨S200000x1, .f32⟩
  | 41 => ⟨S_, .f32⟩
  | 42 => ⟨S200000x1, .f32⟩
  | 43 => ⟨S200000x1, .f32⟩
  | 44 => ⟨S200000x128, .f32⟩
  | 45 => ⟨S200000x128, .f32⟩
  | 46 => ⟨S_, .f32⟩
  | 47 => ⟨S200000x1, .f32⟩
  | 48 => ⟨S200000x1, .f32⟩
  | 49 => ⟨S200000x1, .f32⟩
  | 50 => ⟨S200000x128, .f32⟩
  | 51 => ⟨S200000x128, .f32⟩
  | 52 => ⟨S1x128, .f32⟩
  | 53 => ⟨S200000x128, .f32⟩
  | 54 => ⟨S200000x128, .f32⟩
  | 55 => ⟨S1x128, .f32⟩
  | 56 => ⟨S200000x128, .f32⟩
  | 57 => ⟨S200000x128, .f32⟩
  | 58 => ⟨S_, .f32⟩
  | 59 => ⟨S50000, .f32⟩
  | 60 => ⟨S50000x1, .f32⟩
  | 61 => ⟨S_, .f32⟩
  | 62 => ⟨S50000x1, .f32⟩
  | 63 => ⟨S50000x1, .f32⟩
  | 64 => ⟨S50000x128, .f32⟩
  | 65 => ⟨S50000x128, .f32⟩
  | 66 => ⟨S50000x128, .f32⟩
  | 67 => ⟨S_, .f32⟩
  | 68 => ⟨S50000, .f32⟩
  | 69 => ⟨S50000x1, .f32⟩
  | 70 => ⟨S_, .f32⟩
  | 71 => ⟨S50000x1, .f32⟩
  | 72 => ⟨S50000x1, .f32⟩
  | 73 => ⟨S50000x128, .f32⟩
  | 74 => ⟨S50000x128, .f32⟩
  | 75 => ⟨S_, .f32⟩
  | 76 => ⟨S50000x1, .f32⟩
  | 77 => ⟨S50000x1, .f32⟩
  | 78 => ⟨S50000x1, .f32⟩
  | 79 => ⟨S50000x128, .f32⟩
  | 80 => ⟨S50000x128, .f32⟩
  | 81 => ⟨S1x128, .f32⟩
  | 82 => ⟨S50000x128, .f32⟩
  | 83 => ⟨S50000x128, .f32⟩
  | 84 => ⟨S1x128, .f32⟩
  | 85 => ⟨S50000x128, .f32⟩
  | 86 => ⟨S50000x128, .f32⟩
  | 87 => ⟨S200000x32, .f32⟩
  | 88 => ⟨S1x32, .f32⟩
  | 89 => ⟨S200000x32, .f32⟩
  | 90 => ⟨S200000x32, .f32⟩
  | 91 => ⟨S_, .f32⟩
  | 92 => ⟨S200000x32, .f32⟩
  | 93 => ⟨S200000x32, .f32⟩
  | 94 => ⟨S200000x1, .f32⟩
  | 95 => ⟨S1x1, .f32⟩
  | 96 => ⟨S200000x1, .f32⟩
  | 97 => ⟨S200000x1, .f32⟩
  | 98 => ⟨S200000x1, .f32⟩
  | 99 => ⟨S200000x1, .f32⟩
  | 100 => ⟨S_, .f32⟩
  | 101 => ⟨S200000x1, .f32⟩
  | 102 => ⟨S200000x1, .f32⟩
  | 103 => ⟨S_, .f32⟩
  | 104 => ⟨S200000x1, .f32⟩
  | 105 => ⟨S200000x1, .f32⟩
  | 106 => ⟨S200000x128, .f32⟩
  | 107 => ⟨S200000x128, .f32⟩
  | 108 => ⟨S_, .f32⟩
  | 109 => ⟨S200000x1, .f32⟩
  | 110 => ⟨S200000x1, .f32⟩
  | 111 => ⟨S200000x128, .f32⟩
  | 112 => ⟨S200000x128, .f32⟩
  | 113 => ⟨S200000x128, .f32⟩
  | 114 => ⟨S_, .f32⟩
  | 115 => ⟨S200000x128, .f32⟩
  | 116 => ⟨S200000x128, .f32⟩
  | 117 => ⟨S200000x1, .f32⟩
  | 118 => ⟨S1x1, .f32⟩
  | 119 => ⟨S200000x1, .f32⟩
  | 120 => ⟨S200000x1, .f32⟩
  | 121 => ⟨S200000, .f32⟩
  | 122 => ⟨S50000x128, .f32⟩
  | _ => ⟨S200000x64, .f32⟩

abbrev hbmTy (i : Nat) : BufTy := match i / 128 with
  | 0 => hbmTy0_0 i
  | 1 => hbmTy0_1 i
  | _ => ⟨S200000x64, .f32⟩

abbrev bufTy : (tb : Table) → Fin (tcTables nBuf tb) → BufTy
  | .hbm, ⟨i, _⟩ => hbmTy i
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_v0 : Ref sig .tc := ⟨.hbm, 35, rfl⟩
abbrev main_v1 : Ref sig .tc := ⟨.hbm, 36, rfl⟩
abbrev main_v2 : Ref sig .tc := ⟨.hbm, 37, rfl⟩
abbrev main_v3 : Ref sig .tc := ⟨.hbm, 38, rfl⟩
abbrev main_call0_cst : Ref sig .tc := ⟨.hbm, 39, rfl⟩
abbrev main_call0_v0 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_call1_cst : Ref sig .tc := ⟨.hbm, 46, rfl⟩
abbrev main_call1_v0 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_call2_cst : Ref sig .tc := ⟨.hbm, 53, rfl⟩
abbrev main_call2_v0 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_call3_cst : Ref sig .tc := ⟨.hbm, 60, rfl⟩
abbrev main_call3_v0 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_c : Ref sig .tc := ⟨.hbm, 67, rfl⟩
abbrev main_v24 : Ref sig .tc := ⟨.hbm, 68, rfl⟩
abbrev main_v25 : Ref sig .tc := ⟨.hbm, 69, rfl⟩
abbrev main_c_0 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_cst : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_cst_1 : Ref sig .tc := ⟨.hbm, 82, rfl⟩
abbrev main_v36 : Ref sig .tc := ⟨.hbm, 83, rfl⟩
abbrev main_cst_2 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_cst_3 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_c_4 : Ref sig .tc := ⟨.hbm, 98, rfl⟩
abbrev main_v49 : Ref sig .tc := ⟨.hbm, 99, rfl⟩
abbrev main_v50 : Ref sig .tc := ⟨.hbm, 100, rfl⟩
abbrev main_c_5 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_cst_6 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_cst_7 : Ref sig .tc := ⟨.hbm, 113, rfl⟩
abbrev main_v61 : Ref sig .tc := ⟨.hbm, 114, rfl⟩
abbrev main_cst_8 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_cst_9 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_c_10 : Ref sig .tc := ⟨.hbm, 129, rfl⟩
abbrev main_v74 : Ref sig .tc := ⟨.hbm, 130, rfl⟩
abbrev main_v75 : Ref sig .tc := ⟨.hbm, 131, rfl⟩
abbrev main_c_11 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_cst_12 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_cst_13 : Ref sig .tc := ⟨.hbm, 144, rfl⟩
abbrev main_v86 : Ref sig .tc := ⟨.hbm, 145, rfl⟩
abbrev main_cst_14 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_cst_15 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_cst_16 : Ref sig .tc := ⟨.hbm, 157, rfl⟩
abbrev main_v96 : Ref sig .tc := ⟨.hbm, 158, rfl⟩
abbrev main_v97 : Ref sig .tc := ⟨.hbm, 159, rfl⟩
abbrev main_cst_17 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_cst_18 : Ref sig .tc := ⟨.hbm, 166, rfl⟩
abbrev main_v103 : Ref sig .tc := ⟨.hbm, 167, rfl⟩
abbrev main_v104 : Ref sig .tc := ⟨.hbm, 168, rfl⟩
abbrev main_cst_19 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_cst_20 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_cst_21 : Ref sig .tc := ⟨.hbm, 186, rfl⟩
abbrev main_v120 : Ref sig .tc := ⟨.hbm, 187, rfl⟩
abbrev main_v121 : Ref sig .tc := ⟨.hbm, 188, rfl⟩
abbrev main_cst_22 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩
abbrev main_cst_23 : Ref sig .tc := ⟨.hbm, 195, rfl⟩
abbrev main_v127 : Ref sig .tc := ⟨.hbm, 196, rfl⟩
abbrev main_v128 : Ref sig .tc := ⟨.hbm, 197, rfl⟩
abbrev main_cst_24 : Ref sig .tc := ⟨.hbm, 198, rfl⟩
abbrev main_v129 : Ref sig .tc := ⟨.hbm, 199, rfl⟩
abbrev main_v130 : Ref sig .tc := ⟨.hbm, 200, rfl⟩
abbrev main_v131 : Ref sig .tc := ⟨.hbm, 201, rfl⟩
abbrev main_v132 : Ref sig .tc := ⟨.hbm, 202, rfl⟩
abbrev main_cst_25 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_v139 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_v146 : Ref sig .tc := ⟨.hbm, 217, rfl⟩
abbrev main_v147 : Ref sig .tc := ⟨.hbm, 218, rfl⟩
abbrev main_call4_cst : Ref sig .tc := ⟨.hbm, 219, rfl⟩
abbrev main_call4_v0 : Ref sig .tc := ⟨.hbm, 220, rfl⟩
abbrev main_v148 : Ref sig .tc := ⟨.hbm, 221, rfl⟩
abbrev main_v149 : Ref sig .tc := ⟨.hbm, 222, rfl⟩
abbrev main_v150 : Ref sig .tc := ⟨.hbm, 223, rfl⟩
abbrev main_v151 : Ref sig .tc := ⟨.hbm, 224, rfl⟩
abbrev main_v152 : Ref sig .tc := ⟨.hbm, 225, rfl⟩
abbrev main_v153 : Ref sig .tc := ⟨.hbm, 226, rfl⟩
abbrev main_v154 : Ref sig .tc := ⟨.hbm, 227, rfl⟩
abbrev main_cst_26 : Ref sig .tc := ⟨.hbm, 228, rfl⟩
abbrev main_v155 : Ref sig .tc := ⟨.hbm, 229, rfl⟩
abbrev main_v156 : Ref sig .tc := ⟨.hbm, 230, rfl⟩
abbrev main_cst_27 : Ref sig .tc := ⟨.hbm, 231, rfl⟩
abbrev main_v157 : Ref sig .tc := ⟨.hbm, 232, rfl⟩
abbrev main_v158 : Ref sig .tc := ⟨.hbm, 233, rfl⟩
abbrev main_v159 : Ref sig .tc := ⟨.hbm, 234, rfl⟩
abbrev main_v160 : Ref sig .tc := ⟨.hbm, 235, rfl⟩
abbrev main_cst_28 : Ref sig .tc := ⟨.hbm, 236, rfl⟩
abbrev main_v161 : Ref sig .tc := ⟨.hbm, 237, rfl⟩
abbrev main_v162 : Ref sig .tc := ⟨.hbm, 238, rfl⟩
abbrev main_v163 : Ref sig .tc := ⟨.hbm, 239, rfl⟩
abbrev main_v164 : Ref sig .tc := ⟨.hbm, 240, rfl⟩
abbrev main_v165 : Ref sig .tc := ⟨.hbm, 241, rfl⟩
abbrev main_call5_cst : Ref sig .tc := ⟨.hbm, 242, rfl⟩
abbrev main_call5_v0 : Ref sig .tc := ⟨.hbm, 243, rfl⟩
abbrev main_v166 : Ref sig .tc := ⟨.hbm, 244, rfl⟩
abbrev main_v167 : Ref sig .tc := ⟨.hbm, 245, rfl⟩
abbrev main_v168 : Ref sig .tc := ⟨.hbm, 246, rfl⟩
abbrev main_v169 : Ref sig .tc := ⟨.hbm, 247, rfl⟩
abbrev main_v170 : Ref sig .tc := ⟨.hbm, 248, rfl⟩
abbrev main_v171 : Ref sig .tc := ⟨.hbm, 249, rfl⟩
abbrev main_v172 : Ref sig .tc := ⟨.hbm, 250, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S_S400000 : S_.BroadcastsInDim S400000 (![] : Fin 0 → Fin S400000.rank)
  bcast_S400000_S400000x1_0 : S400000.BroadcastsInDim S400000x1 (![0] : Fin 1 → Fin S400000x1.rank)
  bcast_S400000x1_S400000x128_0_1 : S400000x1.BroadcastsInDim S400000x128 (![0, 1] : Fin 2 → Fin S400000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  reducesTo_S200000x128_S200000_d1 : S200000x128.ReducesTo [1] S200000
  h_S_ : 0 < S_.numel
  bcast_S_S200000x1 : S_.BroadcastsInDim S200000x1 (![] : Fin 0 → Fin S200000x1.rank)
  reducesTo_S50000x128_S50000_d1 : S50000x128.ReducesTo [1] S50000
  bcast_S_S50000x1 : S_.BroadcastsInDim S50000x1 (![] : Fin 0 → Fin S50000x1.rank)
  bcast_S32_S1x32_1 : S32.BroadcastsInDim S1x32 (![1] : Fin 1 → Fin S1x32.rank)
  bcast_S1x32_S200000x32_0_1 : S1x32.BroadcastsInDim S200000x32 (![0, 1] : Fin 2 → Fin S200000x32.rank)
  bcast_S_S200000x32 : S_.BroadcastsInDim S200000x32 (![] : Fin 0 → Fin S200000x32.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  shapeCasts_S200000x1_S200000 : S200000x1.ShapeCasts S200000
  dot_S200000x64_S64x128_S200000x128_1_0_0_1_n_n_wf : DotDims.WF S200000x64 S64x128 S200000x128 [1] [0] [0] [1] [] []
  dot_S200000x128_S128x128_S200000x128_1_0_0_1_n_n_wf : DotDims.WF S200000x128 S128x128 S200000x128 [1] [0] [0] [1] [] []
  dot_S50000x128_S128x128_S50000x128_1_0_0_1_n_n_wf : DotDims.WF S50000x128 S128x128 S50000x128 [1] [0] [0] [1] [] []
  gather_S50000x128_S400000x1_S400000x128_1_0_n_n_0_1_1128_wf : GatherDims.WF S50000x128 S400000x1 S400000x128 [1] [0] [] [0] [] 1 ![1, 128]
  scatter_S200000x128_S400000x1_S400000x128_1_0_0_1_wf : ScatterDims.WF S200000x128 S400000x1 S400000x128 [1] [0] [0] 1
  scatter_S200000_S400000x1_S400000_n_0_0_1_wf : ScatterDims.WF S200000 S400000x1 S400000 [] [0] [0] 1
  gather_S200000x128_S400000x1_S400000x128_1_0_n_n_0_1_1128_wf : GatherDims.WF S200000x128 S400000x1 S400000x128 [1] [0] [] [0] [] 1 ![1, 128]
  scatter_S50000x128_S400000x1_S400000x128_1_0_0_1_wf : ScatterDims.WF S50000x128 S400000x1 S400000x128 [1] [0] [0] 1
  scatter_S50000_S400000x1_S400000_n_0_0_1_wf : ScatterDims.WF S50000 S400000x1 S400000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S200000x128_S128x32_S200000x32_1_0_0_1_n_n_wf : DotDims.WF S200000x128 S128x32 S200000x32 [1] [0] [0] [1] [] []
  dot_S200000x32_S32x1_S200000x1_1_0_0_1_n_n_wf : DotDims.WF S200000x32 S32x1 S200000x1 [1] [0] [0] [1] [] []
  dot_S200000x128_S128x1_S200000x1_1_0_0_1_n_n_wf : DotDims.WF S200000x128 S128x1 S200000x1 [1] [0] [0] [1] [] []

variable [Facts₀]

def dot_S200000x64_S64x128_S200000x128_1_0_0_1_n_n : DotDims S200000x64 S64x128 S200000x128 where
  lhsContracting := [1]
  rhsContracting := [0]
  lhsNonContracting := [0]
  rhsNonContracting := [1]
  lhsBatch := []
  rhsBatch := []
  wf := dot_S200000x64_S64x128_S200000x128_1_0_0_1_n_n_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S200000x128_S400000x1_S400000x128_1_0_0_1 : ScatterDims S200000x128 S400000x1 S400000x128 where
  updateWindowDims := [1]
  insertedWindowDims := [0]
  scatterDimsToOperandDims := [0]
  indexVectorDim := 1
  wf := scatter_S200000x128_S400000x1_S400000x128_1_0_0_1_wf
def scatter_S200000_S400000x1_S400000_n_0_0_1 : ScatterDims S200000 S400000x1 S400000 where
  updateWindowDims := []
  insertedWindowDims := [0]
  scatterDimsToOperandDims := [0]
  indexVectorDim := 1
  wf := scatter_S200000_S400000x1_S400000_n_0_0_1_wf
def gather_S200000x128_S400000x1_S400000x128_1_0_n_n_0_1_1128 : GatherDims S200000x128 S400000x1 S400000x128 where
  offsetDims := [1]
  collapsedSliceDims := [0]
  operandBatchingDims := []
  startIndicesBatchingDims := []
  startIndexMap := [0]
  indexVectorDim := 1
  sliceSizes := ![1, 128]
  wf := gather_S200000x128_S400000x1_S400000x128_1_0_n_n_0_1_1128_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S200000x128_S128x32_S200000x32_1_0_0_1_n_n : DotDims S200000x128 S128x32 S200000x32 where
  lhsContracting := [1]
  rhsContracting := [0]
  lhsNonContracting := [0]
  rhsNonContracting := [1]
  lhsBatch := []
  rhsBatch := []
  wf := dot_S200000x128_S128x32_S200000x32_1_0_0_1_n_n_wf
def dot_S200000x32_S32x1_S200000x1_1_0_0_1_n_n : DotDims S200000x32 S32x1 S200000x1 where
  lhsContracting := [1]
  rhsContracting := [0]
  lhsNonContracting := [0]
  rhsNonContracting := [1]
  lhsBatch := []
  rhsBatch := []
  wf := dot_S200000x32_S32x1_S200000x1_1_0_0_1_n_n_wf
def dot_S200000x128_S128x1_S200000x1_1_0_0_1_n_n : DotDims S200000x128 S128x1 S200000x1 where
  lhsContracting := [1]
  rhsContracting := [0]
  lhsNonContracting := [0]
  rhsNonContracting := [1]
  lhsBatch := []
  rhsBatch := []
  wf := dot_S200000x128_S128x1_S200000x1_1_0_0_1_n_n_wf

class Facts : Prop extends Facts₀ where

variable [Facts]
-- ==== Proof.KernelRun.lean ====
/-
  The kernel's run with its final buffer contents named.

  @main is four pipelined regions among stretches of host operations. The contents of every buffer at each
  boundary are a fold from the launch memory: a stretch applies its operations, a region leaves each of its arrays
  at what its write-backs leave and every other buffer as entered. Every weakly fair execution terminates without
  a fault, and at the end every buffer that is not scoped to a region holds the last boundary's contents.
-/
import proofs.«181421_j6158983102955_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and every buffer not scoped to a region ends
    at the contents the fold of boundaries gives it. -/
theorem run_final : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W9 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c b hb => h c _ (mem_uc b hb))

end Cert.KernelIdeal.RunValue

end
-- ==== Proof.BoundaryWalk.lean ====
/-
  Which contents each region finds in the buffers it reads, and where the results end.

  The contents of the buffers at the boundaries between @main's segments are a fold from the launch memory. A
  buffer that a stretch of host operations does not write, and that a region does not hold as an output array, is
  the same before and after it; so a buffer's contents at a boundary are read by walking back to the segment that
  wrote it: the launch memory for an argument, a region's output array, or a host operation's result.
-/
import proofs.«181421_j6158983102955_2_alg».proof.Proof.Gen.KernelIdeal.Frame
import Idealize.ShloMosaic.Lib.StableHlo.Run
import Idealize.ShloMosaic.Lib.ValueIdx
import Idealize.ShloMosaic.Lib.ValueLayout

set_option maxRecDepth 16384

noncomputable section

namespace Cert.KernelIdeal.RunValue

open Cert.KernelIdeal Cert.KernelIdeal.Gen
open Idealize.ShloMosaic Idealize.ShloMosaic.ValueIdx Idealize.ShloMosaic.TcCoe Idealize.ShloMosaic.Tactic Idealize.SL.Sem

variable {F : FTy → Type} [FloatOps F]
variable (m : (ℓ : Loc nD τ sig) → Buf (Elt F) ℓ) (ρ : Dev nD → PrngReg)

/-- A buffer that no operation of a stretch writes holds after the stretch what it held before. -/
macro "stretch_keeps" : tactic => `(tactic| (
  refine StableHlo.after_of_forall_not_mem _ _ (List.forall_iff_forall_mem.mp ?_)
  simp only [hostOps0, hostOps1, hostOps2, hostOps3, hostOps4, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

theorem at1_main_arg0 (c : Dev nD) : W1 m ρ c (Proc.devRef .tc main_arg0) = m ((c : Thread nD τ).loc main_arg0) :=
  calc W1 m ρ c (Proc.devRef .tc main_arg0)
    _ = W0 m ρ c (Proc.devRef .tc main_arg0) := by stretch_keeps
    _ = m ((c : Thread nD τ).loc main_arg0) := rfl

theorem at1_main_arg11 (c : Dev nD) : W1 m ρ c (Proc.devRef .tc main_arg11) = m ((c : Thread nD τ).loc main_arg11) :=
  calc W1 m ρ c (Proc.devRef .tc main_arg11)
    _ = W0 m ρ c (Proc.devRef .tc main_arg11) := by stretch_keeps
    _ = m ((c : Thread nD τ).loc main_arg11) := rfl

theorem at1_main_arg13 (c : Dev nD) : W1 m ρ c (Proc.devRef .tc main_arg13) = m ((c : Thread nD τ).loc main_arg13) :=
  calc W1 m ρ c (Proc.devRef .tc main_arg13)
    _ = W0 m ρ c (Proc.devRef .tc main_arg13) := by stretch_keeps
    _ = m ((c : Thread nD τ).loc main_arg13) := rfl

theorem at1_main_arg21 (c : Dev nD) : W1 m ρ c (Proc.devRef .tc main_arg21) = m ((c : Thread nD τ).loc main_arg21) :=
  calc W1 m ρ c (Proc.devRef .tc main_arg21)
    _ = W0 m ρ c (Proc.devRef .tc main_arg21) := by stretch_keeps
    _ = m ((c : Thread nD τ).loc main_arg21) := rfl

theorem at0_main_arg12 (c : Dev nD) : W0 m ρ c (Proc.devRef .tc main_arg12) = m ((c : Thread nD τ).loc main_arg12) :=
  calc W0 m ρ c (Proc.devRef .tc main_arg12)
    _ = m ((c : Thread nD τ).loc main_arg12) := rfl

theorem at0_main_arg14 (c : Dev nD) : W0 m ρ c (Proc.devRef .tc main_arg14) = m ((c : Thread nD τ).loc main_arg14) :=
  calc W0 m ρ c (Proc.devRef .tc main_arg14)
    _ = m ((c : Thread nD τ).loc main_arg14) := rfl

theorem at0_main_arg22 (c : Dev nD) : W0 m ρ c (Proc.devRef .tc main_arg22) = m ((c : Thread nD τ).loc main_arg22) :=
  calc W0 m ρ c (Proc.devRef .tc main_arg22)
    _ = m ((c : Thread nD τ).loc main_arg22) := rfl

theorem at3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := by stretch_keeps
    _ = W1 m ρ c (Proc.devRef .tc main_arg1) := W2_of_ne m ρ c main_arg1 (by decide)
    _ = W0 m ρ c (Proc.devRef .tc main_arg1) := by stretch_keeps
    _ = m ((c : Thread nD τ).loc main_arg1) := rfl

theorem at3_main_arg15 (c : Dev nD) : W3 m ρ c (Proc.devRef .tc main_arg15) = m ((c : Thread nD τ).loc main_arg15) :=
  calc W3 m ρ c (Proc.devRef .tc main_arg15)
    _ = W2 m ρ c (Proc.devRef .tc main_arg15) := by stretch_keeps
    _ = W1 m ρ c (Proc.devRef .tc main_arg15) := W2_of_ne m ρ c main_arg15 (by decide)
    _ = W0 m ρ c (Proc.devRef .tc main_arg15) := by stretch_keeps
    _ = m ((c : Thread nD τ).loc main_arg15) := rfl

theorem at3_main_arg17 (c : Dev nD) : W3 m ρ c (Proc.devRef .tc main_arg17) = m ((c : Thread nD τ).loc main_arg17) :=
  calc W3 m ρ c (Proc.devRef .tc main_arg17)
    _ = W2 m ρ c (Proc.devRef .tc main_arg17) := by stretch_keeps
    _ = W1 m ρ c (Proc.devRef .tc main_arg17) := W2_of_ne m ρ c main_arg17 (by decide)
    _ = W0 m ρ c (Proc.devRef .tc main_arg17) := by stretch_keeps
    _ = m ((c : Thread nD τ).loc main_arg17) := rfl

theorem at3_main_arg19 (c : Dev nD) : W3 m ρ c (Proc.devRef .tc main_arg19) = m ((c : Thread nD τ).loc main_arg19) :=
  calc W3 m ρ c (Proc.devRef .tc main_arg19)
    _ = W2 m ρ c (Proc.devRef .tc main_arg19) := by stretch_keeps
    _ = W1 m ρ c (Proc.devRef .tc main_arg19) := W2_of_ne m ρ c main_arg19 (by decide)
    _ = W0 m ρ c (Proc.devRef .tc main_arg19) := by stretch_keeps
    _ = m ((c : Thread nD τ).loc main_arg19) := rfl

theorem at3_main_arg23 (c : Dev nD) : W3 m ρ c (Proc.devRef .tc main_arg23) = m ((c : Thread nD τ).loc main_arg23) :=
  calc W3 m ρ c (Proc.devRef .tc main_arg23)
    _ = W2 m ρ c (Proc.devRef .tc main_arg23) := by stretch_keeps
    _ = W1 m ρ c (Proc.devRef .tc main_arg23) := W2_of_ne m ρ c main_arg23 (by decide)
    _ = W0 m ρ c (Proc.devRef .tc main_arg23) := by stretch_keeps
    _ = m ((c : Thread nD τ).loc main_arg23) := rfl

theorem at2_main_arg16 (c : Dev nD) : W2 m ρ c (Proc.devRef .tc main_arg16) = m ((c : Thread nD τ).loc main_arg16) :=
  calc W2 m ρ c (Proc.devRef .tc main_arg16)
    _ = W1 m ρ c (Proc.devRef .tc main_arg16) := W2_of_ne m ρ c main_arg16 (by decide)
    _ = W0 m ρ c (Proc.devRef .tc main_arg16) := by stretch_keeps
    _ = m ((c : Thread nD τ).loc main_arg16) := rfl

theorem at2_main_arg18 (c : Dev nD) : W2 m ρ c (Proc.devRef .tc main_arg18) = m ((c : Thread nD τ).loc main_arg18) :=
  calc W2 m ρ c (Proc.devRef .tc main_arg18)
    _ = W1 m ρ c (Proc.devRef .tc main_arg18) := W2_of_ne m ρ c main_arg18 (by decide)
    _ = W0 m ρ c (Proc.devRef .tc main_arg18) := by stretch_keeps
    _ = m ((c : Thread nD τ).loc main_arg18) := rfl

theorem at2_main_arg20 (c : Dev nD) : W2 m ρ c (Proc.devRef .tc main_arg20) = m ((c : Thread nD τ).loc main_arg20) :=
  calc W2 m ρ c (Proc.devRef .tc main_arg20)
    _ = W1 m ρ c (Proc.devRef .tc main_arg20) := W2_of_ne m ρ c main_arg20 (by decide)
    _ = W0 m ρ c (Proc.devRef .tc main_arg20) := by stretch_keeps
    _ = m ((c : Thread nD τ).loc main_arg20) := rfl

theorem at2_main_arg24 (c : Dev nD) : W2 m ρ c (Proc.devRef .tc main_arg24) = m ((c : Thread nD τ).loc main_arg24) :=
  calc W2 m ρ c (Proc.devRef .tc main_arg24)
    _ = W1 m ρ c (Proc.devRef .tc main_arg24) := W2_of_ne m ρ c main_arg24 (by decide)
    _ = W0 m ρ c (Proc.devRef .tc main_arg24) := by stretch_keeps
    _ = m ((c : Thread nD τ).loc main_arg24) := rfl

theorem at5_main_v3_0 (c : Dev nD) : W5 m ρ c (Proc.devRef .tc main_v3_0) = (dat0 (V1 m ρ) c).arrAt 7 cfg0.N :=
  calc W5 m ρ c (Proc.devRef .tc main_v3_0)
    _ = W4 m ρ c (Proc.devRef .tc main_v3_0) := by stretch_keeps
    _ = W3 m ρ c (Proc.devRef .tc main_v3_0) := W4_of_ne m ρ c main_v3_0 (by decide)
    _ = W2 m ρ c (Proc.devRef .tc main_v3_0) := by stretch_keeps
    _ = (dat0 (V1 m ρ) c).arrAt 7 cfg0.N := W2_arr m ρ c 7

theorem at5_main_arg29 (c : Dev nD) : W5 m ρ c (Proc.devRef .tc main_arg29) = m ((c : Thread nD τ).loc main_arg29) :=
  calc W5 m ρ c (Proc.devRef .tc main_arg29)
    _ = W4 m ρ c (Proc.devRef .tc main_arg29) := by stretch_keeps
    _ = W3 m ρ c (Proc.devRef .tc main_arg29) := W4_of_ne m ρ c main_arg29 (by decide)
    _ = W2 m ρ c (Proc.devRef .tc main_arg29) := by stretch_keeps
    _ = W1 m ρ c (Proc.devRef .tc main_arg29) := W2_of_ne m ρ c main_arg29 (by decide)
    _ = W0 m ρ c (Proc.devRef .tc main_arg29) := by stretch_keeps
    _ = m ((c : Thread nD τ).loc main_arg29) := rfl

theorem at5_main_arg31 (c : Dev nD) : W5 m ρ c (Proc.devRef .tc main_arg31) = m ((c : Thread nD τ).loc main_arg31) :=
  calc W5 m ρ c (Proc.devRef .tc main_arg31)
    _ = W4 m ρ c (Proc.devRef .tc main_arg31) := by stretch_keeps
    _ = W3 m ρ c (Proc.devRef .tc main_arg31) := W4_of_ne m ρ c main_arg31 (by decide)
    _ = W2 m ρ c (Proc.devRef .tc main_arg31) := by stretch_keeps
    _ = W1 m ρ c (Proc.devRef .tc main_arg31) := W2_of_ne m ρ c main_arg31 (by decide)
    _ = W0 m ρ c (Proc.devRef .tc main_arg31) := by stretch_keeps
    _ = m ((c : Thread nD τ).loc main_arg31) := rfl

theorem at5_main_arg33 (c : Dev nD) : W5 m ρ c (Proc.devRef .tc main_arg33) = m ((c : Thread nD τ).loc main_arg33) :=
  calc W5 m ρ c (Proc.devRef .tc main_arg33)
    _ = W4 m ρ c (Proc.devRef .tc main_arg33) := by stretch_keeps
    _ = W3 m ρ c (Proc.devRef .tc main_arg33) := W4_of_ne m ρ c main_arg33 (by decide)
    _ = W2 m ρ c (Proc.devRef .tc main_arg33) := by stretch_keeps
    _ = W1 m ρ c (Proc.devRef .tc main_arg33) := W2_of_ne m ρ c main_arg33 (by decide)
    _ = W0 m ρ c (Proc.devRef .tc main_arg33) := by stretch_keeps
    _ = m ((c : Thread nD τ).loc main_arg33) := rfl

theorem at4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := by stretch_keeps
    _ = W1 m ρ c (Proc.devRef .tc main_arg2) := W2_of_ne m ρ c main_arg2 (by decide)
    _ = W0 m ρ c (Proc.devRef .tc main_arg2) := by stretch_keeps
    _ = m ((c : Thread nD τ).loc main_arg2) := rfl

theorem at4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := by stretch_keeps
    _ = W1 m ρ c (Proc.devRef .tc main_arg3) := W2_of_ne m ρ c main_arg3 (by decide)
    _ = W0 m ρ c (Proc.devRef .tc main_arg3) := by stretch_keeps
    _ = m ((c : Thread nD τ).loc main_arg3) := rfl

theorem at4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := by stretch_keeps
    _ = W1 m ρ c (Proc.devRef .tc main_arg4) := W2_of_ne m ρ c main_arg4 (by decide)
    _ = W0 m ρ c (Proc.devRef .tc main_arg4) := by stretch_keeps
    _ = m ((c : Thread nD τ).loc main_arg4) := rfl

theorem at4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := by stretch_keeps
    _ = W1 m ρ c (Proc.devRef .tc main_arg5) := W2_of_ne m ρ c main_arg5 (by decide)
    _ = W0 m ρ c (Proc.devRef .tc main_arg5) := by stretch_keeps
    _ = m ((c : Thread nD τ).loc main_arg5) := rfl

theorem at4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := by stretch_keeps
    _ = W1 m ρ c (Proc.devRef .tc main_arg6) := W2_of_ne m ρ c main_arg6 (by decide)
    _ = W0 m ρ c (Proc.devRef .tc main_arg6) := by stretch_keeps
    _ = m ((c : Thread nD τ).loc main_arg6) := rfl

theorem at4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := by stretch_keeps
    _ = W1 m ρ c (Proc.devRef .tc main_arg7) := W2_of_ne m ρ c main_arg7 (by decide)
    _ = W0 m ρ c (Proc.devRef .tc main_arg7) := by stretch_keeps
    _ = m ((c : Thread nD τ).loc main_arg7) := rfl

theorem at4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := by stretch_keeps
    _ = W1 m ρ c (Proc.devRef .tc main_arg8) := W2_of_ne m ρ c main_arg8 (by decide)
    _ = W0 m ρ c (Proc.devRef .tc main_arg8) := by stretch_keeps
    _ = m ((c : Thread nD τ).loc main_arg8) := rfl

theorem at4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := by stretch_keeps
    _ = W1 m ρ c (Proc.devRef .tc main_arg9) := W2_of_ne m ρ c main_arg9 (by decide)
    _ = W0 m ρ c (Proc.devRef .tc main_arg9) := by stretch_keeps
    _ = m ((c : Thread nD τ).loc main_arg9) := rfl

theorem at4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := by stretch_keeps
    _ = W1 m ρ c (Proc.devRef .tc main_arg10) := W2_of_ne m ρ c main_arg10 (by decide)
    _ = W0 m ρ c (Proc.devRef .tc main_arg10) := by stretch_keeps
    _ = m ((c : Thread nD τ).loc main_arg10) := rfl

theorem at4_main_arg25 (c : Dev nD) : W4 m ρ c (Proc.devRef .tc main_arg25) = m ((c : Thread nD τ).loc main_arg25) :=
  calc W4 m ρ c (Proc.devRef .tc main_arg25)
    _ = W3 m ρ c (Proc.devRef .tc main_arg25) := W4_of_ne m ρ c main_arg25 (by decide)
    _ = W2 m ρ c (Proc.devRef .tc main_arg25) := by stretch_keeps
    _ = W1 m ρ c (Proc.devRef .tc main_arg25) := W2_of_ne m ρ c main_arg25 (by decide)
    _ = W0 m ρ c (Proc.devRef .tc main_arg25) := by stretch_keeps
    _ = m ((c : Thread nD τ).loc main_arg25) := rfl

theorem at4_main_arg26 (c : Dev nD) : W4 m ρ c (Proc.devRef .tc main_arg26) = m ((c : Thread nD τ).loc main_arg26) :=
  calc W4 m ρ c (Proc.devRef .tc main_arg26)
    _ = W3 m ρ c (Proc.devRef .tc main_arg26) := W4_of_ne m ρ c main_arg26 (by decide)
    _ = W2 m ρ c (Proc.devRef .tc main_arg26) := by stretch_keeps
    _ = W1 m ρ c (Proc.devRef .tc main_arg26) := W2_of_ne m ρ c main_arg26 (by decide)
    _ = W0 m ρ c (Proc.devRef .tc main_arg26) := by stretch_keeps
    _ = m ((c : Thread nD τ).loc main_arg26) := rfl

theorem at4_main_arg30 (c : Dev nD) : W4 m ρ c (Proc.devRef .tc main_arg30) = m ((c : Thread nD τ).loc main_arg30) :=
  calc W4 m ρ c (Proc.devRef .tc main_arg30)
    _ = W3 m ρ c (Proc.devRef .tc main_arg30) := W4_of_ne m ρ c main_arg30 (by decide)
    _ = W2 m ρ c (Proc.devRef .tc main_arg30) := by stretch_keeps
    _ = W1 m ρ c (Proc.devRef .tc main_arg30) := W2_of_ne m ρ c main_arg30 (by decide)
    _ = W0 m ρ c (Proc.devRef .tc main_arg30) := by stretch_keeps
    _ = m ((c : Thread nD τ).loc main_arg30) := rfl

theorem at4_main_arg32 (c : Dev nD) : W4 m ρ c (Proc.devRef .tc main_arg32) = m ((c : Thread nD τ).loc main_arg32) :=
  calc W4 m ρ c (Proc.devRef .tc main_arg32)
    _ = W3 m ρ c (Proc.devRef .tc main_arg32) := W4_of_ne m ρ c main_arg32 (by decide)
    _ = W2 m ρ c (Proc.devRef .tc main_arg32) := by stretch_keeps
    _ = W1 m ρ c (Proc.devRef .tc main_arg32) := W2_of_ne m ρ c main_arg32 (by decide)
    _ = W0 m ρ c (Proc.devRef .tc main_arg32) := by stretch_keeps
    _ = m ((c : Thread nD τ).loc main_arg32) := rfl

theorem at4_main_arg34 (c : Dev nD) : W4 m ρ c (Proc.devRef .tc main_arg34) = m ((c : Thread nD τ).loc main_arg34) :=
  calc W4 m ρ c (Proc.devRef .tc main_arg34)
    _ = W3 m ρ c (Proc.devRef .tc main_arg34) := W4_of_ne m ρ c main_arg34 (by decide)
    _ = W2 m ρ c (Proc.devRef .tc main_arg34) := by stretch_keeps
    _ = W1 m ρ c (Proc.devRef .tc main_arg34) := W2_of_ne m ρ c main_arg34 (by decide)
    _ = W0 m ρ c (Proc.devRef .tc main_arg34) := by stretch_keeps
    _ = m ((c : Thread nD τ).loc main_arg34) := rfl

theorem at4_main_v8_1 (c : Dev nD) : W4 m ρ c (Proc.devRef .tc main_v8_1) = (dat1 (V3 m ρ) c).arrAt 10 cfg1.N :=
  calc W4 m ρ c (Proc.devRef .tc main_v8_1)
    _ = (dat1 (V3 m ρ) c).arrAt 10 cfg1.N := W4_arr m ρ c 10

theorem at4_main_v3_1 (c : Dev nD) : W4 m ρ c (Proc.devRef .tc main_v3_1) = (dat0 (V1 m ρ) c).arrAt 8 cfg0.N :=
  calc W4 m ρ c (Proc.devRef .tc main_v3_1)
    _ = W3 m ρ c (Proc.devRef .tc main_v3_1) := W4_of_ne m ρ c main_v3_1 (by decide)
    _ = W2 m ρ c (Proc.devRef .tc main_v3_1) := by stretch_keeps
    _ = (dat0 (V1 m ρ) c).arrAt 8 cfg0.N := W2_arr m ρ c 8

theorem at4_main_v8_2 (c : Dev nD) : W4 m ρ c (Proc.devRef .tc main_v8_2) = (dat1 (V3 m ρ) c).arrAt 11 cfg1.N :=
  calc W4 m ρ c (Proc.devRef .tc main_v8_2)
    _ = (dat1 (V3 m ρ) c).arrAt 11 cfg1.N := W4_arr m ρ c 11

theorem at7_main_v8_0 (c : Dev nD) : W7 m ρ c (Proc.devRef .tc main_v8_0) = (dat1 (V3 m ρ) c).arrAt 9 cfg1.N :=
  calc W7 m ρ c (Proc.devRef .tc main_v8_0)
    _ = W6 m ρ c (Proc.devRef .tc main_v8_0) := by stretch_keeps
    _ = W5 m ρ c (Proc.devRef .tc main_v8_0) := W6_of_ne m ρ c main_v8_0 (by decide)
    _ = W4 m ρ c (Proc.devRef .tc main_v8_0) := by stretch_keeps
    _ = (dat1 (V3 m ρ) c).arrAt 9 cfg1.N := W4_arr m ρ c 9

theorem at7_main_v39 (c : Dev nD) : W7 m ρ c (Proc.devRef .tc main_v39) = W5 m ρ c (Proc.devRef .tc main_v39) :=
  calc W7 m ρ c (Proc.devRef .tc main_v39)
    _ = W6 m ρ c (Proc.devRef .tc main_v39) := by stretch_keeps
    _ = W5 m ρ c (Proc.devRef .tc main_v39) := W6_of_ne m ρ c main_v39 (by decide)

theorem at7_main_v44 (c : Dev nD) : W7 m ρ c (Proc.devRef .tc main_v44) = W5 m ρ c (Proc.devRef .tc main_v44) :=
  calc W7 m ρ c (Proc.devRef .tc main_v44)
    _ = W6 m ρ c (Proc.devRef .tc main_v44) := by stretch_keeps
    _ = W5 m ρ c (Proc.devRef .tc main_v44) := W6_of_ne m ρ c main_v44 (by decide)

theorem at7_main_v57 (c : Dev nD) : W7 m ρ c (Proc.devRef .tc main_v57) = W5 m ρ c (Proc.devRef .tc main_v57) :=
  calc W7 m ρ c (Proc.devRef .tc main_v57)
    _ = W6 m ρ c (Proc.devRef .tc main_v57) := by stretch_keeps
    _ = W5 m ρ c (Proc.devRef .tc main_v57) := W6_of_ne m ρ c main_v57 (by decide)

theorem at7_main_v62 (c : Dev nD) : W7 m ρ c (Proc.devRef .tc main_v62) = W5 m ρ c (Proc.devRef .tc main_v62) :=
  calc W7 m ρ c (Proc.devRef .tc main_v62)
    _ = W6 m ρ c (Proc.devRef .tc main_v62) := by stretch_keeps
    _ = W5 m ρ c (Proc.devRef .tc main_v62) := W6_of_ne m ρ c main_v62 (by decide)

theorem at6_main_arg27 (c : Dev nD) : W6 m ρ c (Proc.devRef .tc main_arg27) = m ((c : Thread nD τ).loc main_arg27) :=
  calc W6 m ρ c (Proc.devRef .tc main_arg27)
    _ = W5 m ρ c (Proc.devRef .tc main_arg27) := W6_of_ne m ρ c main_arg27 (by decide)
    _ = W4 m ρ c (Proc.devRef .tc main_arg27) := by stretch_keeps
    _ = W3 m ρ c (Proc.devRef .tc main_arg27) := W4_of_ne m ρ c main_arg27 (by decide)
    _ = W2 m ρ c (Proc.devRef .tc main_arg27) := by stretch_keeps
    _ = W1 m ρ c (Proc.devRef .tc main_arg27) := W2_of_ne m ρ c main_arg27 (by decide)
    _ = W0 m ρ c (Proc.devRef .tc main_arg27) := by stretch_keeps
    _ = m ((c : Thread nD τ).loc main_arg27) := rfl

theorem at6_main_arg28 (c : Dev nD) : W6 m ρ c (Proc.devRef .tc main_arg28) = m ((c : Thread nD τ).loc main_arg28) :=
  calc W6 m ρ c (Proc.devRef .tc main_arg28)
    _ = W5 m ρ c (Proc.devRef .tc main_arg28) := W6_of_ne m ρ c main_arg28 (by decide)
    _ = W4 m ρ c (Proc.devRef .tc main_arg28) := by stretch_keeps
    _ = W3 m ρ c (Proc.devRef .tc main_arg28) := W4_of_ne m ρ c main_arg28 (by decide)
    _ = W2 m ρ c (Proc.devRef .tc main_arg28) := by stretch_keeps
    _ = W1 m ρ c (Proc.devRef .tc main_arg28) := W2_of_ne m ρ c main_arg28 (by decide)
    _ = W0 m ρ c (Proc.devRef .tc main_arg28) := by stretch_keeps
    _ = m ((c : Thread nD τ).loc main_arg28) := rfl

theorem at9_main_v68_1 (c : Dev nD) : W9 m ρ c (Proc.devRef .tc main_v68_1) = (dat2 (V5 m ρ) c).arrAt 12 cfg2.N :=
  calc W9 m ρ c (Proc.devRef .tc main_v68_1)
    _ = W8 m ρ c (Proc.devRef .tc main_v68_1) := by stretch_keeps
    _ = W7 m ρ c (Proc.devRef .tc main_v68_1) := W8_of_ne m ρ c main_v68_1 (by decide)
    _ = W6 m ρ c (Proc.devRef .tc main_v68_1) := by stretch_keeps
    _ = (dat2 (V5 m ρ) c).arrAt 12 cfg2.N := W6_arr m ρ c 12

theorem at9_main_v71 (c : Dev nD) : W9 m ρ c (Proc.devRef .tc main_v71) = (dat3 (V7 m ρ) c).arrAt 7 cfg3.N :=
  calc W9 m ρ c (Proc.devRef .tc main_v71)
    _ = W8 m ρ c (Proc.devRef .tc main_v71) := by stretch_keeps
    _ = (dat3 (V7 m ρ) c).arrAt 7 cfg3.N := W8_arr m ρ c 7

theorem at8_main_v68_0 (c : Dev nD) : W8 m ρ c (Proc.devRef .tc main_v68_0) = (dat2 (V5 m ρ) c).arrAt 11 cfg2.N :=
  calc W8 m ρ c (Proc.devRef .tc main_v68_0)
    _ = W7 m ρ c (Proc.devRef .tc main_v68_0) := W8_of_ne m ρ c main_v68_0 (by decide)
    _ = W6 m ρ c (Proc.devRef .tc main_v68_0) := by stretch_keeps
    _ = (dat2 (V5 m ρ) c).arrAt 11 cfg2.N := W6_arr m ρ c 11

/-- The bias main_arg12 set under a unit axis, read at (0, j). -/
theorem row_main_v0 (c : Dev nD) (j : Fin 128) :
    W1 m ρ c (Proc.devRef .tc main_v0) (ix2 (0 : Fin 1) j) = m ((c : Thread nD τ).loc main_arg12) (ix1 j) := by
  have e : W1 m ρ c (Proc.devRef .tc main_v0) = shapeCast S1x128 (W0 m ρ c (Proc.devRef .tc main_arg12)) shapeCasts_S128_S1x128 := by
    show StableHlo.after hostOps0 (W0 m ρ c) (Proc.devRef .tc main_v0) = _
    after_results
    try rfl
  rw [e, at0_main_arg12]
  exact shapeCast_a_1a_apply _ _ 0 j

/-- The bias main_arg14 set under a unit axis, read at (0, j). -/
theorem row_main_v1 (c : Dev nD) (j : Fin 128) :
    W1 m ρ c (Proc.devRef .tc main_v1) (ix2 (0 : Fin 1) j) = m ((c : Thread nD τ).loc main_arg14) (ix1 j) := by
  have e : W1 m ρ c (Proc.devRef .tc main_v1) = shapeCast S1x128 (W0 m ρ c (Proc.devRef .tc main_arg14)) shapeCasts_S128_S1x128 := by
    show StableHlo.after hostOps0 (W0 m ρ c) (Proc.devRef .tc main_v1) = _
    after_results
    try rfl
  rw [e, at0_main_arg14]
  exact shapeCast_a_1a_apply _ _ 0 j

/-- The bias main_arg22 set under a unit axis, read at (0, j). -/
theorem row_main_v2 (c : Dev nD) (j : Fin 128) :
    W1 m ρ c (Proc.devRef .tc main_v2) (ix2 (0 : Fin 1) j) = m ((c : Thread nD τ).loc main_arg22) (ix1 j) := by
  have e : W1 m ρ c (Proc.devRef .tc main_v2) = shapeCast S1x128 (W0 m ρ c (Proc.devRef .tc main_arg22)) shapeCasts_S128_S1x128 := by
    show StableHlo.after hostOps0 (W0 m ρ c) (Proc.devRef .tc main_v2) = _
    after_results
    try rfl
  rw [e, at0_main_arg22]
  exact shapeCast_a_1a_apply _ _ 0 j

/-- The bias main_arg16 set under a unit axis, read at (0, j). -/
theorem row_main_v4 (c : Dev nD) (j : Fin 128) :
    W3 m ρ c (Proc.devRef .tc main_v4) (ix2 (0 : Fin 1) j) = m ((c : Thread nD τ).loc main_arg16) (ix1 j) := by
  have e : W3 m ρ c (Proc.devRef .tc main_v4) = shapeCast S1x128 (W2 m ρ c (Proc.devRef .tc main_arg16)) shapeCasts_S128_S1x128 := by
    show StableHlo.after hostOps1 (W2 m ρ c) (Proc.devRef .tc main_v4) = _
    after_results
    try rfl
  rw [e, at2_main_arg16]
  exact shapeCast_a_1a_apply _ _ 0 j

/-- The bias main_arg18 set under a unit axis, read at (0, j). -/
theorem row_main_v5 (c : Dev nD) (j : Fin 128) :
    W3 m ρ c (Proc.devRef .tc main_v5) (ix2 (0 : Fin 1) j) = m ((c : Thread nD τ).loc main_arg18) (ix1 j) := by
  have e : W3 m ρ c (Proc.devRef .tc main_v5) = shapeCast S1x128 (W2 m ρ c (Proc.devRef .tc main_arg18)) shapeCasts_S128_S1x128 := by
    show StableHlo.after hostOps1 (W2 m ρ c) (Proc.devRef .tc main_v5) = _
    after_results
    try rfl
  rw [e, at2_main_arg18]
  exact shapeCast_a_1a_apply _ _ 0 j

/-- The bias main_arg20 set under a unit axis, read at (0, j). -/
theorem row_main_v6 (c : Dev nD) (j : Fin 128) :
    W3 m ρ c (Proc.devRef .tc main_v6) (ix2 (0 : Fin 1) j) = m ((c : Thread nD τ).loc main_arg20) (ix1 j) := by
  have e : W3 m ρ c (Proc.devRef .tc main_v6) = shapeCast S1x128 (W2 m ρ c (Proc.devRef .tc main_arg20)) shapeCasts_S128_S1x128 := by
    show StableHlo.after hostOps1 (W2 m ρ c) (Proc.devRef .tc main_v6) = _
    after_results
    try rfl
  rw [e, at2_main_arg20]
  exact shapeCast_a_1a_apply _ _ 0 j

/-- The bias main_arg24 set under a unit axis, read at (0, j). -/
theorem row_main_v7 (c : Dev nD) (j : Fin 128) :
    W3 m ρ c (Proc.devRef .tc main_v7) (ix2 (0 : Fin 1) j) = m ((c : Thread nD τ).loc main_arg24) (ix1 j) := by
  have e : W3 m ρ c (Proc.devRef .tc main_v7) = shapeCast S1x128 (W2 m ρ c (Proc.devRef .tc main_arg24)) shapeCasts_S128_S1x128 := by
    show StableHlo.after hostOps1 (W2 m ρ c) (Proc.devRef .tc main_v7) = _
    after_results
    try rfl
  rw [e, at2_main_arg24]
  exact shapeCast_a_1a_apply _ _ 0 j

/-- The bias main_arg25 set under a unit axis, read at (0, j). -/
theorem row_main_v63 (c : Dev nD) (j : Fin 128) :
    W5 m ρ c (Proc.devRef .tc main_v63) (ix2 (0 : Fin 1) j) = m ((c : Thread nD τ).loc main_arg25) (ix1 j) := by
  have e : W5 m ρ c (Proc.devRef .tc main_v63) = shapeCast S1x128 (W4 m ρ c (Proc.devRef .tc main_arg25)) shapeCasts_S128_S1x128 := by
    show StableHlo.after hostOps2 (W4 m ρ c) (Proc.devRef .tc main_v63) = _
    after_results
    try rfl
  rw [e, at4_main_arg25]
  exact shapeCast_a_1a_apply _ _ 0 j

/-- The bias main_arg26 set under a unit axis, read at (0, j). -/
theorem row_main_v64 (c : Dev nD) (j : Fin 128) :
    W5 m ρ c (Proc.devRef .tc main_v64) (ix2 (0 : Fin 1) j) = m ((c : Thread nD τ).loc main_arg26) (ix1 j) := by
  have e : W5 m ρ c (Proc.devRef .tc main_v64) = shapeCast S1x128 (W4 m ρ c (Proc.devRef .tc main_arg26)) shapeCasts_S128_S1x128 := by
    show StableHlo.after hostOps2 (W4 m ρ c) (Proc.devRef .tc main_v64) = _
    after_results
    try rfl
  rw [e, at4_main_arg26]
  exact shapeCast_a_1a_apply _ _ 0 j

/-- The bias main_arg30 set under a unit axis, read at (0, j). -/
theorem row_main_v65 (c : Dev nD) (j : Fin 32) :
    W5 m ρ c (Proc.devRef .tc main_v65) (ix2 (0 : Fin 1) j) = m ((c : Thread nD τ).loc main_arg30) (ix1 j) := by
  have e : W5 m ρ c (Proc.devRef .tc main_v65) = shapeCast S1x32 (W4 m ρ c (Proc.devRef .tc main_arg30)) shapeCasts_S32_S1x32 := by
    show StableHlo.after hostOps2 (W4 m ρ c) (Proc.devRef .tc main_v65) = _
    after_results
    try rfl
  rw [e, at4_main_arg30]
  exact shapeCast_a_1a_apply _ _ 0 j

/-- The bias main_arg32 set under a unit axis, read at (0, j). -/
theorem row_main_v66 (c : Dev nD) (j : Fin 1) :
    W5 m ρ c (Proc.devRef .tc main_v66) (ix2 (0 : Fin 1) j) = m ((c : Thread nD τ).loc main_arg32) (ix1 j) := by
  have e : W5 m ρ c (Proc.devRef .tc main_v66) = shapeCast S1x1 (W4 m ρ c (Proc.devRef .tc main_arg32)) shapeCasts_S1_S1x1 := by
    show StableHlo.after hostOps2 (W4 m ρ c) (Proc.devRef .tc main_v66) = _
    after_results
    try rfl
  rw [e, at4_main_arg32]
  exact shapeCast_a_1a_apply _ _ 0 j

/-- The bias main_arg34 set under a unit axis, read at (0, j). -/
theorem row_main_v67 (c : Dev nD) (j : Fin 1) :
    W5 m ρ c (Proc.devRef .tc main_v67) (ix2 (0 : Fin 1) j) = m ((c : Thread nD τ).loc main_arg34) (ix1 j) := by
  have e : W5 m ρ c (Proc.devRef .tc main_v67) = shapeCast S1x1 (W4 m ρ c (Proc.devRef .tc main_arg34)) shapeCasts_S1_S1x1 := by
    show StableHlo.after hostOps2 (W4 m ρ c) (Proc.devRef .tc main_v67) = _
    after_results
    try rfl
  rw [e, at4_main_arg34]
  exact shapeCast_a_1a_apply _ _ 0 j

/-- The bias main_arg27 set under a unit axis, read at (0, j). -/
theorem row_main_v69 (c : Dev nD) (j : Fin 128) :
    W7 m ρ c (Proc.devRef .tc main_v69) (ix2 (0 : Fin 1) j) = m ((c : Thread nD τ).loc main_arg27) (ix1 j) := by
  have e : W7 m ρ c (Proc.devRef .tc main_v69) = shapeCast S1x128 (W6 m ρ c (Proc.devRef .tc main_arg27)) shapeCasts_S128_S1x128 := by
    show StableHlo.after hostOps3 (W6 m ρ c) (Proc.devRef .tc main_v69) = _
    after_results
    try rfl
  rw [e, at6_main_arg27]
  exact shapeCast_a_1a_apply _ _ 0 j

/-- The bias main_arg28 set under a unit axis, read at (0, j). -/
theorem row_main_v70 (c : Dev nD) (j : Fin 128) :
    W7 m ρ c (Proc.devRef .tc main_v70) (ix2 (0 : Fin 1) j) = m ((c : Thread nD τ).loc main_arg28) (ix1 j) := by
  have e : W7 m ρ c (Proc.devRef .tc main_v70) = shapeCast S1x128 (W6 m ρ c (Proc.devRef .tc main_arg28)) shapeCasts_S128_S1x128 := by
    show StableHlo.after hostOps3 (W6 m ρ c) (Proc.devRef .tc main_v70) = _
    after_results
    try rfl
  rw [e, at6_main_arg28]
  exact shapeCast_a_1a_apply _ _ 0 j

/-- Relation re: the weighted gathered messages summed per target node, as the host operations compute them from
    the message table the encoder region left. -/
theorem sum_re (c : Dev nD) : W5 m ρ c (Proc.devRef .tc main_v21) =
    Host.scatterAdd scatter_S200000x128_S400000x1_S400000x128_1_0_0_1
      (broadcastInDim S200000x128 ![] bcast_S_S200000x128 (constant S_ .f32 0x00000000#32))
      (broadcastInDim S400000x1 ![0] bcast_S400000_S400000x1_0 (m ((c : Thread nD τ).loc main_arg3)))
      (mulf (broadcastInDim S400000x128 ![0, 1] bcast_S400000x1_S400000x128_0_1 (m ((c : Thread nD τ).loc main_arg4)))
        (extf .f32 (Host.gather gather_S50000x128_S400000x1_S400000x128_1_0_n_n_0_1_1128 ((dat1 (V3 m ρ) c).arrAt 10 cfg1.N)
          (broadcastInDim S400000x1 ![0] bcast_S400000_S400000x1_0
            (select (cmpi .slt (m ((c : Thread nD τ).loc main_arg2)) (broadcastInDim S400000 ![] bcast_S_S400000 (constantI S_ 32 0#32)))
              (addi (m ((c : Thread nD τ).loc main_arg2)) (broadcastInDim S400000 ![] bcast_S_S400000 (constantI S_ 32 50000#32))) (m ((c : Thread nD τ).loc main_arg2))))) bitsLt_bf16_f32)) := by
  show StableHlo.after hostOps2 (W4 m ρ c) (Proc.devRef .tc main_v21) = _
  after_results_simp
  rw [at4_main_arg3, at4_main_arg4, at4_main_arg2, at4_main_v8_1]

/-- Relation re: the number of edges per target node, as a column. -/
theorem cnt_re (c : Dev nD) : W5 m ρ c (Proc.devRef .tc main_v26) =
    broadcastInDim S200000x1 ![0] bcast_S200000_S200000x1_0
      (Host.scatterAdd scatter_S200000_S400000x1_S400000_n_0_0_1
        (broadcastInDim S200000 ![] bcast_S_S200000 (constant S_ .f32 0x00000000#32))
        (broadcastInDim S400000x1 ![0] bcast_S400000_S400000x1_0 (m ((c : Thread nD τ).loc main_arg3)))
        (broadcastInDim S400000 ![] bcast_S_S400000 (constant S_ .f32 0x3F800000#32))) := by
  show StableHlo.after hostOps2 (W4 m ρ c) (Proc.devRef .tc main_v26) = _
  after_results_simp
  rw [at4_main_arg3]

/-- Relation ef: the weighted gathered messages summed per target node, as the host operations compute them from
    the message table the encoder region left. -/
theorem sum_ef (c : Dev nD) : W5 m ρ c (Proc.devRef .tc main_v39) =
    Host.scatterAdd scatter_S50000x128_S400000x1_S400000x128_1_0_0_1
      (broadcastInDim S50000x128 ![] bcast_S_S50000x128 (constant S_ .f32 0x00000000#32))
      (broadcastInDim S400000x1 ![0] bcast_S400000_S400000x1_0 (m ((c : Thread nD τ).loc main_arg6)))
      (mulf (broadcastInDim S400000x128 ![0, 1] bcast_S400000x1_S400000x128_0_1 (m ((c : Thread nD τ).loc main_arg7)))
        (extf .f32 (Host.gather gather_S200000x128_S400000x1_S400000x128_1_0_n_n_0_1_1128 ((dat0 (V1 m ρ) c).arrAt 8 cfg0.N)
          (broadcastInDim S400000x1 ![0] bcast_S400000_S400000x1_0
            (select (cmpi .slt (m ((c : Thread nD τ).loc main_arg5)) (broadcastInDim S400000 ![] bcast_S_S400000 (constantI S_ 32 0#32)))
              (addi (m ((c : Thread nD τ).loc main_arg5)) (broadcastInDim S400000 ![] bcast_S_S400000 (constantI S_ 32 200000#32))) (m ((c : Thread nD τ).loc main_arg5))))) bitsLt_bf16_f32)) := by
  show StableHlo.after hostOps2 (W4 m ρ c) (Proc.devRef .tc main_v39) = _
  after_results_simp
  rw [at4_main_arg6, at4_main_arg7, at4_main_arg5, at4_main_v3_1]

/-- Relation ef: the number of edges per target node, as a column. -/
theorem cnt_ef (c : Dev nD) : W5 m ρ c (Proc.devRef .tc main_v44) =
    broadcastInDim S50000x1 ![0] bcast_S50000_S50000x1_0
      (Host.scatterAdd scatter_S50000_S400000x1_S400000_n_0_0_1
        (broadcastInDim S50000 ![] bcast_S_S50000 (constant S_ .f32 0x00000000#32))
        (broadcastInDim S400000x1 ![0] bcast_S400000_S400000x1_0 (m ((c : Thread nD τ).loc main_arg6)))
        (broadcastInDim S400000 ![] bcast_S_S400000 (constant S_ .f32 0x3F800000#32))) := by
  show StableHlo.after hostOps2 (W4 m ρ c) (Proc.devRef .tc main_v44) = _
  after_results_simp
  rw [at4_main_arg6]

/-- Relation ff: the weighted gathered messages summed per target node, as the host operations compute them from
    the message table the encoder region left. -/
theorem sum_ff (c : Dev nD) : W5 m ρ c (Proc.devRef .tc main_v57) =
    Host.scatterAdd scatter_S50000x128_S800000x1_S800000x128_1_0_0_1
      (broadcastInDim S50000x128 ![] bcast_S_S50000x128 (constant S_ .f32 0x00000000#32))
      (broadcastInDim S800000x1 ![0] bcast_S800000_S800000x1_0 (m ((c : Thread nD τ).loc main_arg9)))
      (mulf (broadcastInDim S800000x128 ![0, 1] bcast_S800000x1_S800000x128_0_1 (m ((c : Thread nD τ).loc main_arg10)))
        (extf .f32 (Host.gather gather_S50000x128_S800000x1_S800000x128_1_0_n_n_0_1_1128 ((dat1 (V3 m ρ) c).arrAt 11 cfg1.N)
          (broadcastInDim S800000x1 ![0] bcast_S800000_S800000x1_0
            (select (cmpi .slt (m ((c : Thread nD τ).loc main_arg8)) (broadcastInDim S800000 ![] bcast_S_S800000 (constantI S_ 32 0#32)))
              (addi (m ((c : Thread nD τ).loc main_arg8)) (broadcastInDim S800000 ![] bcast_S_S800000 (constantI S_ 32 50000#32))) (m ((c : Thread nD τ).loc main_arg8))))) bitsLt_bf16_f32)) := by
  show StableHlo.after hostOps2 (W4 m ρ c) (Proc.devRef .tc main_v57) = _
  after_results_simp
  rw [at4_main_arg9, at4_main_arg10, at4_main_arg8, at4_main_v8_2]

/-- Relation ff: the number of edges per target node, as a column. -/
theorem cnt_ff (c : Dev nD) : W5 m ρ c (Proc.devRef .tc main_v62) =
    broadcastInDim S50000x1 ![0] bcast_S50000_S50000x1_0
      (Host.scatterAdd scatter_S50000_S800000x1_S800000_n_0_0_1
        (broadcastInDim S50000 ![] bcast_S_S50000 (constant S_ .f32 0x00000000#32))
        (broadcastInDim S800000x1 ![0] bcast_S800000_S800000x1_0 (m ((c : Thread nD τ).loc main_arg9)))
        (broadcastInDim S800000 ![] bcast_S_S800000 (constant S_ .f32 0x3F800000#32))) := by
  show StableHlo.after hostOps2 (W4 m ρ c) (Proc.devRef .tc main_v62) = _
  after_results_simp
  rw [at4_main_arg9]

/-- The prediction is column 0 of the packed slab the event region leaves. -/
theorem out_y (c : Dev nD) : W9 m ρ c (Proc.devRef .tc main_v73) =
    shapeCast S200000 (extractStridedSlice S200000x1 ![0, 0] ((dat2 (V5 m ρ) c).arrAt 11 cfg2.N) slices_S200000x128_S200000x1_0_0) shapeCasts_S200000x1_S200000 := by
  show StableHlo.after hostOps4 (W8 m ρ c) (Proc.devRef .tc main_v73) = _
  after_results
  rw [at8_main_v68_0]
  try rfl

/-- The gate is column 1 of the packed slab. -/
theorem out_alpha (c : Dev nD) : W9 m ρ c (Proc.devRef .tc main_v74) =
    extractStridedSlice S200000x1 ![0, 1] ((dat2 (V5 m ρ) c).arrAt 11 cfg2.N) slices_S200000x128_S200000x1_0_1 := by
  show StableHlo.after hostOps4 (W8 m ρ c) (Proc.devRef .tc main_v74) = _
  after_results
  rw [at8_main_v68_0]

end Cert.KernelIdeal.RunValue

end
-- ==== Proof.NodeSpec.lean ====
/-
  The mathematics both programs compute, one graph node (one row) at a time, over the extended reals.

  A node's features are a row v. A dense layer sends v to (∑ k, v k · w k j) + b j; the encoder is two dense layers,
  each followed by the rectifier max(·, 0); a relation's message table is one more dense layer of the encoded row.
  After the messages have been summed per target node (s) and counted (cnt), the neighbour average is
  s j / max(cnt, 1), layer normalisation subtracts the row mean, scales by (variance + ε)^(-1/2), then by g and
  shifts by b. An event node mixes its own encoding h and the normalised average hn with a gate
  α = logistic(dense(relu(dense h))): α · h + (1 − α) · hn, and its prediction is a dense layer of the rectified
  mix. A firm node adds the normalised sum of its two relations' averages to its own encoding.

  Every function here takes weights as functions of two coordinates and biases as functions of one, so the same
  definition can be instantiated at an array of any layout.
-/
import Idealize.ShloMosaic.PureOps.Ideal

noncomputable section

open scoped BigOperators

namespace Idealize.ShloMosaic.NodeSpec

open Idealize.ShloMosaic

/-- The float zero, as the word both programs print. -/
def zero : EReal := Ideal.ofBits .f32 0x00000000#32
/-- The float one. -/
def one : EReal := Ideal.ofBits .f32 0x3F800000#32
/-- The row width 128 as a float. -/
def width : EReal := Ideal.ofBits .f32 0x43000000#32
/-- The normalisation's ε, the float nearest 1e-5. -/
def eps : EReal := Ideal.ofBits .f32 0x3727C5AC#32

/-- One dense layer on a row: entry j of v · w + b. -/
def dense {K N : ℕ} (w : Fin K → Fin N → EReal) (b : Fin N → EReal) (v : Fin K → EReal) (j : Fin N) : EReal :=
  (∑ k : Fin K, v k * w k j) + b j

/-- The rectifier. -/
def relu (x : EReal) : EReal := max x zero

/-- The encoder of a row: two dense layers, the rectifier after each. -/
def enc {K : ℕ} (w1 : Fin K → Fin 128 → EReal) (b1 : Fin 128 → EReal) (w2 : Fin 128 → Fin 128 → EReal) (b2 : Fin 128 → EReal)
    (v : Fin K → EReal) (j : Fin 128) : EReal :=
  relu (dense w2 b2 (fun k => relu (dense w1 b1 v k)) j)

/-- A relation's message row of a node: a dense layer of its encoding. -/
def msg {K : ℕ} (w1 : Fin K → Fin 128 → EReal) (b1 : Fin 128 → EReal) (w2 : Fin 128 → Fin 128 → EReal) (b2 : Fin 128 → EReal)
    (w : Fin 128 → Fin 128 → EReal) (b : Fin 128 → EReal) (v : Fin K → EReal) (j : Fin 128) : EReal :=
  dense w b (enc w1 b1 w2 b2 v) j

/-- The neighbour average: the summed messages over the count, a node without neighbours dividing by one. -/
def avg (s : Fin 128 → EReal) (cnt : EReal) (j : Fin 128) : EReal := Ideal.div (s j) (max cnt one)

/-- The mean of a row of width 128. -/
def mean (x : Fin 128 → EReal) : EReal := Ideal.div (∑ k : Fin 128, x k) width

/-- Layer normalisation of a row. -/
def lnorm (g b : Fin 128 → EReal) (x : Fin 128 → EReal) (j : Fin 128) : EReal :=
  (x j - mean x) * Ideal.rsqrt (mean (fun k => (x k - mean x) * (x k - mean x)) + eps) * g j + b j

/-- The gate of an event node, from its own encoding. -/
def gate (gw1 : Fin 128 → Fin 32 → EReal) (gb1 : Fin 32 → EReal) (gw2 : Fin 32 → Fin 1 → EReal) (gb2 : Fin 1 → EReal)
    (h : Fin 128 → EReal) : EReal :=
  Ideal.logistic (dense gw2 gb2 (fun k => relu (dense gw1 gb1 h k)) 0)

/-- The gated mix of a node's own encoding and its normalised neighbour average. -/
def mix (a : EReal) (h hn : Fin 128 → EReal) (j : Fin 128) : EReal := a * h j + (one - a) * hn j

/-- The prediction head: a dense layer of the rectified mix. -/
def head (hw : Fin 128 → Fin 1 → EReal) (hb : Fin 1 → EReal) (hm : Fin 128 → EReal) : EReal :=
  dense hw hb (fun k => relu (hm k)) 0

/-- An event node's mixed row, from its encoding h, its summed messages s and their count. -/
def eventMix (g b : Fin 128 → EReal) (gw1 : Fin 128 → Fin 32 → EReal) (gb1 : Fin 32 → EReal) (gw2 : Fin 32 → Fin 1 → EReal)
    (gb2 : Fin 1 → EReal) (h s : Fin 128 → EReal) (cnt : EReal) (j : Fin 128) : EReal :=
  mix (gate gw1 gb1 gw2 gb2 h) h (lnorm g b (avg s cnt)) j

/-- A firm node's output row: its encoding plus the normalised sum of its two relations' averages. -/
def firmOut (g b : Fin 128 → EReal) (h s1 : Fin 128 → EReal) (c1 : EReal) (s2 : Fin 128 → EReal) (c2 : EReal) (j : Fin 128) : EReal :=
  h j + lnorm g b (fun k => avg s1 c1 k + avg s2 c2 k) j

end Idealize.ShloMosaic.NodeSpec

end
-- ==== Proof.LibContract.lean ====
/-
  A matrix product's contraction as a plain sum.

  A product of an [n0, K] matrix with a [K, n1] matrix whose dimension numbers contract the left operand's
  second axis with the right operand's first sums, at the result index (r, c), over the positions of a
  one-axis contraction shape. Re-indexed by that axis' coordinate it is the textbook sum
  ∑ k < K, l (r, k) · r (k, c). The statement is for any dimension record of those shapes: what the record
  owes is that it has one contracting axis of extent K (left axis 1, right axis 0) and that the two free
  axes read the result's coordinates.
-/
import Idealize.ShloMosaic.Lib.ValueIdx

noncomputable section

open scoped BigOperators

namespace Idealize.ShloMosaic.Contract2

open Idealize.ShloMosaic Idealize.ShloMosaic.ValueIdx

/-- The contraction sum of a matrix product at a result index is the sum over the shared coordinate. -/
theorem sum_contr_eq_sum_fin {n0 n1 K : ℕ} {M : Type*} [AddCommMonoid M] [Mul M]
    (D : DotDims (⟨2, ![n0, K]⟩ : Shape) (⟨2, ![K, n1]⟩ : Shape) (⟨2, ![n0, n1]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : (⟨2, ![n0, K]⟩ : Shape).Idx → M) (r : (⟨2, ![K, n1]⟩ : Shape).Idx → M) (j : (⟨2, ![n0, n1]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 k (j 1) := funext fun a => Fin.ext (by
    match a with
    | ⟨0, _⟩ => exact h2.trans hk
    | ⟨1, _⟩ => exact hr1 _ _)
  exact congrArg₂ (· * ·) (congrArg l el) (congrArg r er)

end Idealize.ShloMosaic.Contract2

end
-- ==== Proof.EncoderArrays.lean ====
/-
  The two encoder regions: the arrays they leave, entry by entry.

  Each region walks over its node-feature matrix in blocks of 10000 rows. At a grid point the body multiplies
  the block of rows by the first weight matrix into a zero accumulator, adds the first bias row (a [1, 128]
  array spread over the rows), takes the maximum with zero, does the same with the second weight matrix and
  bias, and stores the result: that is the encoder of each row of the block. One more product with a
  relation's weight matrix plus its bias row, narrowed to the 16-bit format (the identity on the extended
  reals), is stored as that relation's message rows. Every entry (y, j) of a stored block depends on row y of the
  feature block only, and the weights' blocks are the whole weight arrays at every point. Row y of the block
  at point t is row 10000 t + y of the array, and the output blocks sit at the same rows, so what point t writes
  back is block t of ONE function of the region's input arrays: the specification's row function of row r of
  the features at column j. The blocks of the 20 (event) or 5 (firm) points cover the output arrays, so after
  the region each output array holds that function everywhere.
-/
import proofs.«181421_j6158983102955_2_alg».proof.Proof.Gen.KernelIdeal.Frame
import proofs.«181421_j6158983102955_2_alg».proof.Proof.NodeSpec
import proofs.«181421_j6158983102955_2_alg».proof.Proof.LibContract
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.EncoderArrays

open Cert.KernelIdeal Cert.KernelIdeal.Gen Idealize.ShloMosaic Idealize.ShloMosaic.ValueIdx Idealize.ShloMosaic.TcCoe Idealize.SL.Sem
open Idealize.ShloMosaic.Pipeline (Dat)
open Idealize.ShloMosaic.NodeSpec (dense relu enc msg)

/-! ## One layer of a block of rows, read at an entry -/

/-- A dense layer as a vector program: the product of an [n, K] block of rows with a [K, N] weight matrix into the
    zero accumulator, plus a [1, N] bias row spread over the n rows, is at (r, j) the dense layer of row r. -/
theorem layer_apply {n K N : ℕ}
    (D : DotDims (⟨2, ![n, K]⟩ : Shape) (⟨2, ![K, N]⟩ : Shape) (⟨2, ![n, N]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (prec : Option ContractPrecision)
    (x : FVec Ideal (⟨2, ![n, K]⟩ : Shape) .f32) (w : FVec Ideal (⟨2, ![K, N]⟩ : Shape) .f32)
    (b : FVec Ideal (⟨2, ![1, N]⟩ : Shape) .f32)
    (hc : (⟨2, ![1, N]⟩ : Shape).ShapeCasts ⟨2, ![1, N]⟩) (hb : (⟨2, ![1, N]⟩ : Shape).Broadcasts ⟨2, ![n, N]⟩)
    (r : Fin n) (j : Fin N) :
    addf (matmul D prec x w (constant (F := Ideal) (⟨2, ![n, N]⟩ : Shape) .f32 0x00000000#32))
        (broadcastTo (⟨2, ![n, N]⟩ : Shape) (shapeCast (⟨2, ![1, N]⟩ : Shape) b hc) hb) (ix2 r j)
      = dense (fun k j => w (ix2 k j)) (fun j => b (ix2 (0 : Fin 1) j)) (fun k => x (ix2 r k)) j := by
  rw [addf_apply, broadcastTo_1b_ab_apply, shapeCast_self]
  refine congrArg (· + b (ix2 (0 : Fin 1) j)) ?_
  refine (Ideal.matmul_constant_zero_apply D prec x w (ix2 r j)).trans ?_
  exact Contract2.sum_contr_eq_sum_fin D hr hs hlc hrc hl0 hr1 x w (ix2 r j)

/-- The same layer followed by the rectifier, a maximum with the zero word spread over the block. -/
theorem relu_layer_apply {n K N : ℕ}
    (D : DotDims (⟨2, ![n, K]⟩ : Shape) (⟨2, ![K, N]⟩ : Shape) (⟨2, ![n, N]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (prec : Option ContractPrecision)
    (x : FVec Ideal (⟨2, ![n, K]⟩ : Shape) .f32) (w : FVec Ideal (⟨2, ![K, N]⟩ : Shape) .f32)
    (b : FVec Ideal (⟨2, ![1, N]⟩ : Shape) .f32)
    (hc : (⟨2, ![1, N]⟩ : Shape).ShapeCasts ⟨2, ![1, N]⟩) (hb : (⟨2, ![1, N]⟩ : Shape).Broadcasts ⟨2, ![n, N]⟩)
    (r : Fin n) (j : Fin N) :
    maximumf (addf (matmul D prec x w (constant (F := Ideal) (⟨2, ![n, N]⟩ : Shape) .f32 0x00000000#32))
        (broadcastTo (⟨2, ![n, N]⟩ : Shape) (shapeCast (⟨2, ![1, N]⟩ : Shape) b hc) hb))
        (broadcast (⟨2, ![n, N]⟩ : Shape) (Scalar.ofBits (F := Ideal) .f32 0x00000000#32)) (ix2 r j)
      = relu (dense (fun k j => w (ix2 k j)) (fun j => b (ix2 (0 : Fin 1) j)) (fun k => x (ix2 r k)) j) := by
  rw [maximumf_apply, broadcast_apply, layer_apply D hr hs hlc hrc hl0 hr1 prec x w b hc hb r j]
  rfl

/-! The two contraction records of the encoders read the result's row on the left and its column on the right. -/

theorem lhs_row_64 (j : S10000x128.Idx) (q : dot_S10000x64_S64x128_S10000x128_1_0_0_1_n_n.contr.Idx) :
    (dot_S10000x64_S64x128_S10000x128_1_0_0_1_n_n.lhsIdx j q 0).val = (j 0).val := by
  unfold DotDims.lhsIdx
  rw [dif_neg (show ¬(0 : Fin S10000x64.rank) ∈ dot_S10000x64_S64x128_S10000x128_1_0_0_1_n_n.lhsBatch by decide), dif_pos (show (0 : Fin S10000x64.rank) ∈ dot_S10000x64_S64x128_S10000x128_1_0_0_1_n_n.lhsNonContracting by decide)]
  rfl

theorem rhs_col_64 (j : S10000x128.Idx) (q : dot_S10000x64_S64x128_S10000x128_1_0_0_1_n_n.contr.Idx) :
    (dot_S10000x64_S64x128_S10000x128_1_0_0_1_n_n.rhsIdx j q 1).val = (j 1).val := by
  unfold DotDims.rhsIdx
  rw [dif_neg (show ¬(1 : Fin S64x128.rank) ∈ dot_S10000x64_S64x128_S10000x128_1_0_0_1_n_n.rhsBatch by decide), dif_pos (show (1 : Fin S64x128.rank) ∈ dot_S10000x64_S64x128_S10000x128_1_0_0_1_n_n.rhsNonContracting by decide)]
  rfl

theorem lhs_row_128 (j : S10000x128.Idx) (q : dot_S10000x128_S128x128_S10000x128_1_0_0_1_n_n.contr.Idx) :
    (dot_S10000x128_S128x128_S10000x128_1_0_0_1_n_n.lhsIdx j q 0).val = (j 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl

theorem rhs_col_128 (j : S10000x128.Idx) (q : dot_S10000x128_S128x128_S10000x128_1_0_0_1_n_n.contr.Idx) :
    (dot_S10000x128_S128x128_S10000x128_1_0_0_1_n_n.rhsIdx j q 1).val = (j 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The event encoder's payload at (y, j) is the specification's encoder of row y of the feature block. -/
theorem event_pay_enc (x0 : Vec Ideal S10000x64 .f32) (x1 : Vec Ideal S64x128 .f32) (x2 : Vec Ideal S1x128 .f32)
    (x3 : Vec Ideal S128x128 .f32) (x4 : Vec Ideal S1x128 .f32) (y : Fin 10000) (j : Fin 128) :
    k0_pay1 (F := Ideal) x0 x1 x2 x3 x4 (ix2 y j)
      = enc (fun k j => x1 (ix2 k j)) (fun j => x2 (ix2 (0 : Fin 1) j)) (fun k j => x3 (ix2 k j))
          (fun j => x4 (ix2 (0 : Fin 1) j)) (fun k => x0 (ix2 y k)) j := by
  unfold k0_pay1
  refine (relu_layer_apply (n := 10000) (K := 128) (N := 128) dot_S10000x128_S128x128_S10000x128_1_0_0_1_n_n rfl rfl rfl rfl
    lhs_row_128 rhs_col_128 none _ x3 x4 _ _ y j).trans ?_
  exact congrArg (fun v => relu (dense (fun k j => x3 (ix2 k j)) (fun j => x4 (ix2 (0 : Fin 1) j)) v j))
    (funext fun k => relu_layer_apply (n := 10000) (K := 64) (N := 128) dot_S10000x64_S64x128_S10000x128_1_0_0_1_n_n rfl rfl rfl rfl
      lhs_row_64 rhs_col_64 none x0 x1 x2 _ _ y k)

/-- The event message payload at (y, j): one more dense layer of the encoded row; the narrowing of the format is the
    identity on the extended reals. -/
theorem event_pay_msg (x0 : Vec Ideal S10000x64 .f32) (x1 : Vec Ideal S64x128 .f32) (x2 : Vec Ideal S1x128 .f32)
    (x3 : Vec Ideal S128x128 .f32) (x4 : Vec Ideal S1x128 .f32) (x5 : Vec Ideal S128x128 .f32) (x6 : Vec Ideal S1x128 .f32)
    (y : Fin 10000) (j : Fin 128) :
    k0_pay2 (F := Ideal) x0 x1 x2 x3 x4 x5 x6 (ix2 y j)
      = msg (fun k j => x1 (ix2 k j)) (fun j => x2 (ix2 (0 : Fin 1) j)) (fun k j => x3 (ix2 k j))
          (fun j => x4 (ix2 (0 : Fin 1) j)) (fun k j => x5 (ix2 k j)) (fun j => x6 (ix2 (0 : Fin 1) j)) (fun k => x0 (ix2 y k)) j := by
  unfold k0_pay2
  refine (truncf_apply (φ := .f32) (ψ := .bf16) _ Facts₀.bitsLt_bf16_f32 (ix2 y j)).trans ?_
  refine (layer_apply (n := 10000) (K := 128) (N := 128) dot_S10000x128_S128x128_S10000x128_1_0_0_1_n_n rfl rfl rfl rfl
    lhs_row_128 rhs_col_128 none (k0_pay1 (F := Ideal) x0 x1 x2 x3 x4) x5 x6 _ _ y j).trans ?_
  exact congrArg (fun v => dense (fun k j => x5 (ix2 k j)) (fun j => x6 (ix2 (0 : Fin 1) j)) v j)
    (funext fun k => event_pay_enc x0 x1 x2 x3 x4 y k)

/-- The firm encoder's payload at (y, j) is the specification's encoder of row y of the feature block. -/
theorem firm_pay_enc (x0 : Vec Ideal S10000x128 .f32) (x1 : Vec Ideal S128x128 .f32) (x2 : Vec Ideal S1x128 .f32)
    (x3 : Vec Ideal S128x128 .f32) (x4 : Vec Ideal S1x128 .f32) (y : Fin 10000) (j : Fin 128) :
    k1_pay2 (F := Ideal) x0 x1 x2 x3 x4 (ix2 y j)
      = enc (fun k j => x1 (ix2 k j)) (fun j => x2 (ix2 (0 : Fin 1) j)) (fun k j => x3 (ix2 k j))
          (fun j => x4 (ix2 (0 : Fin 1) j)) (fun k => x0 (ix2 y k)) j := by
  unfold k1_pay2
  refine (relu_layer_apply (n := 10000) (K := 128) (N := 128) dot_S10000x128_S128x128_S10000x128_1_0_0_1_n_n rfl rfl rfl rfl
    lhs_row_128 rhs_col_128 none _ x3 x4 _ _ y j).trans ?_
  exact congrArg (fun v => relu (dense (fun k j => x3 (ix2 k j)) (fun j => x4 (ix2 (0 : Fin 1) j)) v j))
    (funext fun k => relu_layer_apply (n := 10000) (K := 128) (N := 128) dot_S10000x128_S128x128_S10000x128_1_0_0_1_n_n rfl rfl rfl rfl
      lhs_row_128 rhs_col_128 none x0 x1 x2 _ _ y k)

/-- The first relation's message payload of the firm region at (y, j): a dense layer of the encoded row, narrowed. -/
theorem firm_pay_msg_re (x0 : Vec Ideal S10000x128 .f32) (x1 : Vec Ideal S128x128 .f32) (x2 : Vec Ideal S1x128 .f32)
    (x3 : Vec Ideal S128x128 .f32) (x4 : Vec Ideal S1x128 .f32) (x5 : Vec Ideal S128x128 .f32) (x6 : Vec Ideal S1x128 .f32)
    (y : Fin 10000) (j : Fin 128) :
    k1_pay4 (F := Ideal) x0 x1 x2 x3 x4 x5 x6 (ix2 y j)
      = msg (fun k j => x1 (ix2 k j)) (fun j => x2 (ix2 (0 : Fin 1) j)) (fun k j => x3 (ix2 k j))
          (fun j => x4 (ix2 (0 : Fin 1) j)) (fun k j => x5 (ix2 k j)) (fun j => x6 (ix2 (0 : Fin 1) j)) (fun k => x0 (ix2 y k)) j := by
  unfold k1_pay4
  refine (truncf_apply (φ := .f32) (ψ := .bf16) _ Facts₀.bitsLt_bf16_f32 (ix2 y j)).trans ?_
  refine (layer_apply (n := 10000) (K := 128) (N := 128) dot_S10000x128_S128x128_S10000x128_1_0_0_1_n_n rfl rfl rfl rfl
    lhs_row_128 rhs_col_128 none (k1_pay2 (F := Ideal) x0 x1 x2 x3 x4) x5 x6 _ _ y j).trans ?_
  exact congrArg (fun v => dense (fun k j => x5 (ix2 k j)) (fun j => x6 (ix2 (0 : Fin 1) j)) v j)
    (funext fun k => firm_pay_enc x0 x1 x2 x3 x4 y k)

/-- The second relation's message payload of the firm region at (y, j): the same with that relation's weights; here the
    dense layer and its narrowing are two payloads, one applied to the other. -/
theorem firm_pay_msg_ff (x0 : Vec Ideal S10000x128 .f32) (x1 : Vec Ideal S128x128 .f32) (x2 : Vec Ideal S1x128 .f32)
    (x3 : Vec Ideal S128x128 .f32) (x4 : Vec Ideal S1x128 .f32) (x7 : Vec Ideal S128x128 .f32) (x8 : Vec Ideal S1x128 .f32)
    (y : Fin 10000) (j : Fin 128) :
    k1_pay1 (F := Ideal) (k1_pay3 (F := Ideal) x0 x1 x2 x3 x4 x7 x8) (ix2 y j)
      = msg (fun k j => x1 (ix2 k j)) (fun j => x2 (ix2 (0 : Fin 1) j)) (fun k j => x3 (ix2 k j))
          (fun j => x4 (ix2 (0 : Fin 1) j)) (fun k j => x7 (ix2 k j)) (fun j => x8 (ix2 (0 : Fin 1) j)) (fun k => x0 (ix2 y k)) j := by
  unfold k1_pay1 k1_pay3
  refine (truncf_apply (φ := .f32) (ψ := .bf16) _ Facts₀.bitsLt_bf16_f32 (ix2 y j)).trans ?_
  refine (layer_apply (n := 10000) (K := 128) (N := 128) dot_S10000x128_S128x128_S10000x128_1_0_0_1_n_n rfl rfl rfl rfl
    lhs_row_128 rhs_col_128 none (k1_pay2 (F := Ideal) x0 x1 x2 x3 x4) x7 x8 _ _ y j).trans ?_
  exact congrArg (fun v => dense (fun k j => x7 (ix2 k j)) (fun j => x8 (ix2 (0 : Fin 1) j)) v j)
    (funext fun k => firm_pay_enc x0 x1 x2 x3 x4 y k)

/-! ## The row functions depend on their weights and their row entry by entry -/

theorem enc_congr {K : ℕ} {w1 w1' : Fin K → Fin 128 → EReal} {b1 b1' : Fin 128 → EReal}
    {w2 w2' : Fin 128 → Fin 128 → EReal} {b2 b2' : Fin 128 → EReal} {v v' : Fin K → EReal}
    (h1 : ∀ k j, w1 k j = w1' k j) (hb1 : ∀ j, b1 j = b1' j) (h2 : ∀ k j, w2 k j = w2' k j) (hb2 : ∀ j, b2 j = b2' j)
    (hv : ∀ k, v k = v' k) (j : Fin 128) : enc w1 b1 w2 b2 v j = enc w1' b1' w2' b2' v' j := by
  rw [show w1 = w1' from funext fun k => funext (h1 k), show b1 = b1' from funext hb1,
    show w2 = w2' from funext fun k => funext (h2 k), show b2 = b2' from funext hb2, show v = v' from funext hv]

theorem msg_congr {K : ℕ} {w1 w1' : Fin K → Fin 128 → EReal} {b1 b1' : Fin 128 → EReal}
    {w2 w2' : Fin 128 → Fin 128 → EReal} {b2 b2' : Fin 128 → EReal} {w w' : Fin 128 → Fin 128 → EReal} {b b' : Fin 128 → EReal}
    {v v' : Fin K → EReal}
    (h1 : ∀ k j, w1 k j = w1' k j) (hb1 : ∀ j, b1 j = b1' j) (h2 : ∀ k j, w2 k j = w2' k j) (hb2 : ∀ j, b2 j = b2' j)
    (h : ∀ k j, w k j = w' k j) (hb : ∀ j, b j = b' j)
    (hv : ∀ k, v k = v' k) (j : Fin 128) : msg w1 b1 w2 b2 w b v j = msg w1' b1' w2' b2' w' b' v' j := by
  rw [show w1 = w1' from funext fun k => funext (h1 k), show b1 = b1' from funext hb1,
    show w2 = w2' from funext fun k => funext (h2 k), show b2 = b2' from funext hb2,
    show w = w' from funext fun k => funext (h k), show b = b' from funext hb, show v = v' from funext hv]

/-! ## From the blocks to the arrays -/

variable (V : (c : Dev nD) → (b : Ref sig .tc) → Buf (Elt Ideal) ((c : Thread nD τ).loc b))

/-- Every access of the bodies starts at the origin of its buffer. -/
theorem zero_offsets : (![0, 0] : Fin 2 → Nat) = fun _ => 0 := funext fun a => by fin_cases a <;> rfl

/-! ### The event region -/

/-- The printed index maps, decided over the 20 grid points: the feature block and the output blocks of point t sit at
    block index (t, 0), every weight matrix and bias row at (0, 0). -/
theorem event_block_indices : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

/-- Row y of the feature block at point t is row 10000 t + y of the feature array. -/
theorem event_rows (c : Dev nD) (t : Fin cfg0.N) (y : Fin 10000) (k : Fin 64) (r : Fin 200000)
    (hr : r.val = t.val * 10000 + y.val) :
    (iblk0 V c 0 t : Vec Ideal S10000x64 .f32) (ix2 y k) = V c main_arg0 (ix2 r k) := by
  obtain ⟨⟨e0, e1⟩, -⟩ := event_block_indices t
  unfold iblk0
  rw [View.read_apply]
  show V c main_arg0 _ = V c main_arg0 _
  congr 1
  funext a
  apply Fin.ext
  match a with
  | ⟨0, _⟩ => show win0_0.index t (0 : Fin 2) * 10000 + 1 * y.val = r.val; rw [e0, hr]; omega
  | ⟨1, _⟩ => show win0_0.index t (1 : Fin 2) * 64 + 1 * k.val = k.val; rw [e1]; omega

/-- The block of the first weight matrix is the whole array at every point. -/
theorem event_w1 (c : Dev nD) (t : Fin cfg0.N) (p : Fin 64) (q : Fin 128) :
    (iblk0 V c 1 t : Vec Ideal S64x128 .f32) (ix2 p q) = V c main_arg11 (ix2 p q) := by
  obtain ⟨-, ⟨e0, e1⟩, -⟩ := event_block_indices t
  unfold iblk0
  rw [View.read_apply]
  show V c main_arg11 _ = V c main_arg11 _
  congr 1
  funext a
  apply Fin.ext
  match a with
  | ⟨0, _⟩ => show win0_1.index t (0 : Fin 2) * 64 + 1 * p.val = p.val; rw [e0]; omega
  | ⟨1, _⟩ => show win0_1.index t (1 : Fin 2) * 128 + 1 * q.val = q.val; rw [e1]; omega

/-- The block of the first bias row is the whole array at every point. -/
theorem event_b1 (c : Dev nD) (t : Fin cfg0.N) (p : Fin 1) (q : Fin 128) :
    (iblk0 V c 2 t : Vec Ideal S1x128 .f32) (ix2 p q) = V c main_v0 (ix2 p q) := by
  obtain ⟨-, -, ⟨e0, e1⟩, -⟩ := event_block_indices t
  unfold iblk0
  rw [View.read_apply]
  show V c main_v0 _ = V c main_v0 _
  congr 1
  funext a
  apply Fin.ext
  match a with
  | ⟨0, _⟩ => show win0_2.index t (0 : Fin 2) * 1 + 1 * p.val = p.val; rw [e0]; omega
  | ⟨1, _⟩ => show win0_2.index t (1 : Fin 2) * 128 + 1 * q.val = q.val; rw [e1]; omega

/-- The block of the second weight matrix is the whole array at every point. -/
theorem event_w2 (c : Dev nD) (t : Fin cfg0.N) (p : Fin 128) (q : Fin 128) :
    (iblk0 V c 3 t : Vec Ideal S128x128 .f32) (ix2 p q) = V c main_arg13 (ix2 p q) := by
  obtain ⟨-, -, -, ⟨e0, e1⟩, -⟩ := event_block_indices t
  unfold iblk0
  rw [View.read_apply]
  show V c main_arg13 _ = V c main_arg13 _
  congr 1
  funext a
  apply Fin.ext
  match a with
  | ⟨0, _⟩ => show win0_3.index t (0 : Fin 2) * 128 + 1 * p.val = p.val; rw [e0]; omega
  | ⟨1, _⟩ => show win0_3.index t (1 : Fin 2) * 128 + 1 * q.val = q.val; rw [e1]; omega

/-- The block of the second bias row is the whole array at every point. -/
theorem event_b2 (c : Dev nD) (t : Fin cfg0.N) (p : Fin 1) (q : Fin 128) :
    (iblk0 V c 4 t : Vec Ideal S1x128 .f32) (ix2 p q) = V c main_v1 (ix2 p q) := by
  obtain ⟨-, -, -, -, ⟨e0, e1⟩, -⟩ := event_block_indices t
  unfold iblk0
  rw [View.read_apply]
  show V c main_v1 _ = V c main_v1 _
  congr 1
  funext a
  apply Fin.ext
  match a with
  | ⟨0, _⟩ => show win0_4.index t (0 : Fin 2) * 1 + 1 * p.val = p.val; rw [e0]; omega
  | ⟨1, _⟩ => show win0_4.index t (1 : Fin 2) * 128 + 1 * q.val = q.val; rw [e1]; omega

/-- The block of the message weight matrix is the whole array at every point. -/
theorem event_wm (c : Dev nD) (t : Fin cfg0.N) (p : Fin 128) (q : Fin 128) :
    (iblk0 V c 5 t : Vec Ideal S128x128 .f32) (ix2 p q) = V c main_arg21 (ix2 p q) := by
  obtain ⟨-, -, -, -, -, ⟨e0, e1⟩, -⟩ := event_block_indices t
  unfold iblk0
  rw [View.read_apply]
  show V c main_arg21 _ = V c main_arg21 _
  congr 1
  funext a
  apply Fin.ext
  match a with
  | ⟨0, _⟩ => show win0_5.index t (0 : Fin 2) * 128 + 1 * p.val = p.val; rw [e0]; omega
  | ⟨1, _⟩ => show win0_5.index t (1 : Fin 2) * 128 + 1 * q.val = q.val; rw [e1]; omega

/-- The block of the message bias row is the whole array at every point. -/
theorem event_bm (c : Dev nD) (t : Fin cfg0.N) (p : Fin 1) (q : Fin 128) :
    (iblk0 V c 6 t : Vec Ideal S1x128 .f32) (ix2 p q) = V c main_v2 (ix2 p q) := by
  obtain ⟨-, -, -, -, -, -, ⟨e0, e1⟩, -⟩ := event_block_indices t
  unfold iblk0
  rw [View.read_apply]
  show V c main_v2 _ = V c main_v2 _
  congr 1
  funext a
  apply Fin.ext
  match a with
  | ⟨0, _⟩ => show win0_6.index t (0 : Fin 2) * 1 + 1 * p.val = p.val; rw [e0]; omega
  | ⟨1, _⟩ => show win0_6.index t (1 : Fin 2) * 128 + 1 * q.val = q.val; rw [e1]; omega

/-- An index of the array is in point t's block of output 7 iff each coordinate is in the block's range. -/
theorem event_mem_block7 (t : Fin cfg0.N) (i : S200000x128.Idx) :
    i ∈ ((cfg0.win 7).blk t).view.set ↔ ∀ a : Fin 2, win0_7.index t a * S10000x128.size a ≤ (i a).val ∧ (i a).val < win0_7.index t a * S10000x128.size a + S10000x128.size a := by
  show i ∈ ((View.whole main_v3_0).slice (win0_7.rect t)).set ↔ _
  rw [View.set_slice_whole, Rect.mem_set_unit]
  exact Iff.rfl

/-- Row r of output 7 is written back by point r / 10000: the blocks cover the array. -/
theorem event_covered7 (i : S200000x128.Idx) :
    ∃ t : Fin cfg0.N, (cfg0.win 7).flush t = true ∧ i ∈ ((cfg0.win 7).blk t).view.set := by
  have hi0 : (i 0).val < 200000 := (i 0).isLt
  have hi1 : (i 1).val < 128 := (i 1).isLt
  have hN : cfg0.N = 20 := N_0
  refine ⟨⟨(i 0).val / 10000, by rw [hN]; omega⟩, flush0_7 _, ?_⟩
  rw [event_mem_block7]
  obtain ⟨-, -, -, -, -, -, -, ⟨e0, e1⟩, -⟩ := event_block_indices ⟨(i 0).val / 10000, by rw [hN]; omega⟩
  intro a
  match a with
  | ⟨0, _⟩ => show win0_7.index _ (0 : Fin 2) * 10000 ≤ (i 0).val ∧ (i 0).val < win0_7.index _ (0 : Fin 2) * 10000 + 10000; rw [e0]; show (i 0).val / 10000 * 10000 ≤ (i 0).val ∧ (i 0).val < (i 0).val / 10000 * 10000 + 10000; omega
  | ⟨1, _⟩ => show win0_7.index _ (1 : Fin 2) * 128 ≤ (i 1).val ∧ (i 1).val < win0_7.index _ (1 : Fin 2) * 128 + 128; rw [e1]; omega

/-- An index of the array is in point t's block of output 8 iff each coordinate is in the block's range. -/
theorem event_mem_block8 (t : Fin cfg0.N) (i : S200000x128.Idx) :
    i ∈ ((cfg0.win 8).blk t).view.set ↔ ∀ a : Fin 2, win0_8.index t a * S10000x128.size a ≤ (i a).val ∧ (i a).val < win0_8.index t a * S10000x128.size a + S10000x128.size a := by
  show i ∈ ((View.whole main_v3_1).slice (win0_8.rect t)).set ↔ _
  rw [View.set_slice_whole, Rect.mem_set_unit]
  exact Iff.rfl

/-- Row r of output 8 is written back by point r / 10000: the blocks cover the array. -/
theorem event_covered8 (i : S200000x128.Idx) :
    ∃ t : Fin cfg0.N, (cfg0.win 8).flush t = true ∧ i ∈ ((cfg0.win 8).blk t).view.set := by
  have hi0 : (i 0).val < 200000 := (i 0).isLt
  have hi1 : (i 1).val < 128 := (i 1).isLt
  have hN : cfg0.N = 20 := N_0
  refine ⟨⟨(i 0).val / 10000, by rw [hN]; omega⟩, flush0_8 _, ?_⟩
  rw [event_mem_block8]
  obtain ⟨-, -, -, -, -, -, -, -, ⟨e0, e1⟩⟩ := event_block_indices ⟨(i 0).val / 10000, by rw [hN]; omega⟩
  intro a
  match a with
  | ⟨0, _⟩ => show win0_8.index _ (0 : Fin 2) * 10000 ≤ (i 0).val ∧ (i 0).val < win0_8.index _ (0 : Fin 2) * 10000 + 10000; rw [e0]; show (i 0).val / 10000 * 10000 ≤ (i 0).val ∧ (i 0).val < (i 0).val / 10000 * 10000 + 10000; omega
  | ⟨1, _⟩ => show win0_8.index _ (1 : Fin 2) * 128 ≤ (i 1).val ∧ (i 1).val < win0_8.index _ (1 : Fin 2) * 128 + 128; rw [e1]; omega

/-- The encoder of every row of the event features, as one function of the region's input arrays. -/
abbrev eventEncoded (c : Dev nD) : S200000x128.Idx → EReal := fun i =>
  enc (fun k j => V c main_arg11 (ix2 k j)) (fun j => V c main_v0 (ix2 (0 : Fin 1) j))
        (fun k j => V c main_arg13 (ix2 k j)) (fun j => V c main_v1 (ix2 (0 : Fin 1) j))
        (fun k => V c main_arg0 (ix2 (i 0) k)) (i 1)

/-- What point t writes back to output 7 is block t of that function: entry (y, j) of the payload is the
    specification's row function of row y of the feature block, which is row 10000 t + y of the array, and the
    weights' blocks are the whole arrays. -/
theorem event_enc_flushed (c : Dev nD) (t : Fin cfg0.N) :
    (dat0 (F := Ideal) V c).flushed 7 t = ((cfg0.win 7).blk t).view.read (Elt Ideal) (eventEncoded V c) := by
  show (cfg0.win 7).cut (grid0.coords t) ((dat0 V c).after 7 t) = _
  rw [after0_7]
  unfold out0_7
  rw [View.canon_unit_zero zero_offsets]
  simp only [View.ld_unit_zero (S := S10000x64) zero_offsets, View.ld_unit_zero (S := S64x128) zero_offsets, View.ld_unit_zero (S := S1x128) zero_offsets, View.ld_unit_zero (S := S128x128) zero_offsets]
  funext i
  obtain ⟨y, j, rfl⟩ : ∃ (y : Fin 10000) (j : Fin 128), i = ix2 y j := ⟨i 0, i 1, eq_ix2 i⟩
  have hN : cfg0.N = 20 := N_0
  have ht : t.val < 20 := lt_of_lt_of_eq t.isLt hN
  obtain ⟨-, -, -, -, -, -, -, ⟨e0, e1⟩, -⟩ := event_block_indices t
  have hemb : ((cfg0.win 7).blk t).view.emb (ix2 y j) = ix2 (⟨t.val * 10000 + y.val, by omega⟩ : Fin 200000) j := by
    funext a
    apply Fin.ext
    match a with
    | ⟨0, _⟩ => show win0_7.index t (0 : Fin 2) * 10000 + 1 * y.val = t.val * 10000 + y.val; rw [e0]; omega
    | ⟨1, _⟩ => show win0_7.index t (1 : Fin 2) * 128 + 1 * j.val = j.val; rw [e1]; omega
  refine (event_pay_enc (iblk0 V c 0 t) (iblk0 V c 1 t) (iblk0 V c 2 t) (iblk0 V c 3 t) (iblk0 V c 4 t) y j).trans ?_
  refine (enc_congr (event_w1 V c t) (fun q => event_b1 V c t 0 q) (event_w2 V c t) (fun q => event_b2 V c t 0 q)
    (fun k => event_rows V c t y k ⟨t.val * 10000 + y.val, by omega⟩ rfl) j).trans ?_
  exact (congrArg (eventEncoded V c) hemb).symm

/-- After the region the output array holds that function everywhere: the blocks of the grid's points cover it. -/
theorem event_enc (c : Dev nD) :
    (dat0 (F := Ideal) V c).arrAt 7 cfg0.N = fun (i : S200000x128.Idx) =>
      enc (fun k j => V c main_arg11 (ix2 k j)) (fun j => V c main_v0 (ix2 (0 : Fin 1) j))
        (fun k j => V c main_arg13 (ix2 k j)) (fun j => V c main_v1 (ix2 (0 : Fin 1) j))
        (fun k => V c main_arg0 (ix2 (i 0) k)) (i 1) :=
  (dat0 (F := Ideal) V c).arrAt_eq_of_cover 7 (eventEncoded V c) (fun t _ => event_enc_flushed V c t) event_covered7

/-- The message row of every event node, as one function of the region's input arrays. -/
abbrev eventMessage (c : Dev nD) : S200000x128.Idx → EReal := fun i =>
  msg (fun k j => V c main_arg11 (ix2 k j)) (fun j => V c main_v0 (ix2 (0 : Fin 1) j))
        (fun k j => V c main_arg13 (ix2 k j)) (fun j => V c main_v1 (ix2 (0 : Fin 1) j))
        (fun k j => V c main_arg21 (ix2 k j)) (fun j => V c main_v2 (ix2 (0 : Fin 1) j))
        (fun k => V c main_arg0 (ix2 (i 0) k)) (i 1)

/-- What point t writes back to output 8 is block t of that function: entry (y, j) of the payload is the
    specification's row function of row y of the feature block, which is row 10000 t + y of the array, and the
    weights' blocks are the whole arrays. -/
theorem event_msg_flushed (c : Dev nD) (t : Fin cfg0.N) :
    (dat0 (F := Ideal) V c).flushed 8 t = ((cfg0.win 8).blk t).view.read (Elt Ideal) (eventMessage V c) := by
  show (cfg0.win 8).cut (grid0.coords t) ((dat0 V c).after 8 t) = _
  rw [after0_8]
  unfold out0_8
  rw [View.canon_unit_zero zero_offsets]
  simp only [View.ld_unit_zero (S := S10000x64) zero_offsets, View.ld_unit_zero (S := S64x128) zero_offsets, View.ld_unit_zero (S := S1x128) zero_offsets, View.ld_unit_zero (S := S128x128) zero_offsets]
  funext i
  obtain ⟨y, j, rfl⟩ : ∃ (y : Fin 10000) (j : Fin 128), i = ix2 y j := ⟨i 0, i 1, eq_ix2 i⟩
  have hN : cfg0.N = 20 := N_0
  have ht : t.val < 20 := lt_of_lt_of_eq t.isLt hN
  obtain ⟨-, -, -, -, -, -, -, -, ⟨e0, e1⟩⟩ := event_block_indices t
  have hemb : ((cfg0.win 8).blk t).view.emb (ix2 y j) = ix2 (⟨t.val * 10000 + y.val, by omega⟩ : Fin 200000) j := by
    funext a
    apply Fin.ext
    match a with
    | ⟨0, _⟩ => show win0_8.index t (0 : Fin 2) * 10000 + 1 * y.val = t.val * 10000 + y.val; rw [e0]; omega
    | ⟨1, _⟩ => show win0_8.index t (1 : Fin 2) * 128 + 1 * j.val = j.val; rw [e1]; omega
  refine (event_pay_msg (iblk0 V c 0 t) (iblk0 V c 1 t) (iblk0 V c 2 t) (iblk0 V c 3 t) (iblk0 V c 4 t) (iblk0 V c 5 t) (iblk0 V c 6 t) y j).trans ?_
  refine (msg_congr (event_w1 V c t) (fun q => event_b1 V c t 0 q) (event_w2 V c t) (fun q => event_b2 V c t 0 q)
    (event_wm V c t) (fun q => event_bm V c t 0 q)
    (fun k => event_rows V c t y k ⟨t.val * 10000 + y.val, by omega⟩ rfl) j).trans ?_
  exact (congrArg (eventMessage V c) hemb).symm

/-- After the region the output array holds that function everywhere: the blocks of the grid's points cover it. -/
theorem event_msg (c : Dev nD) :
    (dat0 (F := Ideal) V c).arrAt 8 cfg0.N = fun (i : S200000x128.Idx) =>
      msg (fun k j => V c main_arg11 (ix2 k j)) (fun j => V c main_v0 (ix2 (0 : Fin 1) j))
        (fun k j => V c main_arg13 (ix2 k j)) (fun j => V c main_v1 (ix2 (0 : Fin 1) j))
        (fun k j => V c main_arg21 (ix2 k j)) (fun j => V c main_v2 (ix2 (0 : Fin 1) j))
        (fun k => V c main_arg0 (ix2 (i 0) k)) (i 1) :=
  (dat0 (F := Ideal) V c).arrAt_eq_of_cover 8 (eventMessage V c) (fun t _ => event_msg_flushed V c t) event_covered8

/-! ### The firm region -/

/-- The printed index maps, decided over the 5 grid points: the feature block and the output blocks of point t sit at
    block index (t, 0), every weight matrix and bias row at (0, 0). -/
theorem firm_block_indices : ∀ t : Fin cfg1.N,
    (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = t.val ∧ win1_9.index t (1 : Fin 2) = 0)
    ∧ (win1_10.index t (0 : Fin 2) = t.val ∧ win1_10.index t (1 : Fin 2) = 0)
    ∧ (win1_11.index t (0 : Fin 2) = t.val ∧ win1_11.index t (1 : Fin 2) = 0) :=
  (by decide +kernel : ∀ t : Fin grid1.N, _)

/-- Row y of the feature block at point t is row 10000 t + y of the feature array. -/
theorem firm_rows (c : Dev nD) (t : Fin cfg1.N) (y : Fin 10000) (k : Fin 128) (r : Fin 50000)
    (hr : r.val = t.val * 10000 + y.val) :
    (iblk1 V c 0 t : Vec Ideal S10000x128 .f32) (ix2 y k) = V c main_arg1 (ix2 r k) := by
  obtain ⟨⟨e0, e1⟩, -⟩ := firm_block_indices t
  unfold iblk1
  rw [View.read_apply]
  show V c main_arg1 _ = V c main_arg1 _
  congr 1
  funext a
  apply Fin.ext
  match a with
  | ⟨0, _⟩ => show win1_0.index t (0 : Fin 2) * 10000 + 1 * y.val = r.val; rw [e0, hr]; omega
  | ⟨1, _⟩ => show win1_0.index t (1 : Fin 2) * 128 + 1 * k.val = k.val; rw [e1]; omega

/-- The block of the first weight matrix is the whole array at every point. -/
theorem firm_w1 (c : Dev nD) (t : Fin cfg1.N) (p : Fin 128) (q : Fin 128) :
    (iblk1 V c 1 t : Vec Ideal S128x128 .f32) (ix2 p q) = V c main_arg15 (ix2 p q) := by
  obtain ⟨-, ⟨e0, e1⟩, -⟩ := firm_block_indices t
  unfold iblk1
  rw [View.read_apply]
  show V c main_arg15 _ = V c main_arg15 _
  congr 1
  funext a
  apply Fin.ext
  match a with
  | ⟨0, _⟩ => show win1_1.index t (0 : Fin 2) * 128 + 1 * p.val = p.val; rw [e0]; omega
  | ⟨1, _⟩ => show win1_1.index t (1 : Fin 2) * 128 + 1 * q.val = q.val; rw [e1]; omega

/-- The block of the first bias row is the whole array at every point. -/
theorem firm_b1 (c : Dev nD) (t : Fin cfg1.N) (p : Fin 1) (q : Fin 128) :
    (iblk1 V c 2 t : Vec Ideal S1x128 .f32) (ix2 p q) = V c main_v4 (ix2 p q) := by
  obtain ⟨-, -, ⟨e0, e1⟩, -⟩ := firm_block_indices t
  unfold iblk1
  rw [View.read_apply]
  show V c main_v4 _ = V c main_v4 _
  congr 1
  funext a
  apply Fin.ext
  match a with
  | ⟨0, _⟩ => show win1_2.index t (0 : Fin 2) * 1 + 1 * p.val = p.val; rw [e0]; omega
  | ⟨1, _⟩ => show win1_2.index t (1 : Fin 2) * 128 + 1 * q.val = q.val; rw [e1]; omega

/-- The block of the second weight matrix is the whole array at every point. -/
theorem firm_w2 (c : Dev nD) (t : Fin cfg1.N) (p : Fin 128) (q : Fin 128) :
    (iblk1 V c 3 t : Vec Ideal S128x128 .f32) (ix2 p q) = V c main_arg17 (ix2 p q) := by
  obtain ⟨-, -, -, ⟨e0, e1⟩, -⟩ := firm_block_indices t
  unfold iblk1
  rw [View.read_apply]
  show V c main_arg17 _ = V c main_arg17 _
  congr 1
  funext a
  apply Fin.ext
  match a with
  | ⟨0, _⟩ => show win1_3.index t (0 : Fin 2) * 128 + 1 * p.val = p.val; rw [e0]; omega
  | ⟨1, _⟩ => show win1_3.index t (1 : Fin 2) * 128 + 1 * q.val = q.val; rw [e1]; omega

/-- The block of the second bias row is the whole array at every point. -/
theorem firm_b2 (c : Dev nD) (t : Fin cfg1.N) (p : Fin 1) (q : Fin 128) :
    (iblk1 V c 4 t : Vec Ideal S1x128 .f32) (ix2 p q) = V c main_v5 (ix2 p q) := by
  obtain ⟨-, -, -, -, ⟨e0, e1⟩, -⟩ := firm_block_indices t
  unfold iblk1
  rw [View.read_apply]
  show V c main_v5 _ = V c main_v5 _
  congr 1
  funext a
  apply Fin.ext
  match a with
  | ⟨0, _⟩ => show win1_4.index t (0 : Fin 2) * 1 + 1 * p.val = p.val; rw [e0]; omega
  | ⟨1, _⟩ => show win1_4.index t (1 : Fin 2) * 128 + 1 * q.val = q.val; rw [e1]; omega

/-- The block of the weight matrix of the first relation is the whole array at every point. -/
theorem firm_wr (c : Dev nD) (t : Fin cfg1.N) (p : Fin 128) (q : Fin 128) :
    (iblk1 V c 5 t : Vec Ideal S128x128 .f32) (ix2 p q) = V c main_arg19 (ix2 p q) := by
  obtain ⟨-, -, -, -, -, ⟨e0, e1⟩, -⟩ := firm_block_indices t
  unfold iblk1
  rw [View.read_apply]
  show V c main_arg19 _ = V c main_arg19 _
  congr 1
  funext a
  apply Fin.ext
  match a with
  | ⟨0, _⟩ => show win1_5.index t (0 : Fin 2) * 128 + 1 * p.val = p.val; rw [e0]; omega
  | ⟨1, _⟩ => show win1_5.index t (1 : Fin 2) * 128 + 1 * q.val = q.val; rw [e1]; omega

/-- The block of the bias row of the first relation is the whole array at every point. -/
theorem firm_br (c : Dev nD) (t : Fin cfg1.N) (p : Fin 1) (q : Fin 128) :
    (iblk1 V c 6 t : Vec Ideal S1x128 .f32) (ix2 p q) = V c main_v6 (ix2 p q) := by
  obtain ⟨-, -, -, -, -, -, ⟨e0, e1⟩, -⟩ := firm_block_indices t
  unfold iblk1
  rw [View.read_apply]
  show V c main_v6 _ = V c main_v6 _
  congr 1
  funext a
  apply Fin.ext
  match a with
  | ⟨0, _⟩ => show win1_6.index t (0 : Fin 2) * 1 + 1 * p.val = p.val; rw [e0]; omega
  | ⟨1, _⟩ => show win1_6.index t (1 : Fin 2) * 128 + 1 * q.val = q.val; rw [e1]; omega

/-- The block of the weight matrix of the second relation is the whole array at every point. -/
theorem firm_wf (c : Dev nD) (t : Fin cfg1.N) (p : Fin 128) (q : Fin 128) :
    (iblk1 V c 7 t : Vec Ideal S128x128 .f32) (ix2 p q) = V c main_arg23 (ix2 p q) := by
  obtain ⟨-, -, -, -, -, -, -, ⟨e0, e1⟩, -⟩ := firm_block_indices t
  unfold iblk1
  rw [View.read_apply]
  show V c main_arg23 _ = V c main_arg23 _
  congr 1
  funext a
  apply Fin.ext
  match a with
  | ⟨0, _⟩ => show win1_7.index t (0 : Fin 2) * 128 + 1 * p.val = p.val; rw [e0]; omega
  | ⟨1, _⟩ => show win1_7.index t (1 : Fin 2) * 128 + 1 * q.val = q.val; rw [e1]; omega

/-- The block of the bias row of the second relation is the whole array at every point. -/
theorem firm_bf (c : Dev nD) (t : Fin cfg1.N) (p : Fin 1) (q : Fin 128) :
    (iblk1 V c 8 t : Vec Ideal S1x128 .f32) (ix2 p q) = V c main_v7 (ix2 p q) := by
  obtain ⟨-, -, -, -, -, -, -, -, ⟨e0, e1⟩, -⟩ := firm_block_indices t
  unfold iblk1
  rw [View.read_apply]
  show V c main_v7 _ = V c main_v7 _
  congr 1
  funext a
  apply Fin.ext
  match a with
  | ⟨0, _⟩ => show win1_8.index t (0 : Fin 2) * 1 + 1 * p.val = p.val; rw [e0]; omega
  | ⟨1, _⟩ => show win1_8.index t (1 : Fin 2) * 128 + 1 * q.val = q.val; rw [e1]; omega

/-- An index of the array is in point t's block of output 9 iff each coordinate is in the block's range. -/
theorem firm_mem_block9 (t : Fin cfg1.N) (i : S50000x128.Idx) :
    i ∈ ((cfg1.win 9).blk t).view.set ↔ ∀ a : Fin 2, win1_9.index t a * S10000x128.size a ≤ (i a).val ∧ (i a).val < win1_9.index t a * S10000x128.size a + S10000x128.size a := by
  show i ∈ ((View.whole main_v8_0).slice (win1_9.rect t)).set ↔ _
  rw [View.set_slice_whole, Rect.mem_set_unit]
  exact Iff.rfl

/-- Row r of output 9 is written back by point r / 10000: the blocks cover the array. -/
theorem firm_covered9 (i : S50000x128.Idx) :
    ∃ t : Fin cfg1.N, (cfg1.win 9).flush t = true ∧ i ∈ ((cfg1.win 9).blk t).view.set := by
  have hi0 : (i 0).val < 50000 := (i 0).isLt
  have hi1 : (i 1).val < 128 := (i 1).isLt
  have hN : cfg1.N = 5 := N_1
  refine ⟨⟨(i 0).val / 10000, by rw [hN]; omega⟩, flush1_9 _, ?_⟩
  rw [firm_mem_block9]
  obtain ⟨-, -, -, -, -, -, -, -, -, ⟨e0, e1⟩, -⟩ := firm_block_indices ⟨(i 0).val / 10000, by rw [hN]; omega⟩
  intro a
  match a with
  | ⟨0, _⟩ => show win1_9.index _ (0 : Fin 2) * 10000 ≤ (i 0).val ∧ (i 0).val < win1_9.index _ (0 : Fin 2) * 10000 + 10000; rw [e0]; show (i 0).val / 10000 * 10000 ≤ (i 0).val ∧ (i 0).val < (i 0).val / 10000 * 10000 + 10000; omega
  | ⟨1, _⟩ => show win1_9.index _ (1 : Fin 2) * 128 ≤ (i 1).val ∧ (i 1).val < win1_9.index _ (1 : Fin 2) * 128 + 128; rw [e1]; omega

/-- An index of the array is in point t's block of output 10 iff each coordinate is in the block's range. -/
theorem firm_mem_block10 (t : Fin cfg1.N) (i : S50000x128.Idx) :
    i ∈ ((cfg1.win 10).blk t).view.set ↔ ∀ a : Fin 2, win1_10.index t a * S10000x128.size a ≤ (i a).val ∧ (i a).val < win1_10.index t a * S10000x128.size a + S10000x128.size a := by
  show i ∈ ((View.whole main_v8_1).slice (win1_10.rect t)).set ↔ _
  rw [View.set_slice_whole, Rect.mem_set_unit]
  exact Iff.rfl

/-- Row r of output 10 is written back by point r / 10000: the blocks cover the array. -/
theorem firm_covered10 (i : S50000x128.Idx) :
    ∃ t : Fin cfg1.N, (cfg1.win 10).flush t = true ∧ i ∈ ((cfg1.win 10).blk t).view.set := by
  have hi0 : (i 0).val < 50000 := (i 0).isLt
  have hi1 : (i 1).val < 128 := (i 1).isLt
  have hN : cfg1.N = 5 := N_1
  refine ⟨⟨(i 0).val / 10000, by rw [hN]; omega⟩, flush1_10 _, ?_⟩
  rw [firm_mem_block10]
  obtain ⟨-, -, -, -, -, -, -, -, -, -, ⟨e0, e1⟩, -⟩ := firm_block_indices ⟨(i 0).val / 10000, by rw [hN]; omega⟩
  intro a
  match a with
  | ⟨0, _⟩ => show win1_10.index _ (0 : Fin 2) * 10000 ≤ (i 0).val ∧ (i 0).val < win1_10.index _ (0 : Fin 2) * 10000 + 10000; rw [e0]; show (i 0).val / 10000 * 10000 ≤ (i 0).val ∧ (i 0).val < (i 0).val / 10000 * 10000 + 10000; omega
  | ⟨1, _⟩ => show win1_10.index _ (1 : Fin 2) * 128 ≤ (i 1).val ∧ (i 1).val < win1_10.index _ (1 : Fin 2) * 128 + 128; rw [e1]; omega

/-- An index of the array is in point t's block of output 11 iff each coordinate is in the block's range. -/
theorem firm_mem_block11 (t : Fin cfg1.N) (i : S50000x128.Idx) :
    i ∈ ((cfg1.win 11).blk t).view.set ↔ ∀ a : Fin 2, win1_11.index t a * S10000x128.size a ≤ (i a).val ∧ (i a).val < win1_11.index t a * S10000x128.size a + S10000x128.size a := by
  show i ∈ ((View.whole main_v8_2).slice (win1_11.rect t)).set ↔ _
  rw [View.set_slice_whole, Rect.mem_set_unit]
  exact Iff.rfl

/-- Row r of output 11 is written back by point r / 10000: the blocks cover the array. -/
theorem firm_covered11 (i : S50000x128.Idx) :
    ∃ t : Fin cfg1.N, (cfg1.win 11).flush t = true ∧ i ∈ ((cfg1.win 11).blk t).view.set := by
  have hi0 : (i 0).val < 50000 := (i 0).isLt
  have hi1 : (i 1).val < 128 := (i 1).isLt
  have hN : cfg1.N = 5 := N_1
  refine ⟨⟨(i 0).val / 10000, by rw [hN]; omega⟩, flush1_11 _, ?_⟩
  rw [firm_mem_block11]
  obtain ⟨-, -, -, -, -, -, -, -, -, -, -, ⟨e0, e1⟩⟩ := firm_block_indices ⟨(i 0).val / 10000, by rw [hN]; omega⟩
  intro a
  match a with
  | ⟨0, _⟩ => show win1_11.index _ (0 : Fin 2) * 10000 ≤ (i 0).val ∧ (i 0).val < win1_11.index _ (0 : Fin 2) * 10000 + 10000; rw [e0]; show (i 0).val / 10000 * 10000 ≤ (i 0).val ∧ (i 0).val < (i 0).val / 10000 * 10000 + 10000; omega
  | ⟨1, _⟩ => show win1_11.index _ (1 : Fin 2) * 128 ≤ (i 1).val ∧ (i 1).val < win1_11.index _ (1 : Fin 2) * 128 + 128; rw [e1]; omega

/-- The encoder of every row of the firm features, as one function of the region's input arrays. -/
abbrev firmEncoded (c : Dev nD) : S50000x128.Idx → EReal := fun i =>
  enc (fun k j => V c main_arg15 (ix2 k j)) (fun j => V c main_v4 (ix2 (0 : Fin 1) j))
        (fun k j => V c main_arg17 (ix2 k j)) (fun j => V c main_v5 (ix2 (0 : Fin 1) j))
        (fun k => V c main_arg1 (ix2 (i 0) k)) (i 1)

/-- What point t writes back to output 9 is block t of that function: entry (y, j) of the payload is the
    specification's row function of row y of the feature block, which is row 10000 t + y of the array, and the
    weights' blocks are the whole arrays. -/
theorem firm_enc_flushed (c : Dev nD) (t : Fin cfg1.N) :
    (dat1 (F := Ideal) V c).flushed 9 t = ((cfg1.win 9).blk t).view.read (Elt Ideal) (firmEncoded V c) := by
  show (cfg1.win 9).cut (grid1.coords t) ((dat1 V c).after 9 t) = _
  rw [after1_9]
  unfold out1_9
  rw [View.canon_unit_zero zero_offsets]
  simp only [View.ld_unit_zero (S := S10000x128) zero_offsets, View.ld_unit_zero (S := S128x128) zero_offsets, View.ld_unit_zero (S := S1x128) zero_offsets]
  funext i
  obtain ⟨y, j, rfl⟩ : ∃ (y : Fin 10000) (j : Fin 128), i = ix2 y j := ⟨i 0, i 1, eq_ix2 i⟩
  have hN : cfg1.N = 5 := N_1
  have ht : t.val < 5 := lt_of_lt_of_eq t.isLt hN
  obtain ⟨-, -, -, -, -, -, -, -, -, ⟨e0, e1⟩, -⟩ := firm_block_indices t
  have hemb : ((cfg1.win 9).blk t).view.emb (ix2 y j) = ix2 (⟨t.val * 10000 + y.val, by omega⟩ : Fin 50000) j := by
    funext a
    apply Fin.ext
    match a with
    | ⟨0, _⟩ => show win1_9.index t (0 : Fin 2) * 10000 + 1 * y.val = t.val * 10000 + y.val; rw [e0]; omega
    | ⟨1, _⟩ => show win1_9.index t (1 : Fin 2) * 128 + 1 * j.val = j.val; rw [e1]; omega
  refine (firm_pay_enc (iblk1 V c 0 t) (iblk1 V c 1 t) (iblk1 V c 2 t) (iblk1 V c 3 t) (iblk1 V c 4 t) y j).trans ?_
  refine (enc_congr (firm_w1 V c t) (fun q => firm_b1 V c t 0 q) (firm_w2 V c t) (fun q => firm_b2 V c t 0 q)
    (fun k => firm_rows V c t y k ⟨t.val * 10000 + y.val, by omega⟩ rfl) j).trans ?_
  exact (congrArg (firmEncoded V c) hemb).symm

/-- After the region the output array holds that function everywhere: the blocks of the grid's points cover it. -/
theorem firm_enc (c : Dev nD) :
    (dat1 (F := Ideal) V c).arrAt 9 cfg1.N = fun (i : S50000x128.Idx) =>
      enc (fun k j => V c main_arg15 (ix2 k j)) (fun j => V c main_v4 (ix2 (0 : Fin 1) j))
        (fun k j => V c main_arg17 (ix2 k j)) (fun j => V c main_v5 (ix2 (0 : Fin 1) j))
        (fun k => V c main_arg1 (ix2 (i 0) k)) (i 1) :=
  (dat1 (F := Ideal) V c).arrAt_eq_of_cover 9 (firmEncoded V c) (fun t _ => firm_enc_flushed V c t) firm_covered9

/-- The first relation's message row of every firm node, as one function of the region's input arrays. -/
abbrev firmMessageRe (c : Dev nD) : S50000x128.Idx → EReal := fun i =>
  msg (fun k j => V c main_arg15 (ix2 k j)) (fun j => V c main_v4 (ix2 (0 : Fin 1) j))
        (fun k j => V c main_arg17 (ix2 k j)) (fun j => V c main_v5 (ix2 (0 : Fin 1) j))
        (fun k j => V c main_arg19 (ix2 k j)) (fun j => V c main_v6 (ix2 (0 : Fin 1) j))
        (fun k => V c main_arg1 (ix2 (i 0) k)) (i 1)

/-- What point t writes back to output 10 is block t of that function: entry (y, j) of the payload is the
    specification's row function of row y of the feature block, which is row 10000 t + y of the array, and the
    weights' blocks are the whole arrays. -/
theorem firm_msg_re_flushed (c : Dev nD) (t : Fin cfg1.N) :
    (dat1 (F := Ideal) V c).flushed 10 t = ((cfg1.win 10).blk t).view.read (Elt Ideal) (firmMessageRe V c) := by
  show (cfg1.win 10).cut (grid1.coords t) ((dat1 V c).after 10 t) = _
  rw [after1_10]
  unfold out1_10
  rw [View.canon_unit_zero zero_offsets]
  simp only [View.ld_unit_zero (S := S10000x128) zero_offsets, View.ld_unit_zero (S := S128x128) zero_offsets, View.ld_unit_zero (S := S1x128) zero_offsets]
  funext i
  obtain ⟨y, j, rfl⟩ : ∃ (y : Fin 10000) (j : Fin 128), i = ix2 y j := ⟨i 0, i 1, eq_ix2 i⟩
  have hN : cfg1.N = 5 := N_1
  have ht : t.val < 5 := lt_of_lt_of_eq t.isLt hN
  obtain ⟨-, -, -, -, -, -, -, -, -, -, ⟨e0, e1⟩, -⟩ := firm_block_indices t
  have hemb : ((cfg1.win 10).blk t).view.emb (ix2 y j) = ix2 (⟨t.val * 10000 + y.val, by omega⟩ : Fin 50000) j := by
    funext a
    apply Fin.ext
    match a with
    | ⟨0, _⟩ => show win1_10.index t (0 : Fin 2) * 10000 + 1 * y.val = t.val * 10000 + y.val; rw [e0]; omega
    | ⟨1, _⟩ => show win1_10.index t (1 : Fin 2) * 128 + 1 * j.val = j.val; rw [e1]; omega
  refine (firm_pay_msg_re (iblk1 V c 0 t) (iblk1 V c 1 t) (iblk1 V c 2 t) (iblk1 V c 3 t) (iblk1 V c 4 t) (iblk1 V c 5 t) (iblk1 V c 6 t) y j).trans ?_
  refine (msg_congr (firm_w1 V c t) (fun q => firm_b1 V c t 0 q) (firm_w2 V c t) (fun q => firm_b2 V c t 0 q)
    (firm_wr V c t) (fun q => firm_br V c t 0 q)
    (fun k => firm_rows V c t y k ⟨t.val * 10000 + y.val, by omega⟩ rfl) j).trans ?_
  exact (congrArg (firmMessageRe V c) hemb).symm

/-- After the region the output array holds that function everywhere: the blocks of the grid's points cover it. -/
theorem firm_msg_re (c : Dev nD) :
    (dat1 (F := Ideal) V c).arrAt 10 cfg1.N = fun (i : S50000x128.Idx) =>
      msg (fun k j => V c main_arg15 (ix2 k j)) (fun j => V c main_v4 (ix2 (0 : Fin 1) j))
        (fun k j => V c main_arg17 (ix2 k j)) (fun j => V c main_v5 (ix2 (0 : Fin 1) j))
        (fun k j => V c main_arg19 (ix2 k j)) (fun j => V c main_v6 (ix2 (0 : Fin 1) j))
        (fun k => V c main_arg1 (ix2 (i 0) k)) (i 1) :=
  (dat1 (F := Ideal) V c).arrAt_eq_of_cover 10 (firmMessageRe V c) (fun t _ => firm_msg_re_flushed V c t) firm_covered10

/-- The second relation's message row of every firm node, as one function of the region's input arrays. -/
abbrev firmMessageFf (c : Dev nD) : S50000x128.Idx → EReal := fun i =>
  msg (fun k j => V c main_arg15 (ix2 k j)) (fun j => V c main_v4 (ix2 (0 : Fin 1) j))
        (fun k j => V c main_arg17 (ix2 k j)) (fun j => V c main_v5 (ix2 (0 : Fin 1) j))
        (fun k j => V c main_arg23 (ix2 k j)) (fun j => V c main_v7 (ix2 (0 : Fin 1) j))
        (fun k => V c main_arg1 (ix2 (i 0) k)) (i 1)

/-- What point t writes back to output 11 is block t of that function: entry (y, j) of the payload is the
    specification's row function of row y of the feature block, which is row 10000 t + y of the array, and the
    weights' blocks are the whole arrays. -/
theorem firm_msg_ff_flushed (c : Dev nD) (t : Fin cfg1.N) :
    (dat1 (F := Ideal) V c).flushed 11 t = ((cfg1.win 11).blk t).view.read (Elt Ideal) (firmMessageFf V c) := by
  show (cfg1.win 11).cut (grid1.coords t) ((dat1 V c).after 11 t) = _
  rw [after1_11]
  unfold out1_11
  rw [View.canon_unit_zero zero_offsets]
  simp only [View.ld_unit_zero (S := S10000x128) zero_offsets, View.ld_unit_zero (S := S128x128) zero_offsets, View.ld_unit_zero (S := S1x128) zero_offsets]
  funext i
  obtain ⟨y, j, rfl⟩ : ∃ (y : Fin 10000) (j : Fin 128), i = ix2 y j := ⟨i 0, i 1, eq_ix2 i⟩
  have hN : cfg1.N = 5 := N_1
  have ht : t.val < 5 := lt_of_lt_of_eq t.isLt hN
  obtain ⟨-, -, -, -, -, -, -, -, -, -, -, ⟨e0, e1⟩⟩ := firm_block_indices t
  have hemb : ((cfg1.win 11).blk t).view.emb (ix2 y j) = ix2 (⟨t.val * 10000 + y.val, by omega⟩ : Fin 50000) j := by
    funext a
    apply Fin.ext
    match a with
    | ⟨0, _⟩ => show win1_11.index t (0 : Fin 2) * 10000 + 1 * y.val = t.val * 10000 + y.val; rw [e0]; omega
    | ⟨1, _⟩ => show win1_11.index t (1 : Fin 2) * 128 + 1 * j.val = j.val; rw [e1]; omega
  refine (firm_pay_msg_ff (iblk1 V c 0 t) (iblk1 V c 1 t) (iblk1 V c 2 t) (iblk1 V c 3 t) (iblk1 V c 4 t) (iblk1 V c 7 t) (iblk1 V c 8 t) y j).trans ?_
  refine (msg_congr (firm_w1 V c t) (fun q => firm_b1 V c t 0 q) (firm_w2 V c t) (fun q => firm_b2 V c t 0 q)
    (firm_wf V c t) (fun q => firm_bf V c t 0 q)
    (fun k => firm_rows V c t y k ⟨t.val * 10000 + y.val, by omega⟩ rfl) j).trans ?_
  exact (congrArg (firmMessageFf V c) hemb).symm

/-- After the region the output array holds that function everywhere: the blocks of the grid's points cover it. -/
theorem firm_msg_ff (c : Dev nD) :
    (dat1 (F := Ideal) V c).arrAt 11 cfg1.N = fun (i : S50000x128.Idx) =>
      msg (fun k j => V c main_arg15 (ix2 k j)) (fun j => V c main_v4 (ix2 (0 : Fin 1) j))
        (fun k j => V c main_arg17 (ix2 k j)) (fun j => V c main_v5 (ix2 (0 : Fin 1) j))
        (fun k j => V c main_arg23 (ix2 k j)) (fun j => V c main_v7 (ix2 (0 : Fin 1) j))
        (fun k => V c main_arg1 (ix2 (i 0) k)) (i 1) :=
  (dat1 (F := Ideal) V c).arrAt_eq_of_cover 11 (firmMessageFf V c) (fun t _ => firm_msg_ff_flushed V c t) firm_covered11

end Cert.KernelIdeal.EncoderArrays

end
-- ==== Proof.EncoderValues.lean ====
/-
  The encoders' output arrays as functions of the launch memory.

  Each encoder region finds its feature matrix and its weight matrices exactly as they were launched: nothing
  before the region writes them. Each bias row it finds is the launched bias vector set under a unit axis by the
  host, so its entry (0, j) is entry j of the vector. Substituting these reads in the arrays the regions leave
  gives every output array as the specification's row function of the launched arrays: the encoder of row r
  of the features at column j, and one more dense layer of it for a relation's messages.
-/
import proofs.«181421_j6158983102955_2_alg».proof.Proof.BoundaryWalk
import proofs.«181421_j6158983102955_2_alg».proof.Proof.EncoderArrays
import proofs.«181421_j6158983102955_2_alg».proof.Proof.NodeSpec

set_option maxRecDepth 16384

noncomputable section

namespace Cert.KernelIdeal.EncoderValues

open Cert.KernelIdeal Cert.KernelIdeal.Gen Cert.KernelIdeal.RunValue
open Idealize.ShloMosaic Idealize.ShloMosaic.ValueIdx Idealize.ShloMosaic.TcCoe Idealize.SL.Sem

variable (m : (ℓ : Loc nD τ sig) → Buf (Elt Ideal) ℓ) (ρ : Dev nD → PrngReg)

/-- The encoded event rows, from the launch memory: the region finds the feature and weight arrays as launched, and each
    bias row is the launched bias vector set under a unit axis. -/
theorem event_enc_m (c : Dev nD) :
    (dat0 (F := Ideal) (V1 m ρ) c).arrAt 7 cfg0.N = fun (i : S200000x128.Idx) =>
      NodeSpec.enc (fun k j => m ((c : Thread nD τ).loc main_arg11) (ix2 k j)) (fun j => m ((c : Thread nD τ).loc main_arg12) (ix1 j))
        (fun k j => m ((c : Thread nD τ).loc main_arg13) (ix2 k j)) (fun j => m ((c : Thread nD τ).loc main_arg14) (ix1 j))
        (fun k => m ((c : Thread nD τ).loc main_arg0) (ix2 (i 0) k)) (i 1) :=
  (EncoderArrays.event_enc (V1 m ρ) c).trans (funext fun i => EncoderArrays.enc_congr
    (fun k j => congrFun (at1_main_arg11 m ρ c) (ix2 k j))
    (fun j => row_main_v0 m ρ c j)
    (fun k j => congrFun (at1_main_arg13 m ρ c) (ix2 k j))
    (fun j => row_main_v1 m ρ c j)
    (fun k => congrFun (at1_main_arg0 m ρ c) (ix2 (i 0) k)) (i 1))

/-- The event nodes' message rows, from the launch memory: the region finds the feature and weight arrays as launched, and each
    bias row is the launched bias vector set under a unit axis. -/
theorem event_msg_m (c : Dev nD) :
    (dat0 (F := Ideal) (V1 m ρ) c).arrAt 8 cfg0.N = fun (i : S200000x128.Idx) =>
      NodeSpec.msg (fun k j => m ((c : Thread nD τ).loc main_arg11) (ix2 k j)) (fun j => m ((c : Thread nD τ).loc main_arg12) (ix1 j))
        (fun k j => m ((c : Thread nD τ).loc main_arg13) (ix2 k j)) (fun j => m ((c : Thread nD τ).loc main_arg14) (ix1 j))
        (fun k j => m ((c : Thread nD τ).loc main_arg21) (ix2 k j)) (fun j => m ((c : Thread nD τ).loc main_arg22) (ix1 j))
        (fun k => m ((c : Thread nD τ).loc main_arg0) (ix2 (i 0) k)) (i 1) :=
  (EncoderArrays.event_msg (V1 m ρ) c).trans (funext fun i => EncoderArrays.msg_congr
    (fun k j => congrFun (at1_main_arg11 m ρ c) (ix2 k j))
    (fun j => row_main_v0 m ρ c j)
    (fun k j => congrFun (at1_main_arg13 m ρ c) (ix2 k j))
    (fun j => row_main_v1 m ρ c j)
    (fun k j => congrFun (at1_main_arg21 m ρ c) (ix2 k j))
    (fun j => row_main_v2 m ρ c j)
    (fun k => congrFun (at1_main_arg0 m ρ c) (ix2 (i 0) k)) (i 1))

/-- The encoded firm rows, from the launch memory: the region finds the feature and weight arrays as launched, and each
    bias row is the launched bias vector set under a unit axis. -/
theorem firm_enc_m (c : Dev nD) :
    (dat1 (F := Ideal) (V3 m ρ) c).arrAt 9 cfg1.N = fun (i : S50000x128.Idx) =>
      NodeSpec.enc (fun k j => m ((c : Thread nD τ).loc main_arg15) (ix2 k j)) (fun j => m ((c : Thread nD τ).loc main_arg16) (ix1 j))
        (fun k j => m ((c : Thread nD τ).loc main_arg17) (ix2 k j)) (fun j => m ((c : Thread nD τ).loc main_arg18) (ix1 j))
        (fun k => m ((c : Thread nD τ).loc main_arg1) (ix2 (i 0) k)) (i 1) :=
  (EncoderArrays.firm_enc (V3 m ρ) c).trans (funext fun i => EncoderArrays.enc_congr
    (fun k j => congrFun (at3_main_arg15 m ρ c) (ix2 k j))
    (fun j => row_main_v4 m ρ c j)
    (fun k j => congrFun (at3_main_arg17 m ρ c) (ix2 k j))
    (fun j => row_main_v5 m ρ c j)
    (fun k => congrFun (at3_main_arg1 m ρ c) (ix2 (i 0) k)) (i 1))

/-- The firm nodes' message rows of the first relation, from the launch memory: the region finds the feature and weight arrays as launched, and each
    bias row is the launched bias vector set under a unit axis. -/
theorem firm_msg_re_m (c : Dev nD) :
    (dat1 (F := Ideal) (V3 m ρ) c).arrAt 10 cfg1.N = fun (i : S50000x128.Idx) =>
      NodeSpec.msg (fun k j => m ((c : Thread nD τ).loc main_arg15) (ix2 k j)) (fun j => m ((c : Thread nD τ).loc main_arg16) (ix1 j))
        (fun k j => m ((c : Thread nD τ).loc main_arg17) (ix2 k j)) (fun j => m ((c : Thread nD τ).loc main_arg18) (ix1 j))
        (fun k j => m ((c : Thread nD τ).loc main_arg19) (ix2 k j)) (fun j => m ((c : Thread nD τ).loc main_arg20) (ix1 j))
        (fun k => m ((c : Thread nD τ).loc main_arg1) (ix2 (i 0) k)) (i 1) :=
  (EncoderArrays.firm_msg_re (V3 m ρ) c).trans (funext fun i => EncoderArrays.msg_congr
    (fun k j => congrFun (at3_main_arg15 m ρ c) (ix2 k j))
    (fun j => row_main_v4 m ρ c j)
    (fun k j => congrFun (at3_main_arg17 m ρ c) (ix2 k j))
    (fun j => row_main_v5 m ρ c j)
    (fun k j => congrFun (at3_main_arg19 m ρ c) (ix2 k j))
    (fun j => row_main_v6 m ρ c j)
    (fun k => congrFun (at3_main_arg1 m ρ c) (ix2 (i 0) k)) (i 1))

/-- The firm nodes' message rows of the second relation, from the launch memory: the region finds the feature and weight arrays as launched, and each
    bias row is the launched bias vector set under a unit axis. -/
theorem firm_msg_ff_m (c : Dev nD) :
    (dat1 (F := Ideal) (V3 m ρ) c).arrAt 11 cfg1.N = fun (i : S50000x128.Idx) =>
      NodeSpec.msg (fun k j => m ((c : Thread nD τ).loc main_arg15) (ix2 k j)) (fun j => m ((c : Thread nD τ).loc main_arg16) (ix1 j))
        (fun k j => m ((c : Thread nD τ).loc main_arg17) (ix2 k j)) (fun j => m ((c : Thread nD τ).loc main_arg18) (ix1 j))
        (fun k j => m ((c : Thread nD τ).loc main_arg23) (ix2 k j)) (fun j => m ((c : Thread nD τ).loc main_arg24) (ix1 j))
        (fun k => m ((c : Thread nD τ).loc main_arg1) (ix2 (i 0) k)) (i 1) :=
  (EncoderArrays.firm_msg_ff (V3 m ρ) c).trans (funext fun i => EncoderArrays.msg_congr
    (fun k j => congrFun (at3_main_arg15 m ρ c) (ix2 k j))
    (fun j => row_main_v4 m ρ c j)
    (fun k j => congrFun (at3_main_arg17 m ρ c) (ix2 k j))
    (fun j => row_main_v5 m ρ c j)
    (fun k j => congrFun (at3_main_arg23 m ρ c) (ix2 k j))
    (fun j => row_main_v7 m ρ c j)
    (fun k => congrFun (at3_main_arg1 m ρ c) (ix2 (i 0) k)) (i 1))

end Cert.KernelIdeal.EncoderValues

end
-- ==== Proof.LibColumn.lean ====
/-
  A column kept as a unit trailing axis (what `jnp.sum(…, keepdims=True)` over the last axis produces), read at an
  index: a vector of length a viewed as an [a, 1] column, and an [a, 1] column broadcast along the rows of an
  [a, b] matrix. (The library has the leading-unit-axis forms and the row broadcast [1, b] → [a, b]; these are the
  trailing-unit-axis counterparts, for any extents.)
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibRowSum.lean ====
/-
  A sum along the rows of a matrix, read at an index on the extended reals: a lane reduction of an [n, k] matrix
  over its columns, into the zero accumulator, is at row r the sum over the k columns of the row's entries.
-/
import Idealize.ShloMosaic.PureOps.Ideal.Laws
import Idealize.ShloMosaic.Lib.ValueIdx

namespace Idealize.ShloMosaic.ValueIdx

open Idealize.ShloMosaic

/-- The reduced index `r` with the column `d` put back is the matrix index `(r, d)`. -/
theorem lift_rows {n k : ℕ} (h : (⟨2, ![n, k]⟩ : Shape).Reduces [1] ⟨1, ![n]⟩) (r : Fin n) (d : Fin k) :
    h.lift (ix1 r) d = ix2 r d :=
  funext fun a => Fin.ext (by match a with | ⟨0, _⟩ => rfl | ⟨1, _⟩ => rfl)

/-- A float lane sum over the columns of an `[n, k]` matrix, at row `r`, is the sum of the row's `k` entries. -/
theorem multiReduction_add_rows_apply {n k : ℕ} (src : FVec Ideal ⟨2, ![n, k]⟩ .f32)
    (h : (⟨2, ![n, k]⟩ : Shape).Reduces [1] ⟨1, ![n]⟩) (hφ : FKind.Formats .f32)
    (hacc : (0x00000000#32 : BitVec 32) = FKind.add.neutral .f32 hφ) (r : Fin n) :
    multiReduction .add [1] ⟨1, ![n]⟩ src 0x00000000#32 h hφ hacc (ix1 r) = ∑ d : Fin k, src (ix2 r d) :=
  (Ideal.multiReduction_add_single src 0x00000000#32 h hφ hacc (ix1 r)).trans
    (Finset.sum_congr rfl fun d _ => congrArg src (lift_rows h r d))

end Idealize.ShloMosaic.ValueIdx
-- ==== Proof.LibJoinCols.lean ====
/-
  Matrices joined along their columns, read at an entry.

  When two or three matrices with the same number of rows are laid side by side, the entry (e, q) of the result is
  the entry of the piece whose column range holds q: for widths w1, w2, w3 the first piece at column q when
  q < w1, the second at q − w1 when w1 ≤ q < w1 + w2, the third at q − w1 − w2 beyond. The result's width is
  kept as a number W of its own, so that a printed shape whose width is written as one literal is met directly.
-/
import Idealize.ShloMosaic.Lib.ValueIdx
import Idealize.ShloMosaic.Lib.Pipeline.Value

noncomputable section

namespace Idealize.ShloMosaic.JoinCols

open Idealize.ShloMosaic Idealize.ShloMosaic.ValueIdx

variable {α : Type}

/-- Two matrices side by side, at a column of the first. -/
theorem pair_left {n w1 w2 W : ℕ} (A : (⟨2, ![n, w1]⟩ : Shape).Idx → α) (B : (⟨2, ![n, w2]⟩ : Shape).Idx → α)
    (h : Shape.Concatenates [(⟨2, ![n, w1]⟩ : Shape), (⟨2, ![n, w2]⟩ : Shape)] (⟨2, ![n, W]⟩ : Shape) 1)
    (e : Fin n) (a : Fin w1) (q : Fin W) (hq : q.val = a.val) :
    concatenate (⟨2, ![n, W]⟩ : Shape) 1 [⟨(⟨2, ![n, w1]⟩ : Shape), A⟩, ⟨(⟨2, ![n, w2]⟩ : Shape), B⟩] h (ix2 e q) = A (ix2 e a) :=
  concatenate_pair_apply_left 1 A B h (ix2 e q) rfl (ix2 e a)
    (fun b => match b with | ⟨0, _⟩ => rfl | ⟨1, _⟩ => hq.symm)

/-- Two matrices side by side, at a column of the second. -/
theorem pair_right {n w1 w2 W : ℕ} (A : (⟨2, ![n, w1]⟩ : Shape).Idx → α) (B : (⟨2, ![n, w2]⟩ : Shape).Idx → α)
    (h : Shape.Concatenates [(⟨2, ![n, w1]⟩ : Shape), (⟨2, ![n, w2]⟩ : Shape)] (⟨2, ![n, W]⟩ : Shape) 1)
    (e : Fin n) (a : Fin w2) (q : Fin W) (hq : q.val = w1 + a.val) :
    concatenate (⟨2, ![n, W]⟩ : Shape) 1 [⟨(⟨2, ![n, w1]⟩ : Shape), A⟩, ⟨(⟨2, ![n, w2]⟩ : Shape), B⟩] h (ix2 e q) = B (ix2 e a) :=
  concatenate_pair_apply_right 1 A B h (ix2 e q) rfl rfl (ix2 e a)
    (fun b hb => match b with | ⟨0, _⟩ => rfl | ⟨1, _⟩ => absurd rfl hb)
    (by show a.val + w1 = q.val; omega)

/-- Three matrices side by side, at a column of the first. -/
theorem triple_left {n w1 w2 w3 W : ℕ} (A : (⟨2, ![n, w1]⟩ : Shape).Idx → α) (B : (⟨2, ![n, w2]⟩ : Shape).Idx → α)
    (C : (⟨2, ![n, w3]⟩ : Shape).Idx → α)
    (h : Shape.Concatenates [(⟨2, ![n, w1]⟩ : Shape), (⟨2, ![n, w2]⟩ : Shape), (⟨2, ![n, w3]⟩ : Shape)] (⟨2, ![n, W]⟩ : Shape) 1)
    (e : Fin n) (a : Fin w1) (q : Fin W) (hq : q.val = a.val) :
    concatenate (⟨2, ![n, W]⟩ : Shape) 1
      [⟨(⟨2, ![n, w1]⟩ : Shape), A⟩, ⟨(⟨2, ![n, w2]⟩ : Shape), B⟩, ⟨(⟨2, ![n, w3]⟩ : Shape), C⟩] h (ix2 e q) = A (ix2 e a) :=
  concatenate_apply_piece 1 [⟨(⟨2, ![n, w1]⟩ : Shape), A⟩, ⟨(⟨2, ![n, w2]⟩ : Shape), B⟩, ⟨(⟨2, ![n, w3]⟩ : Shape), C⟩] h (ix2 e q) 0 (by simp) _ A rfl rfl 0 rfl (ix2 e a)
    (fun b hb => match b with | ⟨0, _⟩ => rfl | ⟨1, _⟩ => absurd rfl hb)
    (by show 0 + a.val = q.val; omega)

/-- Three matrices side by side, at a column of the second. -/
theorem triple_mid {n w1 w2 w3 W : ℕ} (A : (⟨2, ![n, w1]⟩ : Shape).Idx → α) (B : (⟨2, ![n, w2]⟩ : Shape).Idx → α)
    (C : (⟨2, ![n, w3]⟩ : Shape).Idx → α)
    (h : Shape.Concatenates [(⟨2, ![n, w1]⟩ : Shape), (⟨2, ![n, w2]⟩ : Shape), (⟨2, ![n, w3]⟩ : Shape)] (⟨2, ![n, W]⟩ : Shape) 1)
    (e : Fin n) (a : Fin w2) (q : Fin W) (hq : q.val = w1 + a.val) :
    concatenate (⟨2, ![n, W]⟩ : Shape) 1
      [⟨(⟨2, ![n, w1]⟩ : Shape), A⟩, ⟨(⟨2, ![n, w2]⟩ : Shape), B⟩, ⟨(⟨2, ![n, w3]⟩ : Shape), C⟩] h (ix2 e q) = B (ix2 e a) :=
  concatenate_apply_piece 1 [⟨(⟨2, ![n, w1]⟩ : Shape), A⟩, ⟨(⟨2, ![n, w2]⟩ : Shape), B⟩, ⟨(⟨2, ![n, w3]⟩ : Shape), C⟩] h (ix2 e q) 1 (by simp) _ B rfl rfl w1 (by simp) (ix2 e a)
    (fun b hb => match b with | ⟨0, _⟩ => rfl | ⟨1, _⟩ => absurd rfl hb)
    (by show w1 + a.val = q.val; omega)

/-- Three matrices side by side, at a column of the third. -/
theorem triple_right {n w1 w2 w3 W : ℕ} (A : (⟨2, ![n, w1]⟩ : Shape).Idx → α) (B : (⟨2, ![n, w2]⟩ : Shape).Idx → α)
    (C : (⟨2, ![n, w3]⟩ : Shape).Idx → α)
    (h : Shape.Concatenates [(⟨2, ![n, w1]⟩ : Shape), (⟨2, ![n, w2]⟩ : Shape), (⟨2, ![n, w3]⟩ : Shape)] (⟨2, ![n, W]⟩ : Shape) 1)
    (e : Fin n) (a : Fin w3) (q : Fin W) (hq : q.val = w1 + w2 + a.val) :
    concatenate (⟨2, ![n, W]⟩ : Shape) 1
      [⟨(⟨2, ![n, w1]⟩ : Shape), A⟩, ⟨(⟨2, ![n, w2]⟩ : Shape), B⟩, ⟨(⟨2, ![n, w3]⟩ : Shape), C⟩] h (ix2 e q) = C (ix2 e a) :=
  concatenate_apply_piece 1 [⟨(⟨2, ![n, w1]⟩ : Shape), A⟩, ⟨(⟨2, ![n, w2]⟩ : Shape), B⟩, ⟨(⟨2, ![n, w3]⟩ : Shape), C⟩] h (ix2 e q) 2 (by simp) _ C rfl rfl (w1 + w2) (by simp) (ix2 e a)
    (fun b hb => match b with | ⟨0, _⟩ => rfl | ⟨1, _⟩ => absurd rfl hb)
    (by show w1 + w2 + a.val = q.val; omega)

end Idealize.ShloMosaic.JoinCols

end
-- ==== Proof.EventPostArrays.lean ====
/-
  The event nodes' post-processing, read off the third tiled region one array at a time.

  A block of 10000 event nodes enters with three row-tiled inputs — the nodes' own encodings h, their summed
  messages s and the message counts cnt (a column) — and eight small arrays held whole: the normalisation's scale
  and shift, the two gate layers and the prediction head. For a row the body computes the neighbour average
  s / max(cnt, 1), normalises it (subtract the row mean, scale by (variance + ε)^(-1/2), then by the scale, add the
  shift), computes the gate α = logistic of a two-layer perceptron of h, and mixes: α · h + (1 − α) · normalised.
  It writes the mix, and a packed slab whose column 0 is the head's dense layer of the rectified mix, column 1 is
  α, and whose other 126 columns are zero.

  Every entry (y, j) of what the body leaves depends on row y of the three tiled inputs only, and the block of
  point t of each tiled array holds rows t · 10000 … t · 10000 + 9999 of that array, columns unchanged. So block t
  of each output is the same rows of one function of the whole input arrays: row r of the mix is the mixed row of
  node r, and the 20 blocks cover the 200000 rows.

  First part: the body's values at an entry of a block, over any block contents. Second part: the blocks' places
  in the arrays, what each point writes back, and the two output arrays after the region.
-/
import proofs.«181421_j6158983102955_2_alg».proof.Proof.Gen.KernelIdeal.Frame
import proofs.«181421_j6158983102955_2_alg».proof.Proof.NodeSpec
import proofs.«181421_j6158983102955_2_alg».proof.Proof.LibContract
import proofs.«181421_j6158983102955_2_alg».proof.Proof.LibColumn
import proofs.«181421_j6158983102955_2_alg».proof.Proof.LibRowSum
import proofs.«181421_j6158983102955_2_alg».proof.Proof.LibJoinCols
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.EventPostArrays

open Cert.KernelIdeal Cert.KernelIdeal.Gen Idealize.ShloMosaic Idealize.ShloMosaic.ValueIdx

/-! ## Vector operations read at an entry -/

/-- The reciprocal square root acts entry by entry. -/
theorem rsqrt_at {s : Shape} (x : FVec Ideal s .f32) (i : s.Idx) : rsqrt x i = Ideal.rsqrt (x i) := rfl

/-- The logistic function acts entry by entry. -/
theorem logistic_at {s : Shape} (x : FVec Ideal s .f32) (i : s.Idx) : logistic x i = Ideal.logistic (x i) := rfl

/-- A [1, b] row, cast to its own shape and spread over a rows, reads at (p, c) the row's entry c. -/
theorem rowSpread_apply {α : Type} {a b : ℕ} (v : (⟨2, ![1, b]⟩ : Shape).Idx → α)
    (hc : (⟨2, ![1, b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ v hc) hb (ix2 p c) = v (ix2 (0 : Fin 1) c) :=
  (broadcastTo_1b_ab_apply _ hb p c).trans (congrFun (shapeCast_self v hc) _)

/-- The sums of the rows of an [n, k] matrix, kept as an [n, 1] column, read at (r, u) the sum of row r. -/
theorem rowSumCol_apply {n k : ℕ} (src : FVec Ideal ⟨2, ![n, k]⟩ .f32)
    (h : (⟨2, ![n, k]⟩ : Shape).Reduces [1] ⟨1, ![n]⟩) (hφ : FKind.Formats .f32)
    (hacc : (0x00000000#32 : BitVec 32) = 0x00000000#32)
    (hc : (⟨1, ![n]⟩ : Shape).ShapeCasts ⟨2, ![n, 1]⟩) (r : Fin n) (u : Fin 1) :
    shapeCast ⟨2, ![n, 1]⟩ (multiReduction (F := Ideal) .add [1] ⟨1, ![n]⟩ src 0x00000000#32 h hφ hacc) hc (ix2 r u)
      = ∑ d : Fin k, src (ix2 r d) :=
  (shapeCast_a_a1_apply _ hc r u).trans (multiReduction_add_rows_apply src h hφ hacc r)

/-- A product of an [n, K] and a [K, N] matrix into the zero accumulator reads at (r, j) the sum over the
    shared coordinate of row r of the left factor against column j of the right one. -/
theorem matmul_rows_apply {n K N : ℕ} {φ₁ φ₂ : FTy}
    (D : DotDims (⟨2, ![n, K]⟩ : Shape) (⟨2, ![K, N]⟩ : Shape) (⟨2, ![n, N]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (prec : Option ContractPrecision)
    (x : FVec Ideal (⟨2, ![n, K]⟩ : Shape) φ₁) (w : FVec Ideal (⟨2, ![K, N]⟩ : Shape) φ₂) (r : Fin n) (j : Fin N) :
    matmul D prec x w (constant (F := Ideal) (⟨2, ![n, N]⟩ : Shape) .f32 0x00000000#32) (ix2 r j)
      = ∑ k : Fin K, x (ix2 r k) * w (ix2 k j) :=
  (Ideal.matmul_constant_zero_apply D prec x w (ix2 r j)).trans
    (Contract2.sum_contr_eq_sum_fin D hr hs hlc hrc hl0 hr1 x w (ix2 r j))

/-! ## The body's values at an entry of a block of 10000 rows -/

/-- The node's own encoding enters unchanged. -/
theorem own_eq (x0 : FVec Ideal S10000x128 .f32) : k2_pay4 (F := Ideal) x0 = x0 := by
  unfold k2_pay4
  exact shapeCast_self _ _

/-- The gate's hidden layer before its bias: row y of the encoding against column k of the first gate matrix. -/
theorem gateHidden_apply (x0 : FVec Ideal S10000x128 .f32) (x5 : FVec Ideal S128x32 .f32) (y : Fin 10000) (k : Fin 32) :
    k2_pay6 (F := Ideal) x0 x5 (ix2 y k) = ∑ a : Fin 128, x0 (ix2 y a) * x5 (ix2 a k) := by
  unfold k2_pay6
  refine (matmul_rows_apply dot_S10000x128_S128x32_S10000x32_1_0_0_1_n_n rfl rfl rfl rfl (fun _ _ => rfl) (fun _ _ => rfl)
    none (k2_pay4 x0) x5 y k).trans ?_
  rw [own_eq]

/-- The normalised neighbour average of row y. -/
theorem normRow_apply (x1 : FVec Ideal S10000x128 .f32) (x2 : FVec Ideal S10000x1 .f32) (x3 x4 : FVec Ideal S1x128 .f32)
    (y : Fin 10000) (j : Fin 128) :
    k2_pay5 (F := Ideal) x1 x2 x3 x4 (ix2 y j)
      = NodeSpec.lnorm (fun j => x3 (ix2 0 j)) (fun j => x4 (ix2 0 j)) (NodeSpec.avg (fun k => x1 (ix2 y k)) (x2 (ix2 y 0))) j := by
  unfold k2_pay5
  simp only [addf_apply, mulf_apply, subf_apply, divf_apply, maximumf_apply, broadcast_apply, rsqrt_at,
    broadcastTo_1b_ab_apply, broadcastTo_a1_ab_apply, shapeCast_self]
  rw [rowSumCol_apply]
  simp only [addf_apply, mulf_apply, subf_apply, divf_apply, maximumf_apply, broadcast_apply,
    broadcastTo_a1_ab_apply, shapeCast_self]
  rw [rowSumCol_apply]
  simp only [addf_apply, mulf_apply, subf_apply, divf_apply, maximumf_apply, broadcast_apply,
    broadcastTo_a1_ab_apply, shapeCast_self]
  rw [rowSumCol_apply]
  simp only [addf_apply, mulf_apply, subf_apply, divf_apply, maximumf_apply, broadcast_apply,
    broadcastTo_a1_ab_apply, shapeCast_self]
  rfl

/-- The gate of row y: the logistic function of the second gate layer of the rectified first one. -/
theorem gate_apply (x0 : FVec Ideal S10000x128 .f32) (x5 : FVec Ideal S128x32 .f32) (x6 : FVec Ideal S1x32 .f32)
    (x7 : FVec Ideal S32x1 .f32) (x8 : FVec Ideal S1x1 .f32) (y : Fin 10000) (u : Fin 1) :
    k2_pay1 (F := Ideal) (k2_pay6 x0 x5) x6 x7 x8 (ix2 y u)
      = NodeSpec.gate (fun k j => x5 (ix2 k j)) (fun j => x6 (ix2 0 j)) (fun k j => x7 (ix2 k j)) (fun j => x8 (ix2 0 j))
          (fun k => x0 (ix2 y k)) := by
  obtain rfl : u = 0 := Subsingleton.elim _ _
  unfold k2_pay1
  simp only [logistic_at, addf_apply, broadcastTo_1b_ab_apply, shapeCast_self]
  rw [matmul_rows_apply dot_S10000x32_S32x1_S10000x1_1_0_0_1_n_n rfl rfl rfl rfl (fun _ _ => rfl) (fun _ _ => rfl)]
  simp only [addf_apply, maximumf_apply, broadcast_apply, broadcastTo_1b_ab_apply, shapeCast_self, gateHidden_apply]
  rfl

/-- The gated mix of row y. -/
theorem mix_apply (x0 x1 : FVec Ideal S10000x128 .f32) (x2 : FVec Ideal S10000x1 .f32) (x3 x4 : FVec Ideal S1x128 .f32)
    (x5 : FVec Ideal S128x32 .f32) (x6 : FVec Ideal S1x32 .f32) (x7 : FVec Ideal S32x1 .f32) (x8 : FVec Ideal S1x1 .f32)
    (y : Fin 10000) (j : Fin 128) :
    k2_pay2 (F := Ideal) (k2_pay4 x0) (k2_pay5 x1 x2 x3 x4) (k2_pay6 x0 x5) x6 x7 x8 (ix2 y j)
      = NodeSpec.eventMix (fun j => x3 (ix2 0 j)) (fun j => x4 (ix2 0 j)) (fun k j => x5 (ix2 k j)) (fun j => x6 (ix2 0 j))
          (fun k j => x7 (ix2 k j)) (fun j => x8 (ix2 0 j)) (fun k => x0 (ix2 y k)) (fun k => x1 (ix2 y k)) (x2 (ix2 y 0)) j := by
  unfold k2_pay2
  simp only [addf_apply, mulf_apply, subf_apply, broadcast_apply, broadcastTo_a1_ab_apply, gate_apply, normRow_apply, own_eq]
  rfl

/-- Column 0 of the packed slab holds the prediction head of the mixed row. -/
theorem slab_head_apply (x0 x1 : FVec Ideal S10000x128 .f32) (x2 : FVec Ideal S10000x1 .f32) (x3 x4 : FVec Ideal S1x128 .f32)
    (x5 : FVec Ideal S128x32 .f32) (x6 : FVec Ideal S1x32 .f32) (x7 : FVec Ideal S32x1 .f32) (x8 : FVec Ideal S1x1 .f32)
    (x9 : FVec Ideal S128x1 .f32) (x10 : FVec Ideal S1x1 .f32) (y : Fin 10000) :
    k2_pay3 (F := Ideal) (k2_pay4 x0) (k2_pay5 x1 x2 x3 x4) (k2_pay6 x0 x5) x6 x7 x8 x9 x10 (ix2 y (0 : Fin 128))
      = NodeSpec.head (fun k j => x9 (ix2 k j)) (fun j => x10 (ix2 0 j))
          (NodeSpec.eventMix (fun j => x3 (ix2 0 j)) (fun j => x4 (ix2 0 j)) (fun k j => x5 (ix2 k j)) (fun j => x6 (ix2 0 j))
            (fun k j => x7 (ix2 k j)) (fun j => x8 (ix2 0 j)) (fun k => x0 (ix2 y k)) (fun k => x1 (ix2 y k)) (x2 (ix2 y 0))) := by
  unfold k2_pay3
  refine (JoinCols.triple_left _ _ _ concatenates_S10000x1_S10000x1_S10000x126_S10000x128_d1 y (0 : Fin 1) (0 : Fin 128) rfl).trans ?_
  simp only [addf_apply, broadcastTo_1b_ab_apply, shapeCast_self]
  rw [matmul_rows_apply dot_S10000x128_S128x1_S10000x1_1_0_0_1_n_n rfl rfl rfl rfl (fun _ _ => rfl) (fun _ _ => rfl)]
  simp only [maximumf_apply, broadcast_apply, mix_apply]
  rfl

/-- Column 1 of the packed slab holds the gate. -/
theorem slab_gate_apply (x0 x1 : FVec Ideal S10000x128 .f32) (x2 : FVec Ideal S10000x1 .f32) (x3 x4 : FVec Ideal S1x128 .f32)
    (x5 : FVec Ideal S128x32 .f32) (x6 : FVec Ideal S1x32 .f32) (x7 : FVec Ideal S32x1 .f32) (x8 : FVec Ideal S1x1 .f32)
    (x9 : FVec Ideal S128x1 .f32) (x10 : FVec Ideal S1x1 .f32) (y : Fin 10000) :
    k2_pay3 (F := Ideal) (k2_pay4 x0) (k2_pay5 x1 x2 x3 x4) (k2_pay6 x0 x5) x6 x7 x8 x9 x10 (ix2 y (1 : Fin 128))
      = NodeSpec.gate (fun k j => x5 (ix2 k j)) (fun j => x6 (ix2 0 j)) (fun k j => x7 (ix2 k j)) (fun j => x8 (ix2 0 j))
          (fun k => x0 (ix2 y k)) := by
  unfold k2_pay3
  refine (JoinCols.triple_mid _ _ _ concatenates_S10000x1_S10000x1_S10000x126_S10000x128_d1 y (0 : Fin 1) (1 : Fin 128) rfl).trans ?_
  exact gate_apply x0 x5 x6 x7 x8 y 0

/-- Columns 2 to 127 of the packed slab hold zero. -/
theorem slab_rest_apply (x0 x1 : FVec Ideal S10000x128 .f32) (x2 : FVec Ideal S10000x1 .f32) (x3 x4 : FVec Ideal S1x128 .f32)
    (x5 : FVec Ideal S128x32 .f32) (x6 : FVec Ideal S1x32 .f32) (x7 : FVec Ideal S32x1 .f32) (x8 : FVec Ideal S1x1 .f32)
    (x9 : FVec Ideal S128x1 .f32) (x10 : FVec Ideal S1x1 .f32) (y : Fin 10000) (q : Fin 128) (hq : 2 ≤ q.val) :
    k2_pay3 (F := Ideal) (k2_pay4 x0) (k2_pay5 x1 x2 x3 x4) (k2_pay6 x0 x5) x6 x7 x8 x9 x10 (ix2 y q) = NodeSpec.zero := by
  unfold k2_pay3
  have hq' : q.val - 2 < 126 := by have := q.isLt; omega
  refine (JoinCols.triple_right _ _ _ concatenates_S10000x1_S10000x1_S10000x126_S10000x128_d1 y (⟨q.val - 2, hq'⟩ : Fin 126) q
    (by show q.val = 1 + 1 + (q.val - 2); omega)).trans ?_
  rfl

/-- The packed slab of row y, column by column. -/
theorem slab_apply (x0 x1 : FVec Ideal S10000x128 .f32) (x2 : FVec Ideal S10000x1 .f32) (x3 x4 : FVec Ideal S1x128 .f32)
    (x5 : FVec Ideal S128x32 .f32) (x6 : FVec Ideal S1x32 .f32) (x7 : FVec Ideal S32x1 .f32) (x8 : FVec Ideal S1x1 .f32)
    (x9 : FVec Ideal S128x1 .f32) (x10 : FVec Ideal S1x1 .f32) (y : Fin 10000) (q : Fin 128) :
    k2_pay3 (F := Ideal) (k2_pay4 x0) (k2_pay5 x1 x2 x3 x4) (k2_pay6 x0 x5) x6 x7 x8 x9 x10 (ix2 y q)
      = if q.val = 0 then
          NodeSpec.head (fun k j => x9 (ix2 k j)) (fun j => x10 (ix2 0 j))
            (NodeSpec.eventMix (fun j => x3 (ix2 0 j)) (fun j => x4 (ix2 0 j)) (fun k j => x5 (ix2 k j)) (fun j => x6 (ix2 0 j))
              (fun k j => x7 (ix2 k j)) (fun j => x8 (ix2 0 j)) (fun k => x0 (ix2 y k)) (fun k => x1 (ix2 y k)) (x2 (ix2 y 0)))
        else if q.val = 1 then
          NodeSpec.gate (fun k j => x5 (ix2 k j)) (fun j => x6 (ix2 0 j)) (fun k j => x7 (ix2 k j)) (fun j => x8 (ix2 0 j))
            (fun k => x0 (ix2 y k))
        else NodeSpec.zero := by
  by_cases h0 : q.val = 0
  · rw [if_pos h0]
    obtain rfl : q = 0 := Fin.ext h0
    exact slab_head_apply x0 x1 x2 x3 x4 x5 x6 x7 x8 x9 x10 y
  · rw [if_neg h0]
    by_cases h1 : q.val = 1
    · rw [if_pos h1]
      obtain rfl : q = 1 := Fin.ext h1
      exact slab_gate_apply x0 x1 x2 x3 x4 x5 x6 x7 x8 x9 x10 y
    · rw [if_neg h1]
      exact slab_rest_apply x0 x1 x2 x3 x4 x5 x6 x7 x8 x9 x10 y q (by omega)

end Cert.KernelIdeal.EventPostArrays

namespace Cert.KernelIdeal.EventPostArrays

open Cert.KernelIdeal Cert.KernelIdeal.Gen Idealize.ShloMosaic Idealize.ShloMosaic.ValueIdx Idealize.ShloMosaic.TcCoe Idealize.SL.Sem

variable (V : (c : Dev nD) → (b : Ref sig .tc) → Buf (Elt Ideal) ((c : Thread nD τ).loc b))

/-- The mixed row of event node r, from the region's input arrays. -/
def mixRow (c : Dev nD) (r : Fin 200000) (j : Fin 128) : EReal :=
  NodeSpec.eventMix (fun j => V c main_v63 (ix2 0 j)) (fun j => V c main_v64 (ix2 0 j))
    (fun k j => V c main_arg29 (ix2 k j)) (fun j => V c main_v65 (ix2 0 j))
    (fun k j => V c main_arg31 (ix2 k j)) (fun j => V c main_v66 (ix2 0 j))
    (fun k => V c main_v3_0 (ix2 r k)) (fun k => V c main_v21 (ix2 r k)) (V c main_v26 (ix2 r 0)) j

/-! ## From the blocks to the arrays -/

/-- The zero offsets of a store or a load of a whole block. -/
theorem zeros2 : (![0, 0] : Fin 2 → Nat) = fun _ => 0 := funext fun a => by fin_cases a <;> rfl

/-- The grid has 20 points. -/
theorem point_lt (t : Fin cfg2.N) : t.val < 20 := lt_of_lt_of_eq t.isLt N_2

/-- Row y of the block of point t is row t · 10000 + y of the array. -/
def rowOf (t : Fin cfg2.N) (y : Fin 10000) : Fin 200000 :=
  ⟨t.val * 10000 + y.val, by have h := point_lt t; have := y.isLt; omega⟩

/-- The index maps over the grid: a row-tiled window's block index is (t, 0), a weight's or a bias's (0, 0). -/
theorem block_index : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = 0 ∧ win2_9.index t (1 : Fin 2) = 0)
    ∧ (win2_10.index t (0 : Fin 2) = 0 ∧ win2_10.index t (1 : Fin 2) = 0)
    ∧ (win2_11.index t (0 : Fin 2) = t.val ∧ win2_11.index t (1 : Fin 2) = 0)
    ∧ (win2_12.index t (0 : Fin 2) = t.val ∧ win2_12.index t (1 : Fin 2) = 0) :=
  (by decide +kernel : ∀ t : Fin grid2.N, _)

/-- Entry (y, q) of the mix's block of point t sits at (t · 10000 + y, q) of the array. -/
theorem mix_emb (t : Fin cfg2.N) (y : Fin 10000) (q : Fin 128) :
    ((cfg2.win 12).blk t).view.emb (ix2 y q) = ix2 (rowOf t y) q := by
  obtain ⟨-, -, -, -, -, -, -, -, -, -, -, -, e0, e1⟩ := block_index t
  funext a; apply Fin.ext
  match a with
  | ⟨0, _⟩ => show win2_12.index t (0 : Fin 2) * 10000 + 1 * y.val = t.val * 10000 + y.val; omega
  | ⟨1, _⟩ => show win2_12.index t (1 : Fin 2) * 128 + 1 * q.val = q.val; omega

/-- The encoding's block of point t holds rows t · 10000 … of the array. -/
theorem own_block (c : Dev nD) (t : Fin cfg2.N) (y : Fin 10000) (k : Fin 128) :
    iblk2 V c 0 t (ix2 y k) = V c main_v3_0 (ix2 (rowOf t y) k) := by
  obtain ⟨⟨e0, e1⟩, -⟩ := block_index t
  show V c main_v3_0 (((cfg2.win 0).blk t).view.emb (ix2 y k)) = _
  refine congrArg (V c main_v3_0) (funext fun a => Fin.ext ?_)
  match a with
  | ⟨0, _⟩ => show win2_0.index t (0 : Fin 2) * 10000 + 1 * y.val = t.val * 10000 + y.val; omega
  | ⟨1, _⟩ => show win2_0.index t (1 : Fin 2) * 128 + 1 * k.val = k.val; omega

/-- The summed messages' block of point t holds rows t · 10000 … of the array. -/
theorem sum_block (c : Dev nD) (t : Fin cfg2.N) (y : Fin 10000) (k : Fin 128) :
    iblk2 V c 1 t (ix2 y k) = V c main_v21 (ix2 (rowOf t y) k) := by
  obtain ⟨-, ⟨e0, e1⟩, -⟩ := block_index t
  show V c main_v21 (((cfg2.win 1).blk t).view.emb (ix2 y k)) = _
  refine congrArg (V c main_v21) (funext fun a => Fin.ext ?_)
  match a with
  | ⟨0, _⟩ => show win2_1.index t (0 : Fin 2) * 10000 + 1 * y.val = t.val * 10000 + y.val; omega
  | ⟨1, _⟩ => show win2_1.index t (1 : Fin 2) * 128 + 1 * k.val = k.val; omega

/-- The counts' block of point t holds rows t · 10000 … of the column. -/
theorem count_block (c : Dev nD) (t : Fin cfg2.N) (y : Fin 10000) (u : Fin 1) :
    iblk2 V c 2 t (ix2 y u) = V c main_v26 (ix2 (rowOf t y) u) := by
  obtain ⟨-, -, ⟨e0, e1⟩, -⟩ := block_index t
  show V c main_v26 (((cfg2.win 2).blk t).view.emb (ix2 y u)) = _
  refine congrArg (V c main_v26) (funext fun a => Fin.ext ?_)
  match a with
  | ⟨0, _⟩ => show win2_2.index t (0 : Fin 2) * 10000 + 1 * y.val = t.val * 10000 + y.val; omega
  | ⟨1, _⟩ => show win2_2.index t (1 : Fin 2) * 1 + 1 * u.val = u.val; omega

/-- A weight's or a bias's block is the whole array at every point: the normalisation's scale, … -/
theorem scale_block (c : Dev nD) (t : Fin cfg2.N) (u : Fin 1) (j : Fin 128) :
    iblk2 V c 3 t (ix2 u j) = V c main_v63 (ix2 u j) := by
  obtain ⟨-, -, -, ⟨e0, e1⟩, -⟩ := block_index t
  show V c main_v63 (((cfg2.win 3).blk t).view.emb (ix2 u j)) = _
  refine congrArg (V c main_v63) (funext fun a => Fin.ext ?_)
  match a with
  | ⟨0, _⟩ => show win2_3.index t (0 : Fin 2) * 1 + 1 * u.val = u.val; omega
  | ⟨1, _⟩ => show win2_3.index t (1 : Fin 2) * 128 + 1 * j.val = j.val; omega

/-- … its shift, … -/
theorem shift_block (c : Dev nD) (t : Fin cfg2.N) (u : Fin 1) (j : Fin 128) :
    iblk2 V c 4 t (ix2 u j) = V c main_v64 (ix2 u j) := by
  obtain ⟨-, -, -, -, ⟨e0, e1⟩, -⟩ := block_index t
  show V c main_v64 (((cfg2.win 4).blk t).view.emb (ix2 u j)) = _
  refine congrArg (V c main_v64) (funext fun a => Fin.ext ?_)
  match a with
  | ⟨0, _⟩ => show win2_4.index t (0 : Fin 2) * 1 + 1 * u.val = u.val; omega
  | ⟨1, _⟩ => show win2_4.index t (1 : Fin 2) * 128 + 1 * j.val = j.val; omega

/-- … the gate's first matrix, … -/
theorem gateW1_block (c : Dev nD) (t : Fin cfg2.N) (k : Fin 128) (j : Fin 32) :
    iblk2 V c 5 t (ix2 k j) = V c main_arg29 (ix2 k j) := by
  obtain ⟨-, -, -, -, -, ⟨e0, e1⟩, -⟩ := block_index t
  show V c main_arg29 (((cfg2.win 5).blk t).view.emb (ix2 k j)) = _
  refine congrArg (V c main_arg29) (funext fun a => Fin.ext ?_)
  match a with
  | ⟨0, _⟩ => show win2_5.index t (0 : Fin 2) * 128 + 1 * k.val = k.val; omega
  | ⟨1, _⟩ => show win2_5.index t (1 : Fin 2) * 32 + 1 * j.val = j.val; omega

/-- … its first bias, … -/
theorem gateB1_block (c : Dev nD) (t : Fin cfg2.N) (u : Fin 1) (j : Fin 32) :
    iblk2 V c 6 t (ix2 u j) = V c main_v65 (ix2 u j) := by
  obtain ⟨-, -, -, -, -, -, ⟨e0, e1⟩, -⟩ := block_index t
  show V c main_v65 (((cfg2.win 6).blk t).view.emb (ix2 u j)) = _
  refine congrArg (V c main_v65) (funext fun a => Fin.ext ?_)
  match a with
  | ⟨0, _⟩ => show win2_6.index t (0 : Fin 2) * 1 + 1 * u.val = u.val; omega
  | ⟨1, _⟩ => show win2_6.index t (1 : Fin 2) * 32 + 1 * j.val = j.val; omega

/-- … its second matrix, … -/
theorem gateW2_block (c : Dev nD) (t : Fin cfg2.N) (k : Fin 32) (j : Fin 1) :
    iblk2 V c 7 t (ix2 k j) = V c main_arg31 (ix2 k j) := by
  obtain ⟨-, -, -, -, -, -, -, ⟨e0, e1⟩, -⟩ := block_index t
  show V c main_arg31 (((cfg2.win 7).blk t).view.emb (ix2 k j)) = _
  refine congrArg (V c main_arg31) (funext fun a => Fin.ext ?_)
  match a with
  | ⟨0, _⟩ => show win2_7.index t (0 : Fin 2) * 32 + 1 * k.val = k.val; omega
  | ⟨1, _⟩ => show win2_7.index t (1 : Fin 2) * 1 + 1 * j.val = j.val; omega

/-- … its second bias, … -/
theorem gateB2_block (c : Dev nD) (t : Fin cfg2.N) (u : Fin 1) (j : Fin 1) :
    iblk2 V c 8 t (ix2 u j) = V c main_v66 (ix2 u j) := by
  obtain ⟨-, -, -, -, -, -, -, -, ⟨e0, e1⟩, -⟩ := block_index t
  show V c main_v66 (((cfg2.win 8).blk t).view.emb (ix2 u j)) = _
  refine congrArg (V c main_v66) (funext fun a => Fin.ext ?_)
  match a with
  | ⟨0, _⟩ => show win2_8.index t (0 : Fin 2) * 1 + 1 * u.val = u.val; omega
  | ⟨1, _⟩ => show win2_8.index t (1 : Fin 2) * 1 + 1 * j.val = j.val; omega

/-- … the head's matrix … -/
theorem headW_block (c : Dev nD) (t : Fin cfg2.N) (k : Fin 128) (j : Fin 1) :
    iblk2 V c 9 t (ix2 k j) = V c main_arg33 (ix2 k j) := by
  obtain ⟨-, -, -, -, -, -, -, -, -, ⟨e0, e1⟩, -⟩ := block_index t
  show V c main_arg33 (((cfg2.win 9).blk t).view.emb (ix2 k j)) = _
  refine congrArg (V c main_arg33) (funext fun a => Fin.ext ?_)
  match a with
  | ⟨0, _⟩ => show win2_9.index t (0 : Fin 2) * 128 + 1 * k.val = k.val; omega
  | ⟨1, _⟩ => show win2_9.index t (1 : Fin 2) * 1 + 1 * j.val = j.val; omega

/-- … and the head's bias. -/
theorem headB_block (c : Dev nD) (t : Fin cfg2.N) (u : Fin 1) (j : Fin 1) :
    iblk2 V c 10 t (ix2 u j) = V c main_v67 (ix2 u j) := by
  obtain ⟨-, -, -, -, -, -, -, -, -, -, ⟨e0, e1⟩, -⟩ := block_index t
  show V c main_v67 (((cfg2.win 10).blk t).view.emb (ix2 u j)) = _
  refine congrArg (V c main_v67) (funext fun a => Fin.ext ?_)
  match a with
  | ⟨0, _⟩ => show win2_10.index t (0 : Fin 2) * 1 + 1 * u.val = u.val; omega
  | ⟨1, _⟩ => show win2_10.index t (1 : Fin 2) * 1 + 1 * j.val = j.val; omega

/-- The mixed row of row y of point t's blocks is the mixed row of node t · 10000 + y. -/
theorem mixRow_block (c : Dev nD) (t : Fin cfg2.N) (y : Fin 10000) :
    NodeSpec.eventMix (fun j => iblk2 V c 3 t (ix2 0 j)) (fun j => iblk2 V c 4 t (ix2 0 j))
        (fun k j => iblk2 V c 5 t (ix2 k j)) (fun j => iblk2 V c 6 t (ix2 0 j))
        (fun k j => iblk2 V c 7 t (ix2 k j)) (fun j => iblk2 V c 8 t (ix2 0 j))
        (fun k => iblk2 V c 0 t (ix2 y k)) (fun k => iblk2 V c 1 t (ix2 y k)) (iblk2 V c 2 t (ix2 y 0))
      = mixRow V c (rowOf t y) := by
  unfold mixRow
  simp only [own_block V c t y, sum_block V c t y, count_block V c t y, scale_block V c t, shift_block V c t,
    gateW1_block V c t, gateB1_block V c t, gateW2_block V c t, gateB2_block V c t]

/-- What point t writes back to the mix is block t of the mixed rows. -/
theorem mix_flushed (c : Dev nD) (t : Fin cfg2.N) :
    (dat2 (F := Ideal) V c).flushed 12 t
      = ((cfg2.win 12).blk t).view.read (Elt Ideal) (fun i : S200000x128.Idx => mixRow V c (i 0) (i 1)) := by
  show (cfg2.win 12).cut (grid2.coords t) ((dat2 V c).after 12 t) = _
  rw [after2_12]
  unfold out2_12
  rw [View.canon_unit_zero zeros2]
  simp only [View.ld_unit_zero (S := S10000x128) zeros2, View.ld_unit_zero (S := S10000x1) zeros2,
    View.ld_unit_zero (S := S1x128) zeros2, View.ld_unit_zero (S := S128x32) zeros2, View.ld_unit_zero (S := S1x32) zeros2,
    View.ld_unit_zero (S := S32x1) zeros2, View.ld_unit_zero (S := S1x1) zeros2]
  funext j
  obtain ⟨y, q, rfl⟩ : ∃ (y : Fin 10000) (q : Fin 128), j = ix2 y q := ⟨j 0, j 1, eq_ix2 j⟩
  refine (mix_apply (iblk2 V c 0 t) (iblk2 V c 1 t) (iblk2 V c 2 t) (iblk2 V c 3 t) (iblk2 V c 4 t) (iblk2 V c 5 t)
    (iblk2 V c 6 t) (iblk2 V c 7 t) (iblk2 V c 8 t) y q).trans ?_
  refine Eq.trans ?_ (congrArg (fun i : S200000x128.Idx => mixRow V c (i 0) (i 1)) (mix_emb t y q).symm)
  exact congrFun (mixRow_block V c t y) q

/-- An index of the array is in point t's block of the mix iff each coordinate is in the block's range. -/
theorem mix_mem_blk (t : Fin cfg2.N) (i : S200000x128.Idx) :
    i ∈ ((cfg2.win 12).blk t).view.set ↔ ∀ a : Fin 2, win2_12.index t a * S10000x128.size a ≤ (i a).val
      ∧ (i a).val < win2_12.index t a * S10000x128.size a + S10000x128.size a := by
  show i ∈ ((View.whole main_v68_1).slice (win2_12.rect t)).set ↔ _
  rw [View.set_slice_whole, Rect.mem_set_unit]
  exact Iff.rfl

/-- Row r of the mix is written by point r / 10000: every entry is covered. -/
theorem mix_cover (i : S200000x128.Idx) :
    ∃ t : Fin cfg2.N, (cfg2.win 12).flush t = true ∧ i ∈ ((cfg2.win 12).blk t).view.set := by
  have hi0 : (i 0).val < 200000 := (i 0).isLt
  have hi1 : (i 1).val < 128 := (i 1).isLt
  let t : Fin cfg2.N := ⟨(i 0).val / 10000, lt_of_lt_of_eq (by omega) N_2.symm⟩
  have ht : t.val = (i 0).val / 10000 := rfl
  obtain ⟨-, -, -, -, -, -, -, -, -, -, -, -, e0, e1⟩ := block_index t
  refine ⟨t, flush2_12 t, ?_⟩
  rw [mix_mem_blk]
  intro a
  match a with
  | ⟨0, _⟩ => show win2_12.index t (0 : Fin 2) * 10000 ≤ (i 0).val ∧ (i 0).val < win2_12.index t (0 : Fin 2) * 10000 + 10000; omega
  | ⟨1, _⟩ => show win2_12.index t (1 : Fin 2) * 128 ≤ (i 1).val ∧ (i 1).val < win2_12.index t (1 : Fin 2) * 128 + 128; omega

/-- The mix after the region: entry (r, j) is entry j of the mixed row of node r. -/
theorem event_mix (c : Dev nD) :
    (dat2 (F := Ideal) V c).arrAt 12 cfg2.N = fun (i : S200000x128.Idx) => mixRow V c (i 0) (i 1) :=
  (dat2 V c).arrAt_eq_of_cover 12 _ (fun t _ => mix_flushed V c t) mix_cover

/-! ## The packed slab -/

/-- The packed slab: column 0 the prediction head of the mixed row, column 1 the gate, zero beyond. -/
def slab (c : Dev nD) (i : S200000x128.Idx) : EReal :=
  if (i 1).val = 0 then
    NodeSpec.head (fun k j => V c main_arg33 (ix2 k j)) (fun j => V c main_v67 (ix2 0 j)) (mixRow V c (i 0))
  else if (i 1).val = 1 then
    NodeSpec.gate (fun k j => V c main_arg29 (ix2 k j)) (fun j => V c main_v65 (ix2 0 j))
      (fun k j => V c main_arg31 (ix2 k j)) (fun j => V c main_v66 (ix2 0 j)) (fun k => V c main_v3_0 (ix2 (i 0) k))
  else NodeSpec.zero

/-- The slab at row r, column q. -/
theorem slab_at (c : Dev nD) (r : Fin 200000) (q : Fin 128) :
    slab V c (ix2 r q) =
      if q.val = 0 then
        NodeSpec.head (fun k j => V c main_arg33 (ix2 k j)) (fun j => V c main_v67 (ix2 0 j)) (mixRow V c r)
      else if q.val = 1 then
        NodeSpec.gate (fun k j => V c main_arg29 (ix2 k j)) (fun j => V c main_v65 (ix2 0 j))
          (fun k j => V c main_arg31 (ix2 k j)) (fun j => V c main_v66 (ix2 0 j)) (fun k => V c main_v3_0 (ix2 r k))
      else NodeSpec.zero := rfl

/-- Entry (y, q) of the slab's block of point t sits at (t · 10000 + y, q) of the array. -/
theorem slab_emb (t : Fin cfg2.N) (y : Fin 10000) (q : Fin 128) :
    ((cfg2.win 11).blk t).view.emb (ix2 y q) = ix2 (rowOf t y) q := by
  obtain ⟨-, -, -, -, -, -, -, -, -, -, -, ⟨e0, e1⟩, -⟩ := block_index t
  funext a; apply Fin.ext
  match a with
  | ⟨0, _⟩ => show win2_11.index t (0 : Fin 2) * 10000 + 1 * y.val = t.val * 10000 + y.val; omega
  | ⟨1, _⟩ => show win2_11.index t (1 : Fin 2) * 128 + 1 * q.val = q.val; omega

/-- What point t writes back to the slab is block t of the slab. -/
theorem slab_flushed (c : Dev nD) (t : Fin cfg2.N) :
    (dat2 (F := Ideal) V c).flushed 11 t = ((cfg2.win 11).blk t).view.read (Elt Ideal) (slab V c) := by
  show (cfg2.win 11).cut (grid2.coords t) ((dat2 V c).after 11 t) = _
  rw [after2_11]
  unfold out2_11
  rw [View.canon_unit_zero zeros2]
  simp only [View.ld_unit_zero (S := S10000x128) zeros2, View.ld_unit_zero (S := S10000x1) zeros2,
    View.ld_unit_zero (S := S1x128) zeros2, View.ld_unit_zero (S := S128x32) zeros2, View.ld_unit_zero (S := S1x32) zeros2,
    View.ld_unit_zero (S := S32x1) zeros2, View.ld_unit_zero (S := S1x1) zeros2, View.ld_unit_zero (S := S128x1) zeros2]
  funext j
  obtain ⟨y, q, rfl⟩ : ∃ (y : Fin 10000) (q : Fin 128), j = ix2 y q := ⟨j 0, j 1, eq_ix2 j⟩
  refine (slab_apply (iblk2 V c 0 t) (iblk2 V c 1 t) (iblk2 V c 2 t) (iblk2 V c 3 t) (iblk2 V c 4 t) (iblk2 V c 5 t)
    (iblk2 V c 6 t) (iblk2 V c 7 t) (iblk2 V c 8 t) (iblk2 V c 9 t) (iblk2 V c 10 t) y q).trans ?_
  refine Eq.trans ?_ (congrArg (slab V c) (slab_emb t y q).symm)
  refine Eq.trans ?_ (slab_at V c (rowOf t y) q).symm
  simp only [mixRow_block V c t y]
  simp only [own_block V c t y, gateW1_block V c t, gateB1_block V c t, gateW2_block V c t,
    gateB2_block V c t, headW_block V c t, headB_block V c t]

/-- An index of the array is in point t's block of the slab iff each coordinate is in the block's range. -/
theorem slab_mem_blk (t : Fin cfg2.N) (i : S200000x128.Idx) :
    i ∈ ((cfg2.win 11).blk t).view.set ↔ ∀ a : Fin 2, win2_11.index t a * S10000x128.size a ≤ (i a).val
      ∧ (i a).val < win2_11.index t a * S10000x128.size a + S10000x128.size a := by
  show i ∈ ((View.whole main_v68_0).slice (win2_11.rect t)).set ↔ _
  rw [View.set_slice_whole, Rect.mem_set_unit]
  exact Iff.rfl

/-- Row r of the slab is written by point r / 10000: every entry is covered. -/
theorem slab_cover (i : S200000x128.Idx) :
    ∃ t : Fin cfg2.N, (cfg2.win 11).flush t = true ∧ i ∈ ((cfg2.win 11).blk t).view.set := by
  have hi0 : (i 0).val < 200000 := (i 0).isLt
  have hi1 : (i 1).val < 128 := (i 1).isLt
  let t : Fin cfg2.N := ⟨(i 0).val / 10000, lt_of_lt_of_eq (by omega) N_2.symm⟩
  have ht : t.val = (i 0).val / 10000 := rfl
  obtain ⟨-, -, -, -, -, -, -, -, -, -, -, ⟨e0, e1⟩, -⟩ := block_index t
  refine ⟨t, flush2_11 t, ?_⟩
  rw [slab_mem_blk]
  intro a
  match a with
  | ⟨0, _⟩ => show win2_11.index t (0 : Fin 2) * 10000 ≤ (i 0).val ∧ (i 0).val < win2_11.index t (0 : Fin 2) * 10000 + 10000; omega
  | ⟨1, _⟩ => show win2_11.index t (1 : Fin 2) * 128 ≤ (i 1).val ∧ (i 1).val < win2_11.index t (1 : Fin 2) * 128 + 128; omega

/-- The slab after the region. -/
theorem slab_array (c : Dev nD) : (dat2 (F := Ideal) V c).arrAt 11 cfg2.N = slab V c :=
  (dat2 V c).arrAt_eq_of_cover 11 _ (fun t _ => slab_flushed V c t) slab_cover

/-- Column 0 of the slab after the region: the prediction head of the mixed row of node r. -/
theorem event_head (c : Dev nD) (r : Fin 200000) :
    (dat2 (F := Ideal) V c).arrAt 11 cfg2.N (ix2 r (0 : Fin 128)) =
      NodeSpec.head (fun k j => V c main_arg33 (ix2 k j)) (fun j => V c main_v67 (ix2 0 j)) (mixRow V c r) :=
  (congrFun (slab_array V c) (ix2 r (0 : Fin 128))).trans (if_pos rfl)

/-- Column 1 of the slab after the region: the gate of node r. -/
theorem event_gate (c : Dev nD) (r : Fin 200000) :
    (dat2 (F := Ideal) V c).arrAt 11 cfg2.N (ix2 r (1 : Fin 128)) =
      NodeSpec.gate (fun k j => V c main_arg29 (ix2 k j)) (fun j => V c main_v65 (ix2 0 j))
        (fun k j => V c main_arg31 (ix2 k j)) (fun j => V c main_v66 (ix2 0 j)) (fun k => V c main_v3_0 (ix2 r k)) :=
  (congrFun (slab_array V c) (ix2 r (1 : Fin 128))).trans ((if_neg Nat.one_ne_zero).trans (if_pos rfl))

end Cert.KernelIdeal.EventPostArrays

end
-- ==== Proof.FirmPostArrays.lean ====
/-
  The firm nodes' closing kernel, as arrays. Each of its five grid points takes 10000 consecutive firm nodes: the
  node's own encoding h, the two relations' summed messages s1, s2 with their neighbour counts c1, c2 (columns),
  and the normalisation's scale g and shift b (one row each, the same at every point). It writes, for node r and
  lane j,  h r j + lnorm g b (avg s1 c1 + avg s2 c2) j  — the row function NodeSpec.firmOut. Here: the point's
  arithmetic read at one entry of the block, the blocks located in the arrays, and the array the five points leave.
-/
import proofs.«181421_j6158983102955_2_alg».proof.Proof.Gen.KernelIdeal.Frame
import proofs.«181421_j6158983102955_2_alg».proof.Proof.NodeSpec
import proofs.«181421_j6158983102955_2_alg».proof.Proof.LibColumn
import proofs.«181421_j6158983102955_2_alg».proof.Proof.LibRowSum
import Idealize.ShloMosaic.Lib.ValueLayout
import Idealize.ShloMosaic.Lib.Pipeline.Value
import Idealize.ShloMosaic.Lib.ValueIdx

set_option maxRecDepth 16384

noncomputable section

namespace Cert.KernelIdeal.FirmPostArrays

open Cert.KernelIdeal Cert.KernelIdeal.Gen Idealize.ShloMosaic Idealize.ShloMosaic.ValueIdx Idealize.ShloMosaic.TcCoe Idealize.SL.Sem
open Idealize.ShloMosaic.Pipeline (Dat)
open scoped BigOperators

/-! ## One grid point's arithmetic, entry by entry

The point's block of 10000 nodes is normalised row by row. The steps are named here so that each can be read at
an entry (y, j) of the block on its own: the row sum kept as a column, the row mean, the centred rows, and the
scaled centred rows. -/

/-- The lane sum of each row of a block, kept as a column. -/
def rowSum (X : FVec Ideal S10000x128 .f32) : FVec Ideal S10000x1 .f32 :=
  shapeCast S10000x1 (multiReduction (F := Ideal) .add [1] S10000 X 0x00000000#32 reduces_S10000x128_S10000 (.inl rfl) rfl)
    shapeCasts_S10000_S10000x1

/-- The mean of each row: its sum over the width 128.0. -/
def rowMean (X : FVec Ideal S10000x128 .f32) : FVec Ideal S10000x1 .f32 :=
  divf (rowSum X) (broadcast S10000x1 (Scalar.ofBits .f32 0x43000000#32))

/-- Each row minus its mean. -/
def centred (X : FVec Ideal S10000x128 .f32) : FVec Ideal S10000x128 .f32 :=
  subf X (broadcastTo S10000x128 (rowMean X) broadcasts_S10000x1_S10000x128)

/-- The centred rows times (variance + ε)^(-1/2), times the scale row g. -/
def scaled (X : FVec Ideal S10000x128 .f32) (g : Vec Ideal S1x128 .f32) : FVec Ideal S10000x128 .f32 :=
  mulf (mulf (centred X)
      (broadcastTo S10000x128
        (rsqrt (addf (rowMean (mulf (centred X) (centred X))) (broadcast S10000x1 (Scalar.ofBits .f32 0x3727C5AC#32))))
        broadcasts_S10000x1_S10000x128))
    (broadcastTo S10000x128 (shapeCast S1x128 g shapeCasts_S1x128_S1x128) broadcasts_S1x128_S10000x128)

/-- The two relations' neighbour averages added: each summed message over max(count, 1). -/
def avgSum (s1 : Vec Ideal S10000x128 .f32) (c1 : Vec Ideal S10000x1 .f32) (s2 : Vec Ideal S10000x128 .f32)
    (c2 : Vec Ideal S10000x1 .f32) : FVec Ideal S10000x128 .f32 :=
  addf
    (divf (shapeCast S10000x128 s1 shapeCasts_S10000x128_S10000x128)
      (broadcastTo S10000x128
        (maximumf (shapeCast S10000x1 c1 shapeCasts_S10000x1_S10000x1) (broadcast S10000x1 (Scalar.ofBits .f32 0x3F800000#32)))
        broadcasts_S10000x1_S10000x128))
    (divf (shapeCast S10000x128 s2 shapeCasts_S10000x128_S10000x128)
      (broadcastTo S10000x128
        (maximumf (shapeCast S10000x1 c2 shapeCasts_S10000x1_S10000x1) (broadcast S10000x1 (Scalar.ofBits .f32 0x3F800000#32)))
        broadcasts_S10000x1_S10000x128))

/-- The body's first payload is the scaled centred rows of the added averages: the same operations in the same order. -/
theorem pay2_eq (s1 : Vec Ideal S10000x128 .f32) (c1 : Vec Ideal S10000x1 .f32) (s2 : Vec Ideal S10000x128 .f32)
    (c2 : Vec Ideal S10000x1 .f32) (g : Vec Ideal S1x128 .f32) :
    k3_pay2 (F := Ideal) s1 c1 s2 c2 g = scaled (avgSum s1 c1 s2 c2) g := rfl

/-- The stored payload adds the shift row b, then the node's own encoding h. -/
theorem pay1_eq (P : FVec Ideal S10000x128 .f32) (b : Vec Ideal S1x128 .f32) (h : Vec Ideal S10000x128 .f32) :
    k3_pay1 (F := Ideal) P b h = addf (shapeCast S10000x128 h shapeCasts_S10000x128_S10000x128)
      (addf P (broadcastTo S10000x128 (shapeCast S1x128 b shapeCasts_S1x128_S1x128) broadcasts_S1x128_S10000x128)) := rfl

/-- The row-sum column at row y is the sum of the row's 128 entries. -/
theorem rowSum_apply (X : FVec Ideal S10000x128 .f32) (y : Fin 10000) :
    rowSum X (ix2 y (0 : Fin 1)) = ∑ k : Fin 128, X (ix2 y k) :=
  (shapeCast_a_a1_apply _ shapeCasts_S10000_S10000x1 y (0 : Fin 1)).trans
    (multiReduction_add_rows_apply X reduces_S10000x128_S10000 _ _ y)

/-- The row-mean column at row y is the mean of the row. -/
theorem rowMean_apply (X : FVec Ideal S10000x128 .f32) (y : Fin 10000) :
    rowMean X (ix2 y (0 : Fin 1)) = NodeSpec.mean (fun k => X (ix2 y k)) := by
  unfold rowMean
  rw [divf_apply, rowSum_apply, broadcast_apply]
  rfl

/-- A centred entry is the entry minus its row's mean. -/
theorem centred_apply (X : FVec Ideal S10000x128 .f32) (y : Fin 10000) (j : Fin 128) :
    centred X (ix2 y j) = X (ix2 y j) - NodeSpec.mean (fun k => X (ix2 y k)) := by
  unfold centred
  rw [subf_apply, broadcastTo_a1_ab_apply, rowMean_apply]

/-- A scaled entry: centred, times (the mean of the row's squared centred entries + ε)^(-1/2), times g j. -/
theorem scaled_apply (X : FVec Ideal S10000x128 .f32) (g : Vec Ideal S1x128 .f32) (y : Fin 10000) (j : Fin 128) :
    scaled X g (ix2 y j)
      = (X (ix2 y j) - NodeSpec.mean (fun k => X (ix2 y k)))
          * Ideal.rsqrt (NodeSpec.mean (fun k => (X (ix2 y k) - NodeSpec.mean (fun k => X (ix2 y k)))
              * (X (ix2 y k) - NodeSpec.mean (fun k => X (ix2 y k)))) + NodeSpec.eps)
          * g (ix2 (0 : Fin 1) j) := by
  unfold scaled
  rw [mulf_apply, mulf_apply, centred_apply, broadcastTo_a1_ab_apply, broadcastTo_1b_ab_apply, shapeCast_self]
  show _ * Ideal.rsqrt (addf (rowMean (mulf (centred X) (centred X))) (broadcast S10000x1 (Scalar.ofBits .f32 0x3727C5AC#32)) (ix2 y (0 : Fin 1))) * _ = _
  rw [addf_apply, rowMean_apply, broadcast_apply]
  simp only [mulf_apply, centred_apply]
  rfl

/-- An entry of the added averages. -/
theorem avgSum_apply (s1 : Vec Ideal S10000x128 .f32) (c1 : Vec Ideal S10000x1 .f32) (s2 : Vec Ideal S10000x128 .f32)
    (c2 : Vec Ideal S10000x1 .f32) (y : Fin 10000) (j : Fin 128) :
    avgSum s1 c1 s2 c2 (ix2 y j)
      = NodeSpec.avg (fun k => s1 (ix2 y k)) (c1 (ix2 y (0 : Fin 1))) j + NodeSpec.avg (fun k => s2 (ix2 y k)) (c2 (ix2 y (0 : Fin 1))) j := by
  unfold avgSum
  rw [addf_apply, divf_apply, divf_apply, broadcastTo_a1_ab_apply, broadcastTo_a1_ab_apply, maximumf_apply, maximumf_apply,
    broadcast_apply, shapeCast_self, shapeCast_self, shapeCast_self, shapeCast_self]
  rfl

/-- The value the point stores at entry (y, j) of its block is the firm node's output row at lane j, computed from
    row y of each of the point's input blocks. -/
theorem pay_apply (h s1 s2 : Vec Ideal S10000x128 .f32) (c1 c2 : Vec Ideal S10000x1 .f32) (g b : Vec Ideal S1x128 .f32)
    (y : Fin 10000) (j : Fin 128) :
    k3_pay1 (F := Ideal) (k3_pay2 (F := Ideal) s1 c1 s2 c2 g) b h (ix2 y j)
      = NodeSpec.firmOut (fun j => g (ix2 (0 : Fin 1) j)) (fun j => b (ix2 (0 : Fin 1) j)) (fun k => h (ix2 y k))
          (fun k => s1 (ix2 y k)) (c1 (ix2 y (0 : Fin 1))) (fun k => s2 (ix2 y k)) (c2 (ix2 y (0 : Fin 1))) j := by
  rw [pay2_eq, pay1_eq, addf_apply, addf_apply, shapeCast_self, broadcastTo_1b_ab_apply, shapeCast_self, scaled_apply]
  simp only [avgSum_apply]
  rfl

/-- The output row depends on its arguments only through their values. -/
theorem firmOut_congr {g g' b b' h h' s1 s1' s2 s2' : Fin 128 → EReal} {c1 c1' c2 c2' : EReal} {j j' : Fin 128}
    (hg : ∀ k, g k = g' k) (hb : ∀ k, b k = b' k) (hh : ∀ k, h k = h' k) (hs1 : ∀ k, s1 k = s1' k) (hc1 : c1 = c1')
    (hs2 : ∀ k, s2 k = s2' k) (hc2 : c2 = c2') (hj : j = j') :
    NodeSpec.firmOut g b h s1 c1 s2 c2 j = NodeSpec.firmOut g' b' h' s1' c1' s2' c2' j' := by
  obtain rfl : g = g' := funext hg
  obtain rfl : b = b' := funext hb
  obtain rfl : h = h' := funext hh
  obtain rfl : s1 = s1' := funext hs1
  obtain rfl : s2 = s2' := funext hs2
  subst hc1 hc2 hj
  rfl

/-! ## The blocks in the arrays -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the five grid points: point t takes block (t, 0) of every row-tiled
    window (the encodings, the summed messages, the count columns, the output) and block (0, 0) of the scale and
    shift rows. -/
theorem block_indices : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

/-- The array the five points leave: node r's output row, from row r of each input array. -/
abbrev firmRows (c : Dev nD) : S50000x128.Idx → EReal := fun i =>
  NodeSpec.firmOut (fun j => V c main_v69 (ix2 0 j)) (fun j => V c main_v70 (ix2 0 j))
    (fun k => V c main_v8_0 (ix2 (i 0) k)) (fun k => V c main_v39 (ix2 (i 0) k)) (V c main_v44 (ix2 (i 0) 0))
    (fun k => V c main_v57 (ix2 (i 0) k)) (V c main_v62 (ix2 (i 0) 0)) (i 1)

/-! Each input block of point t, read at a row p of the block, is its array read at row 10000 t + p (stated for
    any array row r with that value, so that it can be the output block's own row); the scale and shift rows'
    block is the whole one-row array. A block's coordinate on an axis is always index × size + 1 × the coordinate
    inside the block. -/

/-- Row p of the encodings' block. -/
theorem enc_block (c : Dev nD) (t : Fin cfg3.N) (p : Fin 10000) (k : Fin 128) (r : Fin 50000)
    (hr : r.val = win3_7.index t (0 : Fin 2) * 10000 + 1 * p.val) :
    iblk3 V c 0 t (ix2 p k) = V c main_v8_0 (ix2 r k) := by
  obtain ⟨a00, a01, -, -, -, -, -, -, -, -, -, -, -, -, a70, a71⟩ := block_indices t
  show V c main_v8_0 (((cfg3.win 0).blk t).view.emb (ix2 p k)) = V c main_v8_0 (ix2 r k)
  refine congrArg _ (funext fun a => Fin.ext ?_)
  match a with
  | ⟨0, _⟩ => show win3_0.index t (0 : Fin 2) * 10000 + 1 * p.val = r.val; omega
  | ⟨1, _⟩ => show win3_0.index t (1 : Fin 2) * 128 + 1 * k.val = k.val; omega

/-- Row p of the first relation's summed messages' block. -/
theorem msg1_block (c : Dev nD) (t : Fin cfg3.N) (p : Fin 10000) (k : Fin 128) (r : Fin 50000)
    (hr : r.val = win3_7.index t (0 : Fin 2) * 10000 + 1 * p.val) :
    iblk3 V c 1 t (ix2 p k) = V c main_v39 (ix2 r k) := by
  obtain ⟨-, -, a10, a11, -, -, -, -, -, -, -, -, -, -, a70, a71⟩ := block_indices t
  show V c main_v39 (((cfg3.win 1).blk t).view.emb (ix2 p k)) = V c main_v39 (ix2 r k)
  refine congrArg _ (funext fun a => Fin.ext ?_)
  match a with
  | ⟨0, _⟩ => show win3_1.index t (0 : Fin 2) * 10000 + 1 * p.val = r.val; omega
  | ⟨1, _⟩ => show win3_1.index t (1 : Fin 2) * 128 + 1 * k.val = k.val; omega

/-- Row p of the first relation's count column's block. -/
theorem cnt1_block (c : Dev nD) (t : Fin cfg3.N) (p : Fin 10000) (r : Fin 50000)
    (hr : r.val = win3_7.index t (0 : Fin 2) * 10000 + 1 * p.val) :
    iblk3 V c 2 t (ix2 p (0 : Fin 1)) = V c main_v44 (ix2 r (0 : Fin 1)) := by
  obtain ⟨-, -, -, -, a20, a21, -, -, -, -, -, -, -, -, a70, a71⟩ := block_indices t
  show V c main_v44 (((cfg3.win 2).blk t).view.emb (ix2 p (0 : Fin 1))) = V c main_v44 (ix2 r (0 : Fin 1))
  refine congrArg _ (funext fun a => Fin.ext ?_)
  match a with
  | ⟨0, _⟩ => show win3_2.index t (0 : Fin 2) * 10000 + 1 * p.val = r.val; omega
  | ⟨1, _⟩ => show win3_2.index t (1 : Fin 2) * 1 + 1 * 0 = 0; omega

/-- Row p of the second relation's summed messages' block. -/
theorem msg2_block (c : Dev nD) (t : Fin cfg3.N) (p : Fin 10000) (k : Fin 128) (r : Fin 50000)
    (hr : r.val = win3_7.index t (0 : Fin 2) * 10000 + 1 * p.val) :
    iblk3 V c 3 t (ix2 p k) = V c main_v57 (ix2 r k) := by
  obtain ⟨-, -, -, -, -, -, a30, a31, -, -, -, -, -, -, a70, a71⟩ := block_indices t
  show V c main_v57 (((cfg3.win 3).blk t).view.emb (ix2 p k)) = V c main_v57 (ix2 r k)
  refine congrArg _ (funext fun a => Fin.ext ?_)
  match a with
  | ⟨0, _⟩ => show win3_3.index t (0 : Fin 2) * 10000 + 1 * p.val = r.val; omega
  | ⟨1, _⟩ => show win3_3.index t (1 : Fin 2) * 128 + 1 * k.val = k.val; omega

/-- Row p of the second relation's count column's block. -/
theorem cnt2_block (c : Dev nD) (t : Fin cfg3.N) (p : Fin 10000) (r : Fin 50000)
    (hr : r.val = win3_7.index t (0 : Fin 2) * 10000 + 1 * p.val) :
    iblk3 V c 4 t (ix2 p (0 : Fin 1)) = V c main_v62 (ix2 r (0 : Fin 1)) := by
  obtain ⟨-, -, -, -, -, -, -, -, a40, a41, -, -, -, -, a70, a71⟩ := block_indices t
  show V c main_v62 (((cfg3.win 4).blk t).view.emb (ix2 p (0 : Fin 1))) = V c main_v62 (ix2 r (0 : Fin 1))
  refine congrArg _ (funext fun a => Fin.ext ?_)
  match a with
  | ⟨0, _⟩ => show win3_4.index t (0 : Fin 2) * 10000 + 1 * p.val = r.val; omega
  | ⟨1, _⟩ => show win3_4.index t (1 : Fin 2) * 1 + 1 * 0 = 0; omega

/-- The scale row's block is the row. -/
theorem scale_block (c : Dev nD) (t : Fin cfg3.N) (k : Fin 128) :
    iblk3 V c 5 t (ix2 (0 : Fin 1) k) = V c main_v69 (ix2 (0 : Fin 1) k) := by
  obtain ⟨-, -, -, -, -, -, -, -, -, -, a50, a51, -, -, -, -⟩ := block_indices t
  show V c main_v69 (((cfg3.win 5).blk t).view.emb (ix2 (0 : Fin 1) k)) = V c main_v69 (ix2 (0 : Fin 1) k)
  refine congrArg _ (funext fun a => Fin.ext ?_)
  match a with
  | ⟨0, _⟩ => show win3_5.index t (0 : Fin 2) * 1 + 1 * 0 = 0; omega
  | ⟨1, _⟩ => show win3_5.index t (1 : Fin 2) * 128 + 1 * k.val = k.val; omega

/-- The shift row's block is the row. -/
theorem shift_block (c : Dev nD) (t : Fin cfg3.N) (k : Fin 128) :
    iblk3 V c 6 t (ix2 (0 : Fin 1) k) = V c main_v70 (ix2 (0 : Fin 1) k) := by
  obtain ⟨-, -, -, -, -, -, -, -, -, -, -, -, a60, a61, -, -⟩ := block_indices t
  show V c main_v70 (((cfg3.win 6).blk t).view.emb (ix2 (0 : Fin 1) k)) = V c main_v70 (ix2 (0 : Fin 1) k)
  refine congrArg _ (funext fun a => Fin.ext ?_)
  match a with
  | ⟨0, _⟩ => show win3_6.index t (0 : Fin 2) * 1 + 1 * 0 = 0; omega
  | ⟨1, _⟩ => show win3_6.index t (1 : Fin 2) * 128 + 1 * k.val = k.val; omega

/-- Entry (p, q) of the output's block at point t sits at lane q of the array: the blocks are full-width. -/
theorem out_lane (t : Fin cfg3.N) (p : Fin 10000) (q : Fin 128) :
    q = (((cfg3.win 7).blk t).view.emb (ix2 p q)) 1 := by
  obtain ⟨-, -, -, -, -, -, -, -, -, -, -, -, -, -, a70, a71⟩ := block_indices t
  refine Fin.ext ?_
  show q.val = win3_7.index t (1 : Fin 2) * 128 + 1 * q.val
  omega

/-- Point t writes back block t of that array: entry (p, q) of the point's block is node 10000 t + p at lane q,
    and row p of each input block is row 10000 t + p of its array. -/
theorem flushed_eq (c : Dev nD) (t : Fin cfg3.N) :
    (dat3 (F := Ideal) V c).flushed 7 t = ((cfg3.win 7).blk t).view.read (Elt Ideal) (firmRows V c) := by
  show (cfg3.win 7).cut (grid3.coords t) ((dat3 (F := Ideal) V c).after 7 t) = _
  rw [after3_7]
  unfold out3_7
  rw [View.canon_unit_zero zero_offsets]
  simp only [View.ld_unit_zero (S := S10000x128) zero_offsets, View.ld_unit_zero (S := S10000x1) zero_offsets,
    View.ld_unit_zero (S := S1x128) zero_offsets]
  refine funext fun (y : S10000x128.Idx) => ?_
  obtain ⟨p, q, rfl⟩ : ∃ (p : Fin 10000) (q : Fin 128), y = ix2 p q := ⟨y 0, y 1, eq_ix2 y⟩
  refine (pay_apply (iblk3 V c 0 t) (iblk3 V c 1 t) (iblk3 V c 3 t) (iblk3 V c 2 t) (iblk3 V c 4 t) (iblk3 V c 5 t)
    (iblk3 V c 6 t) p q).trans ?_
  show _ = firmRows V c (((cfg3.win 7).blk t).view.emb (ix2 p q))
  have hr : ((((cfg3.win 7).blk t).view.emb (ix2 p q)) 0).val = win3_7.index t (0 : Fin 2) * 10000 + 1 * p.val := rfl
  exact firmOut_congr (fun k => scale_block V c t k) (fun k => shift_block V c t k)
    (fun k => enc_block V c t p k _ hr) (fun k => msg1_block V c t p k _ hr) (cnt1_block V c t p _ hr)
    (fun k => msg2_block V c t p k _ hr) (cnt2_block V c t p _ hr) (out_lane t p q)

/-- An index of the output array is in point t's block iff each coordinate is in the block's range on its axis. -/
theorem mem_block (t : Fin cfg3.N) (i : S50000x128.Idx) :
    i ∈ ((cfg3.win 7).blk t).view.set ↔ ∀ a : Fin 2, win3_7.index t a * S10000x128.size a ≤ (i a).val ∧ (i a).val < win3_7.index t a * S10000x128.size a + S10000x128.size a := by
  show i ∈ ((View.whole main_v71).slice (win3_7.rect t)).set ↔ _
  rw [View.set_slice_whole, Rect.mem_set_unit]
  exact Iff.rfl

/-- Every node's row is written: row r lies in the block of point r / 10000, and every point writes back. -/
theorem covered (i : S50000x128.Idx) :
    ∃ t : Fin cfg3.N, (cfg3.win 7).flush t = true ∧ i ∈ ((cfg3.win 7).blk t).view.set := by
  have hi0 : (i 0).val < 50000 := (i 0).isLt
  have hi1 : (i 1).val < 128 := (i 1).isLt
  have hN : cfg3.N = 5 := N_3
  refine ⟨⟨(i 0).val / 10000, by rw [hN]; omega⟩, flush3_7 _, ?_⟩
  rw [mem_block]
  obtain ⟨-, -, -, -, -, -, -, -, -, -, -, -, -, -, e0, e1⟩ := block_indices ⟨(i 0).val / 10000, by rw [hN]; omega⟩
  intro a
  match a with
  | ⟨0, _⟩ =>
    show win3_7.index _ (0 : Fin 2) * 10000 ≤ (i 0).val ∧ (i 0).val < win3_7.index _ (0 : Fin 2) * 10000 + 10000
    rw [e0]
    show (i 0).val / 10000 * 10000 ≤ (i 0).val ∧ (i 0).val < (i 0).val / 10000 * 10000 + 10000
    omega
  | ⟨1, _⟩ =>
    show win3_7.index _ (1 : Fin 2) * 128 ≤ (i 1).val ∧ (i 1).val < win3_7.index _ (1 : Fin 2) * 128 + 128
    rw [e1]
    omega

/-- The array the firm nodes' closing kernel leaves: entry (r, j) is node r's output row at lane j, whatever the
    buffers held when the kernel was entered. -/
theorem firm_out (c : Dev nD) :
    (dat3 (F := Ideal) V c).arrAt 7 cfg3.N = fun (i : S50000x128.Idx) =>
      NodeSpec.firmOut (fun j => V c main_v69 (ix2 0 j)) (fun j => V c main_v70 (ix2 0 j))
        (fun k => V c main_v8_0 (ix2 (i 0) k)) (fun k => V c main_v39 (ix2 (i 0) k)) (V c main_v44 (ix2 (i 0) 0))
        (fun k => V c main_v57 (ix2 (i 0) k)) (V c main_v62 (ix2 (i 0) 0)) (i 1) :=
  (dat3 (F := Ideal) V c).arrAt_eq_of_cover 7 (firmRows V c) (fun t _ => flushed_eq V c t) covered

end Cert.KernelIdeal.FirmPostArrays

end
-- ==== Proof.RefEvent.lean ====
/-
  The host program's event side, read at an entry.

  A dense layer of a row v is (∑ k, v k · W (k, j)) + b j. The host writes it as a contraction of the whole
  matrix with W plus the bias vector set under a unit axis and spread over the rows; its rectifier is the
  maximum with a zero spread over the whole shape. Read at the entry (r, j), the encoded matrix is the
  specification's encoder of row r and the event-to-firm message table one more dense layer of it.

  The summed messages s and their count cnt of an event node come from two scatter-adds, which stay opaque
  here. Everything after them is row by row: the neighbour average s j / max(cnt, 1); layer normalisation (the
  row mean and variance are sums from the zero initial value, kept as columns and spread back over the row);
  the gate α = 1 / (1 + exp(−z)) of a two-layer perceptron's output z on the node's own encoding; the mix
  α · h + (1 − α) · hn; and the prediction, a dense layer of the rectified mix whose unit column is dropped.
-/
import proofs.«181421_j6158983102955_2_alg».proof.Proof.Gen.ReferenceIdeal.Read
import proofs.«181421_j6158983102955_2_alg».proof.Proof.NodeSpec
import Idealize.ShloMosaic.Lib.ValueIdx

noncomputable section

open scoped BigOperators

namespace Cert.ReferenceIdeal.RefValue

open Cert.ReferenceIdeal Cert.ReferenceIdeal.Read Idealize.ShloMosaic Idealize.ShloMosaic.ValueIdx

variable (x0 : (⟨S200000x64, .f32⟩ : BufTy).Contents (Elt Ideal))
variable (x1 : (⟨S50000x128, .f32⟩ : BufTy).Contents (Elt Ideal))
variable (x2 : (⟨S400000, .i32⟩ : BufTy).Contents (Elt Ideal))
variable (x3 : (⟨S400000, .i32⟩ : BufTy).Contents (Elt Ideal))
variable (x4 : (⟨S400000x1, .f32⟩ : BufTy).Contents (Elt Ideal))
variable (x5 : (⟨S400000, .i32⟩ : BufTy).Contents (Elt Ideal))
variable (x6 : (⟨S400000, .i32⟩ : BufTy).Contents (Elt Ideal))
variable (x7 : (⟨S400000x1, .f32⟩ : BufTy).Contents (Elt Ideal))
variable (x8 : (⟨S800000, .i32⟩ : BufTy).Contents (Elt Ideal))
variable (x9 : (⟨S800000, .i32⟩ : BufTy).Contents (Elt Ideal))
variable (x10 : (⟨S800000x1, .f32⟩ : BufTy).Contents (Elt Ideal))
variable (x11 : (⟨S64x128, .f32⟩ : BufTy).Contents (Elt Ideal))
variable (x12 : (⟨S128, .f32⟩ : BufTy).Contents (Elt Ideal))
variable (x13 : (⟨S128x128, .f32⟩ : BufTy).Contents (Elt Ideal))
variable (x14 : (⟨S128, .f32⟩ : BufTy).Contents (Elt Ideal))
variable (x15 : (⟨S128x128, .f32⟩ : BufTy).Contents (Elt Ideal))
variable (x16 : (⟨S128, .f32⟩ : BufTy).Contents (Elt Ideal))
variable (x17 : (⟨S128x128, .f32⟩ : BufTy).Contents (Elt Ideal))
variable (x18 : (⟨S128, .f32⟩ : BufTy).Contents (Elt Ideal))
variable (x19 : (⟨S128x128, .f32⟩ : BufTy).Contents (Elt Ideal))
variable (x20 : (⟨S128, .f32⟩ : BufTy).Contents (Elt Ideal))
variable (x21 : (⟨S128x128, .f32⟩ : BufTy).Contents (Elt Ideal))
variable (x22 : (⟨S128, .f32⟩ : BufTy).Contents (Elt Ideal))
variable (x23 : (⟨S128x128, .f32⟩ : BufTy).Contents (Elt Ideal))
variable (x24 : (⟨S128, .f32⟩ : BufTy).Contents (Elt Ideal))
variable (x25 : (⟨S128, .f32⟩ : BufTy).Contents (Elt Ideal))
variable (x26 : (⟨S128, .f32⟩ : BufTy).Contents (Elt Ideal))
variable (x27 : (⟨S128, .f32⟩ : BufTy).Contents (Elt Ideal))
variable (x28 : (⟨S128, .f32⟩ : BufTy).Contents (Elt Ideal))
variable (x29 : (⟨S128x32, .f32⟩ : BufTy).Contents (Elt Ideal))
variable (x30 : (⟨S32, .f32⟩ : BufTy).Contents (Elt Ideal))
variable (x31 : (⟨S32x1, .f32⟩ : BufTy).Contents (Elt Ideal))
variable (x32 : (⟨S1, .f32⟩ : BufTy).Contents (Elt Ideal))
variable (x33 : (⟨S128x1, .f32⟩ : BufTy).Contents (Elt Ideal))
variable (x34 : (⟨S1, .f32⟩ : BufTy).Contents (Elt Ideal))

/-! ## The encoder and the message table -/

/-- The event encoder's first dense layer at (r, j): the contraction of row r with the weights plus the bias. -/
theorem ev_dense1 (r : Fin 200000) (j : Fin 128) :
    val_main_v3 (F := Ideal) x0 x11 x12 (ix2 r j)
      = NodeSpec.dense (fun k j => x11 (ix2 k j)) (fun j => x12 (ix1 j)) (fun k => x0 (ix2 r k)) j := by
  have el : ∀ k, lidx_main_v0 (ix2 r j) k = ix2 r k := fun k => funext fun a => Fin.ext (by match a with | ⟨0, _⟩ => rfl | ⟨1, _⟩ => rfl)
  have er : ∀ k, ridx_main_v0 (ix2 r j) k = ix2 k j := fun k => funext fun a => Fin.ext (by match a with | ⟨0, _⟩ => rfl | ⟨1, _⟩ => rfl)
  have eb : idx_main_v1 (idx_main_v2 (ix2 r j)) = ix1 j := funext fun a => Fin.ext (by match a with | ⟨0, _⟩ => rfl)
  rw [val_main_v3_apply, val_main_v0_apply, val_main_v2_apply, val_main_v1_apply]
  simp only [el, er, eb, Ideal.addf_def, NodeSpec.dense]

/-- The rectifier after the event encoder's first layer, entry by entry. -/
theorem ev_relu1 (i : S200000x128.Idx) :
    val_main_v4 (F := Ideal) x0 x11 x12 i = NodeSpec.relu (val_main_v3 (F := Ideal) x0 x11 x12 i) := by
  rw [val_main_v4_apply, val_main_call0_v0_apply, val_main_call0_cst_apply]
  rfl

/-- The event encoder's second dense layer at (r, j), of the rectified first layer's row r. -/
theorem ev_dense2 (r : Fin 200000) (j : Fin 128) :
    val_main_v8 (F := Ideal) x0 x11 x12 x13 x14 (ix2 r j)
      = NodeSpec.dense (fun k j => x13 (ix2 k j)) (fun j => x14 (ix1 j)) (fun k => (val_main_v4 (F := Ideal) x0 x11 x12) (ix2 r k)) j := by
  have el : ∀ k, lidx_main_v5 (ix2 r j) k = ix2 r k := fun k => funext fun a => Fin.ext (by match a with | ⟨0, _⟩ => rfl | ⟨1, _⟩ => rfl)
  have er : ∀ k, ridx_main_v5 (ix2 r j) k = ix2 k j := fun k => funext fun a => Fin.ext (by match a with | ⟨0, _⟩ => rfl | ⟨1, _⟩ => rfl)
  have eb : idx_main_v6 (idx_main_v7 (ix2 r j)) = ix1 j := funext fun a => Fin.ext (by match a with | ⟨0, _⟩ => rfl)
  rw [val_main_v8_apply, val_main_v5_apply, val_main_v7_apply, val_main_v6_apply]
  simp only [el, er, eb, Ideal.addf_def, NodeSpec.dense]

/-- The rectifier after the event encoder's second layer, entry by entry. -/
theorem ev_relu2 (i : S200000x128.Idx) :
    val_main_v9 (F := Ideal) x0 x11 x12 x13 x14 i = NodeSpec.relu (val_main_v8 (F := Ideal) x0 x11 x12 x13 x14 i) := by
  rw [val_main_v9_apply, val_main_call1_v0_apply, val_main_call1_cst_apply]
  rfl

/-- THE EVENT ENCODER: entry (r, j) of the host's encoded matrix is the specification's encoder of row r. -/
theorem ref_event_enc (r : Fin 200000) (j : Fin 128) :
    val_main_v9 (F := Ideal) x0 x11 x12 x13 x14 (ix2 r j) = NodeSpec.enc (fun k j => x11 (ix2 k j)) (fun j => x12 (ix1 j)) (fun k j => x13 (ix2 k j)) (fun j => x14 (ix1 j)) (fun k => x0 (ix2 r k)) j := by
  rw [ev_relu2, ev_dense2]
  simp only [ev_relu1, ev_dense1]
  rfl

/-- The event-to-firm relation's dense layer at (r, j), of row r of the encoded matrix. -/
theorem ref_msg_ef_dense (r : Fin 200000) (j : Fin 128) :
    val_main_v48 (F := Ideal) x0 x11 x12 x13 x14 x21 x22 (ix2 r j)
      = NodeSpec.dense (fun k j => x21 (ix2 k j)) (fun j => x22 (ix1 j)) (fun k => (val_main_v9 (F := Ideal) x0 x11 x12 x13 x14) (ix2 r k)) j := by
  have el : ∀ k, lidx_main_v45 (ix2 r j) k = ix2 r k := fun k => funext fun a => Fin.ext (by match a with | ⟨0, _⟩ => rfl | ⟨1, _⟩ => rfl)
  have er : ∀ k, ridx_main_v45 (ix2 r j) k = ix2 k j := fun k => funext fun a => Fin.ext (by match a with | ⟨0, _⟩ => rfl | ⟨1, _⟩ => rfl)
  have eb : idx_main_v46 (idx_main_v47 (ix2 r j)) = ix1 j := funext fun a => Fin.ext (by match a with | ⟨0, _⟩ => rfl)
  rw [val_main_v48_apply, val_main_v45_apply, val_main_v47_apply, val_main_v46_apply]
  simp only [el, er, eb, Ideal.addf_def, NodeSpec.dense]

/-- THE EVENT-TO-FIRM MESSAGE TABLE: entry (r, j) is the specification's message row of node r. -/
theorem ref_msg_ef (r : Fin 200000) (j : Fin 128) :
    val_main_v48 (F := Ideal) x0 x11 x12 x13 x14 x21 x22 (ix2 r j) = NodeSpec.msg (fun k j => x11 (ix2 k j)) (fun j => x12 (ix1 j)) (fun k j => x13 (ix2 k j)) (fun j => x14 (ix1 j)) (fun k j => x21 (ix2 k j)) (fun j => x22 (ix1 j)) (fun k => x0 (ix2 r k)) j := by
  rw [ref_msg_ef_dense]
  simp only [ref_event_enc]
  rfl

/-! ## The neighbour average and its normalisation -/

/-- THE NEIGHBOUR AVERAGE of an event node: the summed messages over the count, the count raised to at least one and spread along the row. -/
theorem ev_avg (r : Fin 200000) (j : Fin 128) :
    val_main_v44 (F := Ideal) x1 x2 x3 x4 x15 x16 x17 x18 x19 x20 (ix2 r j)
      = NodeSpec.avg (fun k => val_main_v35 (F := Ideal) x1 x2 x3 x4 x15 x16 x17 x18 x19 x20 (ix2 r k)) (val_main_v39 (F := Ideal) x3 (ix1 r)) j := by
  have e : idx_main_v42 (idx_main_v43 (ix2 r j)) = ix1 r := funext fun a => Fin.ext (by match a with | ⟨0, _⟩ => rfl)
  rw [val_main_v44_apply, val_main_v43_apply, val_main_v42_apply, val_main_v41_apply, val_main_v40_apply, val_main_cst_3_apply, e]
  rfl

/-- The row mean as the host computes it: the row's sum from the zero initial value, kept as a column, over the width. -/
theorem ev_ln_mean (r : Fin 200000) (c : Fin 1) :
    val_main_v99 (F := Ideal) x1 x2 x3 x4 x15 x16 x17 x18 x19 x20 (ix2 r c) = NodeSpec.mean (fun k => val_main_v44 (F := Ideal) x1 x2 x3 x4 x15 x16 x17 x18 x19 x20 (ix2 r k)) := by
  have e : ∀ k, idx_main_v96 (idx_main_v97 (ix2 r c)) k = ix2 r k := fun k => funext fun a => Fin.ext (by match a with | ⟨0, _⟩ => rfl | ⟨1, _⟩ => rfl)
  rw [val_main_v99_apply, val_main_v97_apply, val_main_v96_apply, val_main_v98_apply, val_main_cst_17_apply, val_main_cst_16_apply]
  simp only [e, Ideal.hostDivf_def, Ideal.ofBits_def, Ideal.ofBits_zero_f32, zero_add]
  rfl

/-- The centred entry (the copy that is squared): the entry minus its row's mean. -/
theorem ev_ln_ctr (r : Fin 200000) (j : Fin 128) :
    val_main_v101 (F := Ideal) x1 x2 x3 x4 x15 x16 x17 x18 x19 x20 (ix2 r j) = val_main_v44 (F := Ideal) x1 x2 x3 x4 x15 x16 x17 x18 x19 x20 (ix2 r j) - NodeSpec.mean (fun k => val_main_v44 (F := Ideal) x1 x2 x3 x4 x15 x16 x17 x18 x19 x20 (ix2 r k)) := by
  have e : idx_main_v100 (ix2 r j) = ix2 r (0 : Fin 1) := funext fun a => Fin.ext (by match a with | ⟨0, _⟩ => rfl | ⟨1, _⟩ => rfl)
  rw [val_main_v101_apply, val_main_v100_apply, e, ev_ln_mean]
  rfl

/-- The centred entry (the copy that is scaled): the same difference. -/
theorem ev_ln_ctr2 (r : Fin 200000) (j : Fin 128) :
    val_main_v108 (F := Ideal) x1 x2 x3 x4 x15 x16 x17 x18 x19 x20 (ix2 r j) = val_main_v44 (F := Ideal) x1 x2 x3 x4 x15 x16 x17 x18 x19 x20 (ix2 r j) - NodeSpec.mean (fun k => val_main_v44 (F := Ideal) x1 x2 x3 x4 x15 x16 x17 x18 x19 x20 (ix2 r k)) := by
  have e : idx_main_v107 (ix2 r j) = ix2 r (0 : Fin 1) := funext fun a => Fin.ext (by match a with | ⟨0, _⟩ => rfl | ⟨1, _⟩ => rfl)
  rw [val_main_v108_apply, val_main_v107_apply, e, ev_ln_mean]
  rfl

/-- The row variance: the mean of the squared centred entries. -/
theorem ev_ln_var (r : Fin 200000) (c : Fin 1) :
    val_main_v106 (F := Ideal) x1 x2 x3 x4 x15 x16 x17 x18 x19 x20 (ix2 r c)
      = NodeSpec.mean (fun k => (val_main_v44 (F := Ideal) x1 x2 x3 x4 x15 x16 x17 x18 x19 x20 (ix2 r k) - NodeSpec.mean (fun k => val_main_v44 (F := Ideal) x1 x2 x3 x4 x15 x16 x17 x18 x19 x20 (ix2 r k))) * (val_main_v44 (F := Ideal) x1 x2 x3 x4 x15 x16 x17 x18 x19 x20 (ix2 r k) - NodeSpec.mean (fun k => val_main_v44 (F := Ideal) x1 x2 x3 x4 x15 x16 x17 x18 x19 x20 (ix2 r k)))) := by
  have e : ∀ k, idx_main_v103 (idx_main_v104 (ix2 r c)) k = ix2 r k := fun k => funext fun a => Fin.ext (by match a with | ⟨0, _⟩ => rfl | ⟨1, _⟩ => rfl)
  rw [val_main_v106_apply, val_main_v104_apply, val_main_v103_apply, val_main_v105_apply, val_main_cst_19_apply, val_main_cst_18_apply]
  simp only [e, val_main_v102_apply, ev_ln_ctr, Ideal.hostDivf_def, Ideal.mulf_def, Ideal.ofBits_def, Ideal.ofBits_zero_f32, zero_add]
  rfl

/-- LAYER NORMALISATION of the event rows: entry (r, j) of the host's normalised matrix is the specification's
    normalisation of row r. -/
theorem ev_ln_out (r : Fin 200000) (j : Fin 128) :
    val_main_v119 (F := Ideal) x1 x2 x3 x4 x15 x16 x17 x18 x19 x20 x25 x26 (ix2 r j) = NodeSpec.lnorm (fun j => x25 (ix1 j)) (fun j => x26 (ix1 j)) (fun k => val_main_v44 (F := Ideal) x1 x2 x3 x4 x15 x16 x17 x18 x19 x20 (ix2 r k)) j := by
  have eg : idx_main_v114 (idx_main_v115 (ix2 r j)) = ix1 j := funext fun a => Fin.ext (by match a with | ⟨0, _⟩ => rfl)
  have eb : idx_main_v117 (idx_main_v118 (ix2 r j)) = ix1 j := funext fun a => Fin.ext (by match a with | ⟨0, _⟩ => rfl)
  have ers : idx_main_v112 (ix2 r j) = ix2 r (0 : Fin 1) := funext fun a => Fin.ext (by match a with | ⟨0, _⟩ => rfl | ⟨1, _⟩ => rfl)
  rw [val_main_v119_apply, val_main_v116_apply, val_main_v113_apply, val_main_v118_apply, val_main_v117_apply,
    val_main_v115_apply, val_main_v114_apply, val_main_v112_apply, val_main_v111_apply, val_main_v110_apply,
    val_main_v109_apply, val_main_cst_20_apply, eg, eb, ers, ev_ln_var, ev_ln_ctr2]
  rfl

/-! ## The gate, the mix and the prediction -/

/-- The float word of one is the number one. -/
theorem ev_one_word : Ideal.ofBits .f32 0x3F800000#32 = 1 := by
  simp [Ideal.ofBits, Ideal.ieee, -EReal.coe_mul]; norm_num

/-- The gate's first dense layer at (r, j), of row r of the encoded matrix. -/
theorem ev_gate_dense1 (r : Fin 200000) (j : Fin 32) :
    val_main_v147 (F := Ideal) x0 x11 x12 x13 x14 x29 x30 (ix2 r j)
      = NodeSpec.dense (fun k j => x29 (ix2 k j)) (fun j => x30 (ix1 j)) (fun k => (val_main_v9 (F := Ideal) x0 x11 x12 x13 x14) (ix2 r k)) j := by
  have el : ∀ k, lidx_main_v144 (ix2 r j) k = ix2 r k := fun k => funext fun a => Fin.ext (by match a with | ⟨0, _⟩ => rfl | ⟨1, _⟩ => rfl)
  have er : ∀ k, ridx_main_v144 (ix2 r j) k = ix2 k j := fun k => funext fun a => Fin.ext (by match a with | ⟨0, _⟩ => rfl | ⟨1, _⟩ => rfl)
  have eb : idx_main_v145 (idx_main_v146 (ix2 r j)) = ix1 j := funext fun a => Fin.ext (by match a with | ⟨0, _⟩ => rfl)
  rw [val_main_v147_apply, val_main_v144_apply, val_main_v146_apply, val_main_v145_apply]
  simp only [el, er, eb, Ideal.addf_def, NodeSpec.dense]

/-- The rectifier inside the gate, entry by entry. -/
theorem ev_gate_relu (i : S200000x32.Idx) :
    val_main_v148 (F := Ideal) x0 x11 x12 x13 x14 x29 x30 i = NodeSpec.relu (val_main_v147 (F := Ideal) x0 x11 x12 x13 x14 x29 x30 i) := by
  rw [val_main_v148_apply, val_main_call4_v0_apply, val_main_call4_cst_apply]
  rfl

/-- The gate's second dense layer, of width one, at (r, 0). -/
theorem ev_gate_dense2 (r : Fin 200000) :
    val_main_v152 (F := Ideal) x0 x11 x12 x13 x14 x29 x30 x31 x32 (ix2 r (0 : Fin 1))
      = NodeSpec.dense (fun k j => x31 (ix2 k j)) (fun j => x32 (ix1 j)) (fun k => (val_main_v148 (F := Ideal) x0 x11 x12 x13 x14 x29 x30) (ix2 r k)) (0 : Fin 1) := by
  have el : ∀ k, lidx_main_v149 (ix2 r (0 : Fin 1)) k = ix2 r k := fun k => funext fun a => Fin.ext (by match a with | ⟨0, _⟩ => rfl | ⟨1, _⟩ => rfl)
  have er : ∀ k, ridx_main_v149 (ix2 r (0 : Fin 1)) k = ix2 k (0 : Fin 1) := fun k => funext fun a => Fin.ext (by match a with | ⟨0, _⟩ => rfl | ⟨1, _⟩ => rfl)
  have eb : idx_main_v150 (idx_main_v151 (ix2 r (0 : Fin 1))) = ix1 (0 : Fin 1) := funext fun a => Fin.ext (by match a with | ⟨0, _⟩ => rfl)
  rw [val_main_v152_apply, val_main_v149_apply, val_main_v151_apply, val_main_v150_apply]
  simp only [el, er, eb, Ideal.addf_def, NodeSpec.dense]

/-- THE GATE of an event node: the host spells the logistic function as 1 / (1 + exp(−z)) with the float word of
    one, which is the number one, so it is the logistic function of the perceptron's output. -/
theorem ref_event_gate (r : Fin 200000) :
    val_main_v158 (F := Ideal) x0 x11 x12 x13 x14 x29 x30 x31 x32 (ix2 r (0 : Fin 1)) = NodeSpec.gate (fun k j => x29 (ix2 k j)) (fun j => x30 (ix1 j)) (fun k j => x31 (ix2 k j)) (fun j => x32 (ix1 j)) (fun k => val_main_v9 (F := Ideal) x0 x11 x12 x13 x14 (ix2 r k)) := by
  rw [val_main_v158_apply, val_main_v157_apply, val_main_cst_27_apply, val_main_v156_apply, val_main_v155_apply, val_main_cst_26_apply,
    val_main_v154_apply, val_main_v153_apply, ev_gate_dense2]
  simp only [ev_gate_relu, ev_gate_dense1, Ideal.hostDivf_def, Ideal.addf_def, Ideal.hostUnary_exp_def, Ideal.hostNegf_def, Ideal.negf_def,
    Ideal.ofBits_def, ev_one_word]
  rfl

/-- THE MIX of an event node: the gate times its own encoding plus one minus the gate times the normalised
    neighbour average. -/
theorem ref_event_mix (r : Fin 200000) (j : Fin 128) :
    val_main_v165 (F := Ideal) x0 x1 x2 x3 x4 x11 x12 x13 x14 x15 x16 x17 x18 x19 x20 x25 x26 x29 x30 x31 x32 (ix2 r j) = NodeSpec.eventMix (fun j => x25 (ix1 j)) (fun j => x26 (ix1 j)) (fun k j => x29 (ix2 k j)) (fun j => x30 (ix1 j)) (fun k j => x31 (ix2 k j)) (fun j => x32 (ix1 j))
      (fun k => val_main_v9 (F := Ideal) x0 x11 x12 x13 x14 (ix2 r k)) (fun k => val_main_v35 (F := Ideal) x1 x2 x3 x4 x15 x16 x17 x18 x19 x20 (ix2 r k)) (val_main_v39 (F := Ideal) x3 (ix1 r)) j := by
  have e1 : idx_main_v159 (ix2 r j) = ix2 r (0 : Fin 1) := funext fun a => Fin.ext (by match a with | ⟨0, _⟩ => rfl | ⟨1, _⟩ => rfl)
  have e2 : idx_main_v163 (ix2 r j) = ix2 r (0 : Fin 1) := funext fun a => Fin.ext (by match a with | ⟨0, _⟩ => rfl | ⟨1, _⟩ => rfl)
  rw [val_main_v165_apply, val_main_v164_apply, val_main_v163_apply, val_main_v162_apply, val_main_v161_apply, val_main_cst_28_apply,
    val_main_v160_apply, val_main_v159_apply, e1, e2, ref_event_gate, ev_ln_out]
  simp only [ev_avg]
  rfl

/-- The rectifier before the prediction head, entry by entry. -/
theorem ev_head_relu (i : S200000x128.Idx) :
    val_main_v166 (F := Ideal) x0 x1 x2 x3 x4 x11 x12 x13 x14 x15 x16 x17 x18 x19 x20 x25 x26 x29 x30 x31 x32 i = NodeSpec.relu (val_main_v165 (F := Ideal) x0 x1 x2 x3 x4 x11 x12 x13 x14 x15 x16 x17 x18 x19 x20 x25 x26 x29 x30 x31 x32 i) := by
  rw [val_main_v166_apply, val_main_call5_v0_apply, val_main_call5_cst_apply]
  rfl

/-- The prediction head's dense layer, of width one, at (r, 0). -/
theorem ev_head_dense (r : Fin 200000) :
    val_main_v170 (F := Ideal) x0 x1 x2 x3 x4 x11 x12 x13 x14 x15 x16 x17 x18 x19 x20 x25 x26 x29 x30 x31 x32 x33 x34 (ix2 r (0 : Fin 1))
      = NodeSpec.dense (fun k j => x33 (ix2 k j)) (fun j => x34 (ix1 j)) (fun k => (val_main_v166 (F := Ideal) x0 x1 x2 x3 x4 x11 x12 x13 x14 x15 x16 x17 x18 x19 x20 x25 x26 x29 x30 x31 x32) (ix2 r k)) (0 : Fin 1) := by
  have el : ∀ k, lidx_main_v167 (ix2 r (0 : Fin 1)) k = ix2 r k := fun k => funext fun a => Fin.ext (by match a with | ⟨0, _⟩ => rfl | ⟨1, _⟩ => rfl)
  have er : ∀ k, ridx_main_v167 (ix2 r (0 : Fin 1)) k = ix2 k (0 : Fin 1) := fun k => funext fun a => Fin.ext (by match a with | ⟨0, _⟩ => rfl | ⟨1, _⟩ => rfl)
  have eb : idx_main_v168 (idx_main_v169 (ix2 r (0 : Fin 1))) = ix1 (0 : Fin 1) := funext fun a => Fin.ext (by match a with | ⟨0, _⟩ => rfl)
  rw [val_main_v170_apply, val_main_v167_apply, val_main_v169_apply, val_main_v168_apply]
  simp only [el, er, eb, Ideal.addf_def, NodeSpec.dense]

/-- THE PREDICTION of an event node: the head's unit column dropped, entry r is the dense layer of the rectified
    mixed row r. -/
theorem ref_event_head (r : Fin 200000) :
    val_main_v171 (F := Ideal) x0 x1 x2 x3 x4 x11 x12 x13 x14 x15 x16 x17 x18 x19 x20 x25 x26 x29 x30 x31 x32 x33 x34 (ix1 r) = NodeSpec.head (fun k j => x33 (ix2 k j)) (fun j => x34 (ix1 j)) (fun j => val_main_v165 (F := Ideal) x0 x1 x2 x3 x4 x11 x12 x13 x14 x15 x16 x17 x18 x19 x20 x25 x26 x29 x30 x31 x32 (ix2 r j)) := by
  have e : idx_main_v171 (ix1 r) = ix2 r (0 : Fin 1) :=
    funext fun a => Fin.ext (by match a with | ⟨0, _⟩ => exact Nat.div_one _ | ⟨1, _⟩ => rfl)
  rw [val_main_v171_apply, e, ev_head_dense]
  simp only [ev_head_relu]
  rfl

end Cert.ReferenceIdeal.RefValue

end
-- ==== Proof.RefFirm.lean ====
/-
  The host program's firm nodes, read at an entry.

  A dense layer of a row v is (∑ k, v k · W (k, j)) + b j. The host writes it as a contraction of the whole matrix
  with W plus the bias vector set under a unit axis and spread over the rows; its rectifier is the maximum with a
  zero spread over the whole shape. Reading each operation at the entry (r, j) shows that the firm nodes' encoded
  matrix has the specification's encoder of row r there, and that each of the two relations' message tables is one
  more dense layer of the encoded row.

  A firm node receives messages along two relations; each relation's summed messages and count come from two
  scatter-adds, which stay opaque here. The rest is row by row: each relation's neighbour average
  s j / max(cnt, 1), their sum, its layer normalisation, and the node's own encoding added to it.
-/
import proofs.«181421_j6158983102955_2_alg».proof.Proof.Gen.ReferenceIdeal.Read
import proofs.«181421_j6158983102955_2_alg».proof.Proof.NodeSpec
import Idealize.ShloMosaic.Lib.ValueIdx

set_option maxRecDepth 16384

noncomputable section

open scoped BigOperators

namespace Cert.ReferenceIdeal.RefValue

open Cert.ReferenceIdeal Cert.ReferenceIdeal.Read Idealize.ShloMosaic Idealize.ShloMosaic.ValueIdx

variable (x0 : (⟨S200000x64, .f32⟩ : BufTy).Contents (Elt Ideal))
variable (x1 : (⟨S50000x128, .f32⟩ : BufTy).Contents (Elt Ideal))
variable (x5 : (⟨S400000, .i32⟩ : BufTy).Contents (Elt Ideal))
variable (x6 : (⟨S400000, .i32⟩ : BufTy).Contents (Elt Ideal))
variable (x7 : (⟨S400000x1, .f32⟩ : BufTy).Contents (Elt Ideal))
variable (x8 : (⟨S800000, .i32⟩ : BufTy).Contents (Elt Ideal))
variable (x9 : (⟨S800000, .i32⟩ : BufTy).Contents (Elt Ideal))
variable (x10 : (⟨S800000x1, .f32⟩ : BufTy).Contents (Elt Ideal))
variable (x11 : (⟨S64x128, .f32⟩ : BufTy).Contents (Elt Ideal))
variable (x12 : (⟨S128, .f32⟩ : BufTy).Contents (Elt Ideal))
variable (x13 : (⟨S128x128, .f32⟩ : BufTy).Contents (Elt Ideal))
variable (x14 : (⟨S128, .f32⟩ : BufTy).Contents (Elt Ideal))
variable (x15 : (⟨S128x128, .f32⟩ : BufTy).Contents (Elt Ideal))
variable (x16 : (⟨S128, .f32⟩ : BufTy).Contents (Elt Ideal))
variable (x17 : (⟨S128x128, .f32⟩ : BufTy).Contents (Elt Ideal))
variable (x18 : (⟨S128, .f32⟩ : BufTy).Contents (Elt Ideal))
variable (x19 : (⟨S128x128, .f32⟩ : BufTy).Contents (Elt Ideal))
variable (x20 : (⟨S128, .f32⟩ : BufTy).Contents (Elt Ideal))
variable (x21 : (⟨S128x128, .f32⟩ : BufTy).Contents (Elt Ideal))
variable (x22 : (⟨S128, .f32⟩ : BufTy).Contents (Elt Ideal))
variable (x23 : (⟨S128x128, .f32⟩ : BufTy).Contents (Elt Ideal))
variable (x24 : (⟨S128, .f32⟩ : BufTy).Contents (Elt Ideal))
variable (x27 : (⟨S128, .f32⟩ : BufTy).Contents (Elt Ideal))
variable (x28 : (⟨S128, .f32⟩ : BufTy).Contents (Elt Ideal))

/-! ## The encoder and the two message tables -/

/-- The firm encoder's first dense layer at (r, j): the contraction of row r with the weights plus the bias. -/
theorem fm_dense1 (r : Fin 50000) (j : Fin 128) :
    val_main_v13 (F := Ideal) x1 x15 x16 (ix2 r j)
      = NodeSpec.dense (fun k j => x15 (ix2 k j)) (fun j => x16 (ix1 j)) (fun k => x1 (ix2 r k)) j := by
  have el : ∀ k, lidx_main_v10 (ix2 r j) k = ix2 r k := fun k => funext fun a => Fin.ext (by match a with | ⟨0, _⟩ => rfl | ⟨1, _⟩ => rfl)
  have er : ∀ k, ridx_main_v10 (ix2 r j) k = ix2 k j := fun k => funext fun a => Fin.ext (by match a with | ⟨0, _⟩ => rfl | ⟨1, _⟩ => rfl)
  have eb : idx_main_v11 (idx_main_v12 (ix2 r j)) = ix1 j := funext fun a => Fin.ext (by match a with | ⟨0, _⟩ => rfl)
  rw [val_main_v13_apply, val_main_v10_apply, val_main_v12_apply, val_main_v11_apply]
  simp only [el, er, eb, Ideal.addf_def, NodeSpec.dense]

/-- The rectifier after the firm encoder's first layer, entry by entry. -/
theorem fm_relu1 (i : S50000x128.Idx) :
    val_main_v14 (F := Ideal) x1 x15 x16 i = NodeSpec.relu (val_main_v13 (F := Ideal) x1 x15 x16 i) := by
  rw [val_main_v14_apply, val_main_call2_v0_apply, val_main_call2_cst_apply]
  rfl

/-- The firm encoder's second dense layer at (r, j), of the rectified first layer's row r. -/
theorem fm_dense2 (r : Fin 50000) (j : Fin 128) :
    val_main_v18 (F := Ideal) x1 x15 x16 x17 x18 (ix2 r j)
      = NodeSpec.dense (fun k j => x17 (ix2 k j)) (fun j => x18 (ix1 j)) (fun k => (val_main_v14 (F := Ideal) x1 x15 x16) (ix2 r k)) j := by
  have el : ∀ k, lidx_main_v15 (ix2 r j) k = ix2 r k := fun k => funext fun a => Fin.ext (by match a with | ⟨0, _⟩ => rfl | ⟨1, _⟩ => rfl)
  have er : ∀ k, ridx_main_v15 (ix2 r j) k = ix2 k j := fun k => funext fun a => Fin.ext (by match a with | ⟨0, _⟩ => rfl | ⟨1, _⟩ => rfl)
  have eb : idx_main_v16 (idx_main_v17 (ix2 r j)) = ix1 j := funext fun a => Fin.ext (by match a with | ⟨0, _⟩ => rfl)
  rw [val_main_v18_apply, val_main_v15_apply, val_main_v17_apply, val_main_v16_apply]
  simp only [el, er, eb, Ideal.addf_def, NodeSpec.dense]

/-- The rectifier after the firm encoder's second layer, entry by entry. -/
theorem fm_relu2 (i : S50000x128.Idx) :
    val_main_v19 (F := Ideal) x1 x15 x16 x17 x18 i = NodeSpec.relu (val_main_v18 (F := Ideal) x1 x15 x16 x17 x18 i) := by
  rw [val_main_v19_apply, val_main_call3_v0_apply, val_main_call3_cst_apply]
  rfl

/-- The firm encoder: entry (r, j) of the host's encoded matrix is the specification's encoder of row r. -/
theorem ref_firm_enc (r : Fin 50000) (j : Fin 128) :
    val_main_v19 (F := Ideal) x1 x15 x16 x17 x18 (ix2 r j) = NodeSpec.enc (fun k j => x15 (ix2 k j)) (fun j => x16 (ix1 j)) (fun k j => x17 (ix2 k j)) (fun j => x18 (ix1 j)) (fun k => x1 (ix2 r k)) j := by
  rw [fm_relu2, fm_dense2]
  simp only [fm_relu1, fm_dense1]
  rfl

/-- The firm-to-event relation's dense layer at (r, j), of row r of the encoded matrix. -/
theorem fm_re_dense (r : Fin 50000) (j : Fin 128) :
    val_main_v23 (F := Ideal) x1 x15 x16 x17 x18 x19 x20 (ix2 r j)
      = NodeSpec.dense (fun k j => x19 (ix2 k j)) (fun j => x20 (ix1 j)) (fun k => (val_main_v19 (F := Ideal) x1 x15 x16 x17 x18) (ix2 r k)) j := by
  have el : ∀ k, lidx_main_v20 (ix2 r j) k = ix2 r k := fun k => funext fun a => Fin.ext (by match a with | ⟨0, _⟩ => rfl | ⟨1, _⟩ => rfl)
  have er : ∀ k, ridx_main_v20 (ix2 r j) k = ix2 k j := fun k => funext fun a => Fin.ext (by match a with | ⟨0, _⟩ => rfl | ⟨1, _⟩ => rfl)
  have eb : idx_main_v21 (idx_main_v22 (ix2 r j)) = ix1 j := funext fun a => Fin.ext (by match a with | ⟨0, _⟩ => rfl)
  rw [val_main_v23_apply, val_main_v20_apply, val_main_v22_apply, val_main_v21_apply]
  simp only [el, er, eb, Ideal.addf_def, NodeSpec.dense]

/-- The firm-to-event message table: entry (r, j) is the specification's message row of node r. -/
theorem ref_msg_re (r : Fin 50000) (j : Fin 128) :
    val_main_v23 (F := Ideal) x1 x15 x16 x17 x18 x19 x20 (ix2 r j) = NodeSpec.msg (fun k j => x15 (ix2 k j)) (fun j => x16 (ix1 j)) (fun k j => x17 (ix2 k j)) (fun j => x18 (ix1 j)) (fun k j => x19 (ix2 k j)) (fun j => x20 (ix1 j)) (fun k => x1 (ix2 r k)) j := by
  rw [fm_re_dense]
  simp only [ref_firm_enc]
  rfl

/-- The firm-to-firm relation's dense layer at (r, j), of row r of the encoded matrix. -/
theorem fm_ff_dense (r : Fin 50000) (j : Fin 128) :
    val_main_v73 (F := Ideal) x1 x15 x16 x17 x18 x23 x24 (ix2 r j)
      = NodeSpec.dense (fun k j => x23 (ix2 k j)) (fun j => x24 (ix1 j)) (fun k => (val_main_v19 (F := Ideal) x1 x15 x16 x17 x18) (ix2 r k)) j := by
  have el : ∀ k, lidx_main_v70 (ix2 r j) k = ix2 r k := fun k => funext fun a => Fin.ext (by match a with | ⟨0, _⟩ => rfl | ⟨1, _⟩ => rfl)
  have er : ∀ k, ridx_main_v70 (ix2 r j) k = ix2 k j := fun k => funext fun a => Fin.ext (by match a with | ⟨0, _⟩ => rfl | ⟨1, _⟩ => rfl)
  have eb : idx_main_v71 (idx_main_v72 (ix2 r j)) = ix1 j := funext fun a => Fin.ext (by match a with | ⟨0, _⟩ => rfl)
  rw [val_main_v73_apply, val_main_v70_apply, val_main_v72_apply, val_main_v71_apply]
  simp only [el, er, eb, Ideal.addf_def, NodeSpec.dense]

/-- The firm-to-firm message table: entry (r, j) is the specification's message row of node r. -/
theorem ref_msg_ff (r : Fin 50000) (j : Fin 128) :
    val_main_v73 (F := Ideal) x1 x15 x16 x17 x18 x23 x24 (ix2 r j) = NodeSpec.msg (fun k j => x15 (ix2 k j)) (fun j => x16 (ix1 j)) (fun k j => x17 (ix2 k j)) (fun j => x18 (ix1 j)) (fun k j => x23 (ix2 k j)) (fun j => x24 (ix1 j)) (fun k => x1 (ix2 r k)) j := by
  rw [fm_ff_dense]
  simp only [ref_firm_enc]
  rfl

/-! ## The neighbour averages, their normalised sum, and the output -/

/-- The neighbour average of a firm node over the event-to-firm relation. -/
theorem fm_avg1 (r : Fin 50000) (j : Fin 128) :
    val_main_v69 (F := Ideal) x0 x5 x6 x7 x11 x12 x13 x14 x21 x22 (ix2 r j)
      = NodeSpec.avg (fun k => val_main_v60 (F := Ideal) x0 x5 x6 x7 x11 x12 x13 x14 x21 x22 (ix2 r k)) (val_main_v64 (F := Ideal) x6 (ix1 r)) j := by
  have e : idx_main_v67 (idx_main_v68 (ix2 r j)) = ix1 r := funext fun a => Fin.ext (by match a with | ⟨0, _⟩ => rfl)
  rw [val_main_v69_apply, val_main_v68_apply, val_main_v67_apply, val_main_v66_apply, val_main_v65_apply, val_main_cst_9_apply, e]
  rfl

/-- The neighbour average of a firm node over the firm-to-firm relation. -/
theorem fm_avg2 (r : Fin 50000) (j : Fin 128) :
    val_main_v94 (F := Ideal) x1 x8 x9 x10 x15 x16 x17 x18 x23 x24 (ix2 r j)
      = NodeSpec.avg (fun k => val_main_v85 (F := Ideal) x1 x8 x9 x10 x15 x16 x17 x18 x23 x24 (ix2 r k)) (val_main_v89 (F := Ideal) x9 (ix1 r)) j := by
  have e : idx_main_v92 (idx_main_v93 (ix2 r j)) = ix1 r := funext fun a => Fin.ext (by match a with | ⟨0, _⟩ => rfl)
  rw [val_main_v94_apply, val_main_v93_apply, val_main_v92_apply, val_main_v91_apply, val_main_v90_apply, val_main_cst_15_apply, e]
  rfl

/-- The row mean as the host computes it: the row's sum from the zero initial value, kept as a column, over the width. -/
theorem fm_ln_mean (r : Fin 50000) (c : Fin 1) :
    val_main_v123 (F := Ideal) x0 x1 x5 x6 x7 x8 x9 x10 x11 x12 x13 x14 x15 x16 x17 x18 x21 x22 x23 x24 (ix2 r c) = NodeSpec.mean (fun k => val_main_v95 (F := Ideal) x0 x1 x5 x6 x7 x8 x9 x10 x11 x12 x13 x14 x15 x16 x17 x18 x21 x22 x23 x24 (ix2 r k)) := by
  have e : ∀ k, idx_main_v120 (idx_main_v121 (ix2 r c)) k = ix2 r k := fun k => funext fun a => Fin.ext (by match a with | ⟨0, _⟩ => rfl | ⟨1, _⟩ => rfl)
  rw [val_main_v123_apply, val_main_v121_apply, val_main_v120_apply, val_main_v122_apply, val_main_cst_22_apply, val_main_cst_21_apply]
  simp only [e, Ideal.hostDivf_def, Ideal.ofBits_def, Ideal.ofBits_zero_f32, zero_add]
  rfl

/-- The centred entry (the copy that is squared): the entry minus its row's mean. -/
theorem fm_ln_ctr (r : Fin 50000) (j : Fin 128) :
    val_main_v125 (F := Ideal) x0 x1 x5 x6 x7 x8 x9 x10 x11 x12 x13 x14 x15 x16 x17 x18 x21 x22 x23 x24 (ix2 r j) = val_main_v95 (F := Ideal) x0 x1 x5 x6 x7 x8 x9 x10 x11 x12 x13 x14 x15 x16 x17 x18 x21 x22 x23 x24 (ix2 r j) - NodeSpec.mean (fun k => val_main_v95 (F := Ideal) x0 x1 x5 x6 x7 x8 x9 x10 x11 x12 x13 x14 x15 x16 x17 x18 x21 x22 x23 x24 (ix2 r k)) := by
  have e : idx_main_v124 (ix2 r j) = ix2 r (0 : Fin 1) := funext fun a => Fin.ext (by match a with | ⟨0, _⟩ => rfl | ⟨1, _⟩ => rfl)
  rw [val_main_v125_apply, val_main_v124_apply, e, fm_ln_mean]
  rfl

/-- The centred entry (the copy that is scaled): the same difference. -/
theorem fm_ln_ctr2 (r : Fin 50000) (j : Fin 128) :
    val_main_v132 (F := Ideal) x0 x1 x5 x6 x7 x8 x9 x10 x11 x12 x13 x14 x15 x16 x17 x18 x21 x22 x23 x24 (ix2 r j) = val_main_v95 (F := Ideal) x0 x1 x5 x6 x7 x8 x9 x10 x11 x12 x13 x14 x15 x16 x17 x18 x21 x22 x23 x24 (ix2 r j) - NodeSpec.mean (fun k => val_main_v95 (F := Ideal) x0 x1 x5 x6 x7 x8 x9 x10 x11 x12 x13 x14 x15 x16 x17 x18 x21 x22 x23 x24 (ix2 r k)) := by
  have e : idx_main_v131 (ix2 r j) = ix2 r (0 : Fin 1) := funext fun a => Fin.ext (by match a with | ⟨0, _⟩ => rfl | ⟨1, _⟩ => rfl)
  rw [val_main_v132_apply, val_main_v131_apply, e, fm_ln_mean]
  rfl

/-- The row variance: the mean of the squared centred entries. -/
theorem fm_ln_var (r : Fin 50000) (c : Fin 1) :
    val_main_v130 (F := Ideal) x0 x1 x5 x6 x7 x8 x9 x10 x11 x12 x13 x14 x15 x16 x17 x18 x21 x22 x23 x24 (ix2 r c)
      = NodeSpec.mean (fun k => (val_main_v95 (F := Ideal) x0 x1 x5 x6 x7 x8 x9 x10 x11 x12 x13 x14 x15 x16 x17 x18 x21 x22 x23 x24 (ix2 r k) - NodeSpec.mean (fun k => val_main_v95 (F := Ideal) x0 x1 x5 x6 x7 x8 x9 x10 x11 x12 x13 x14 x15 x16 x17 x18 x21 x22 x23 x24 (ix2 r k))) * (val_main_v95 (F := Ideal) x0 x1 x5 x6 x7 x8 x9 x10 x11 x12 x13 x14 x15 x16 x17 x18 x21 x22 x23 x24 (ix2 r k) - NodeSpec.mean (fun k => val_main_v95 (F := Ideal) x0 x1 x5 x6 x7 x8 x9 x10 x11 x12 x13 x14 x15 x16 x17 x18 x21 x22 x23 x24 (ix2 r k)))) := by
  have e : ∀ k, idx_main_v127 (idx_main_v128 (ix2 r c)) k = ix2 r k := fun k => funext fun a => Fin.ext (by match a with | ⟨0, _⟩ => rfl | ⟨1, _⟩ => rfl)
  rw [val_main_v130_apply, val_main_v128_apply, val_main_v127_apply, val_main_v129_apply, val_main_cst_24_apply, val_main_cst_23_apply]
  simp only [e, val_main_v126_apply, fm_ln_ctr, Ideal.hostDivf_def, Ideal.mulf_def, Ideal.ofBits_def, Ideal.ofBits_zero_f32, zero_add]
  rfl

/-- Layer normalisation of the firm rows: entry (r, j) of the host's normalised matrix is the specification's
    normalisation of row r. -/
theorem fm_ln_out (r : Fin 50000) (j : Fin 128) :
    val_main_v143 (F := Ideal) x0 x1 x5 x6 x7 x8 x9 x10 x11 x12 x13 x14 x15 x16 x17 x18 x21 x22 x23 x24 x27 x28 (ix2 r j) = NodeSpec.lnorm (fun j => x27 (ix1 j)) (fun j => x28 (ix1 j)) (fun k => val_main_v95 (F := Ideal) x0 x1 x5 x6 x7 x8 x9 x10 x11 x12 x13 x14 x15 x16 x17 x18 x21 x22 x23 x24 (ix2 r k)) j := by
  have eg : idx_main_v138 (idx_main_v139 (ix2 r j)) = ix1 j := funext fun a => Fin.ext (by match a with | ⟨0, _⟩ => rfl)
  have eb : idx_main_v141 (idx_main_v142 (ix2 r j)) = ix1 j := funext fun a => Fin.ext (by match a with | ⟨0, _⟩ => rfl)
  have ers : idx_main_v136 (ix2 r j) = ix2 r (0 : Fin 1) := funext fun a => Fin.ext (by match a with | ⟨0, _⟩ => rfl | ⟨1, _⟩ => rfl)
  rw [val_main_v143_apply, val_main_v140_apply, val_main_v137_apply, val_main_v142_apply, val_main_v141_apply,
    val_main_v139_apply, val_main_v138_apply, val_main_v136_apply, val_main_v135_apply, val_main_v134_apply,
    val_main_v133_apply, val_main_cst_25_apply, eg, eb, ers, fm_ln_var, fm_ln_ctr2]
  rfl

/-- The firm output: a firm node's encoding plus the normalised sum of its two relations' averages. -/
theorem ref_firm_out (r : Fin 50000) (j : Fin 128) :
    val_main_v172 (F := Ideal) x0 x1 x5 x6 x7 x8 x9 x10 x11 x12 x13 x14 x15 x16 x17 x18 x21 x22 x23 x24 x27 x28 (ix2 r j) = NodeSpec.firmOut (fun j => x27 (ix1 j)) (fun j => x28 (ix1 j)) (fun k => val_main_v19 (F := Ideal) x1 x15 x16 x17 x18 (ix2 r k))
      (fun k => val_main_v60 (F := Ideal) x0 x5 x6 x7 x11 x12 x13 x14 x21 x22 (ix2 r k)) (val_main_v64 (F := Ideal) x6 (ix1 r)) (fun k => val_main_v85 (F := Ideal) x1 x8 x9 x10 x15 x16 x17 x18 x23 x24 (ix2 r k)) (val_main_v89 (F := Ideal) x9 (ix1 r)) j := by
  rw [val_main_v172_apply, fm_ln_out]
  simp only [val_main_v95_apply, fm_avg1, fm_avg2, Ideal.addf_def]
  rfl

end Cert.ReferenceIdeal.RefValue

end
-- ==== Proof.LibKeepdims.lean ====
/-
  A vector spread over a matrix, read at an entry.

  `broadcast_in_dim` places a vector along one axis of a matrix in two steps: first under a unit axis, then across
  that axis. A vector `v : [a]` sent to `[a, 1]` and then to `[a, b]` is constant along each row: entry `(i, j)` is
  `v i`. A vector `v : [b]` sent to `[1, b]` and then to `[a, b]` is constant along each column: entry `(i, j)` is
  `v j`. A scalar constant sent to any shape reads the constant everywhere.
-/
import Idealize.ShloMosaic.Lib.ValueIdx
import Idealize.ShloMosaic.Lib.Pipeline.Value

noncomputable section

namespace Idealize.ShloMosaic.Keepdims

open Idealize.ShloMosaic Idealize.ShloMosaic.ValueIdx

variable {α : Type}

/-- A vector of row values spread across the columns: entry `(i, j)` is the row's value. -/
theorem rows_apply {a b : Nat} (h1 : (⟨1, ![a]⟩ : Shape).BroadcastsInDim ⟨2, ![a, 1]⟩ ![0])
    (h2 : (⟨2, ![a, 1]⟩ : Shape).BroadcastsInDim ⟨2, ![a, b]⟩ ![0, 1]) (v : (⟨1, ![a]⟩ : Shape).Idx → α)
    (i : Fin a) (j : Fin b) :
    broadcastInDim (⟨2, ![a, b]⟩ : Shape) ![0, 1] h2 (broadcastInDim (⟨2, ![a, 1]⟩ : Shape) ![0] h1 v) (ix2 i j) = v (ix1 i) := by
  refine (broadcastInDim_apply _ h2 _ (ix2 i j) (ix2 i (0 : Fin 1)) (fun x => ?_)).trans
    (broadcastInDim_apply _ h1 v (ix2 i (0 : Fin 1)) (ix1 i) (fun x => ?_))
  · match x with
    | ⟨0, _⟩ =>
      show i.val = if a = 1 then 0 else i.val
      split_ifs with h
      · have := i.isLt; omega
      · rfl
    | ⟨1, _⟩ =>
      show 0 = if (1 : Nat) = 1 then 0 else j.val
      rw [if_pos rfl]
  · match x with
    | ⟨0, _⟩ =>
      show i.val = if a = 1 then 0 else i.val
      split_ifs with h
      · have := i.isLt; omega
      · rfl

/-- A vector of column values spread down the rows: entry `(i, j)` is the column's value. -/
theorem cols_apply {a b : Nat} (h1 : (⟨1, ![b]⟩ : Shape).BroadcastsInDim ⟨2, ![1, b]⟩ ![1])
    (h2 : (⟨2, ![1, b]⟩ : Shape).BroadcastsInDim ⟨2, ![a, b]⟩ ![0, 1]) (v : (⟨1, ![b]⟩ : Shape).Idx → α)
    (i : Fin a) (j : Fin b) :
    broadcastInDim (⟨2, ![a, b]⟩ : Shape) ![0, 1] h2 (broadcastInDim (⟨2, ![1, b]⟩ : Shape) ![1] h1 v) (ix2 i j) = v (ix1 j) := by
  refine (broadcastInDim_apply _ h2 _ (ix2 i j) (ix2 (0 : Fin 1) j) (fun x => ?_)).trans
    (broadcastInDim_apply _ h1 v (ix2 (0 : Fin 1) j) (ix1 j) (fun x => ?_))
  · match x with
    | ⟨0, _⟩ =>
      show 0 = if (1 : Nat) = 1 then 0 else i.val
      rw [if_pos rfl]
    | ⟨1, _⟩ =>
      show j.val = if b = 1 then 0 else j.val
      split_ifs with h
      · have := j.isLt; omega
      · rfl
  · match x with
    | ⟨0, _⟩ =>
      show j.val = if b = 1 then 0 else j.val
      split_ifs with h
      · have := j.isLt; omega
      · rfl

/-- A vector stood up as a one-column matrix: entry `(i, 0)` is the vector's entry `i`. -/
theorem column_apply {a : Nat} (h1 : (⟨1, ![a]⟩ : Shape).BroadcastsInDim ⟨2, ![a, 1]⟩ ![0])
    (v : (⟨1, ![a]⟩ : Shape).Idx → α) (i : Fin a) :
    broadcastInDim (⟨2, ![a, 1]⟩ : Shape) ![0] h1 v (ix2 i (0 : Fin 1)) = v (ix1 i) := by
  refine broadcastInDim_apply _ h1 v (ix2 i (0 : Fin 1)) (ix1 i) (fun x => ?_)
  match x with
  | ⟨0, _⟩ =>
    show i.val = if a = 1 then 0 else i.val
    split_ifs with h
    · have := i.isLt; omega
    · rfl

end Idealize.ShloMosaic.Keepdims

end
-- ==== Proof.Bridge.lean ====
/-
  The kernel's four results are the reference's.

  Each region's output array is a row function of the arrays the region finds (one module per region); what it
  finds is read by walking the boundary contents back to the launch memory, an earlier region's output, or the
  edge stage's host operations. The reference's stages are the same row functions of the same arguments. The edge
  stage — gather a message table's rows along the edges, weight, sum and count per target node — is the same
  host operations in both programs (the kernel's table merely passes through a narrower float format, the identity
  here), so equal tables give equal sums. The prediction and the gate are columns 0 and 1 of the packed slab.
-/
import proofs.«181421_j6158983102955_2_alg».proof.Proof.BoundaryWalk
import proofs.«181421_j6158983102955_2_alg».proof.Proof.EncoderValues
import proofs.«181421_j6158983102955_2_alg».proof.Proof.EventPostArrays
import proofs.«181421_j6158983102955_2_alg».proof.Proof.FirmPostArrays
import proofs.«181421_j6158983102955_2_alg».proof.Proof.RefEvent
import proofs.«181421_j6158983102955_2_alg».proof.Proof.RefFirm
import proofs.«181421_j6158983102955_2_alg».proof.Proof.Gen.ReferenceIdeal.Read
import proofs.«181421_j6158983102955_2_alg».proof.Proof.LibKeepdims
import proofs.«181421_j6158983102955_2_alg».proof.Proof.NodeSpec
import Idealize.ShloMosaic.Lib.ValueIdx
import Idealize.ShloMosaic.Lib.Pipeline.Value

set_option maxRecDepth 16384

noncomputable section

namespace Cert.KernelIdeal.Bridge

open Cert.KernelIdeal Cert.KernelIdeal.Gen Cert.KernelIdeal.RunValue
open Idealize.ShloMosaic Idealize.ShloMosaic.ValueIdx Idealize.ShloMosaic.TcCoe Idealize.SL.Sem

variable (m : (ℓ : Loc nD τ sig) → Buf (Elt Ideal) ℓ) (ρ : Dev nD → PrngReg)

/-! ## The launch memory's arguments -/

/-- Argument 0 of the launch memory on device c, at the reference's type. -/
abbrev x0 (c : Dev nD) : (⟨Cert.ReferenceIdeal.S200000x64, .f32⟩ : BufTy).Contents (Elt Ideal) := m ((c : Thread nD τ).loc main_arg0)
/-- Argument 1 of the launch memory on device c, at the reference's type. -/
abbrev x1 (c : Dev nD) : (⟨Cert.ReferenceIdeal.S50000x128, .f32⟩ : BufTy).Contents (Elt Ideal) := m ((c : Thread nD τ).loc main_arg1)
/-- Argument 2 of the launch memory on device c, at the reference's type. -/
abbrev x2 (c : Dev nD) : (⟨Cert.ReferenceIdeal.S400000, .i32⟩ : BufTy).Contents (Elt Ideal) := m ((c : Thread nD τ).loc main_arg2)
/-- Argument 3 of the launch memory on device c, at the reference's type. -/
abbrev x3 (c : Dev nD) : (⟨Cert.ReferenceIdeal.S400000, .i32⟩ : BufTy).Contents (Elt Ideal) := m ((c : Thread nD τ).loc main_arg3)
/-- Argument 4 of the launch memory on device c, at the reference's type. -/
abbrev x4 (c : Dev nD) : (⟨Cert.ReferenceIdeal.S400000x1, .f32⟩ : BufTy).Contents (Elt Ideal) := m ((c : Thread nD τ).loc main_arg4)
/-- Argument 5 of the launch memory on device c, at the reference's type. -/
abbrev x5 (c : Dev nD) : (⟨Cert.ReferenceIdeal.S400000, .i32⟩ : BufTy).Contents (Elt Ideal) := m ((c : Thread nD τ).loc main_arg5)
/-- Argument 6 of the launch memory on device c, at the reference's type. -/
abbrev x6 (c : Dev nD) : (⟨Cert.ReferenceIdeal.S400000, .i32⟩ : BufTy).Contents (Elt Ideal) := m ((c : Thread nD τ).loc main_arg6)
/-- Argument 7 of the launch memory on device c, at the reference's type. -/
abbrev x7 (c : Dev nD) : (⟨Cert.ReferenceIdeal.S400000x1, .f32⟩ : BufTy).Contents (Elt Ideal) := m ((c : Thread nD τ).loc main_arg7)
/-- Argument 8 of the launch memory on device c, at the reference's type. -/
abbrev x8 (c : Dev nD) : (⟨Cert.ReferenceIdeal.S800000, .i32⟩ : BufTy).Contents (Elt Ideal) := m ((c : Thread nD τ).loc main_arg8)
/-- Argument 9 of the launch memory on device c, at the reference's type. -/
abbrev x9 (c : Dev nD) : (⟨Cert.ReferenceIdeal.S800000, .i32⟩ : BufTy).Contents (Elt Ideal) := m ((c : Thread nD τ).loc main_arg9)
/-- Argument 10 of the launch memory on device c, at the reference's type. -/
abbrev x10 (c : Dev nD) : (⟨Cert.ReferenceIdeal.S800000x1, .f32⟩ : BufTy).Contents (Elt Ideal) := m ((c : Thread nD τ).loc main_arg10)
/-- Argument 11 of the launch memory on device c, at the reference's type. -/
abbrev x11 (c : Dev nD) : (⟨Cert.ReferenceIdeal.S64x128, .f32⟩ : BufTy).Contents (Elt Ideal) := m ((c : Thread nD τ).loc main_arg11)
/-- Argument 12 of the launch memory on device c, at the reference's type. -/
abbrev x12 (c : Dev nD) : (⟨Cert.ReferenceIdeal.S128, .f32⟩ : BufTy).Contents (Elt Ideal) := m ((c : Thread nD τ).loc main_arg12)
/-- Argument 13 of the launch memory on device c, at the reference's type. -/
abbrev x13 (c : Dev nD) : (⟨Cert.ReferenceIdeal.S128x128, .f32⟩ : BufTy).Contents (Elt Ideal) := m ((c : Thread nD τ).loc main_arg13)
/-- Argument 14 of the launch memory on device c, at the reference's type. -/
abbrev x14 (c : Dev nD) : (⟨Cert.ReferenceIdeal.S128, .f32⟩ : BufTy).Contents (Elt Ideal) := m ((c : Thread nD τ).loc main_arg14)
/-- Argument 15 of the launch memory on device c, at the reference's type. -/
abbrev x15 (c : Dev nD) : (⟨Cert.ReferenceIdeal.S128x128, .f32⟩ : BufTy).Contents (Elt Ideal) := m ((c : Thread nD τ).loc main_arg15)
/-- Argument 16 of the launch memory on device c, at the reference's type. -/
abbrev x16 (c : Dev nD) : (⟨Cert.ReferenceIdeal.S128, .f32⟩ : BufTy).Contents (Elt Ideal) := m ((c : Thread nD τ).loc main_arg16)
/-- Argument 17 of the launch memory on device c, at the reference's type. -/
abbrev x17 (c : Dev nD) : (⟨Cert.ReferenceIdeal.S128x128, .f32⟩ : BufTy).Contents (Elt Ideal) := m ((c : Thread nD τ).loc main_arg17)
/-- Argument 18 of the launch memory on device c, at the reference's type. -/
abbrev x18 (c : Dev nD) : (⟨Cert.ReferenceIdeal.S128, .f32⟩ : BufTy).Contents (Elt Ideal) := m ((c : Thread nD τ).loc main_arg18)
/-- Argument 19 of the launch memory on device c, at the reference's type. -/
abbrev x19 (c : Dev nD) : (⟨Cert.ReferenceIdeal.S128x128, .f32⟩ : BufTy).Contents (Elt Ideal) := m ((c : Thread nD τ).loc main_arg19)
/-- Argument 20 of the launch memory on device c, at the reference's type. -/
abbrev x20 (c : Dev nD) : (⟨Cert.ReferenceIdeal.S128, .f32⟩ : BufTy).Contents (Elt Ideal) := m ((c : Thread nD τ).loc main_arg20)
/-- Argument 21 of the launch memory on device c, at the reference's type. -/
abbrev x21 (c : Dev nD) : (⟨Cert.ReferenceIdeal.S128x128, .f32⟩ : BufTy).Contents (Elt Ideal) := m ((c : Thread nD τ).loc main_arg21)
/-- Argument 22 of the launch memory on device c, at the reference's type. -/
abbrev x22 (c : Dev nD) : (⟨Cert.ReferenceIdeal.S128, .f32⟩ : BufTy).Contents (Elt Ideal) := m ((c : Thread nD τ).loc main_arg22)
/-- Argument 23 of the launch memory on device c, at the reference's type. -/
abbrev x23 (c : Dev nD) : (⟨Cert.ReferenceIdeal.S128x128, .f32⟩ : BufTy).Contents (Elt Ideal) := m ((c : Thread nD τ).loc main_arg23)
/-- Argument 24 of the launch memory on device c, at the reference's type. -/
abbrev x24 (c : Dev nD) : (⟨Cert.ReferenceIdeal.S128, .f32⟩ : BufTy).Contents (Elt Ideal) := m ((c : Thread nD τ).loc main_arg24)
/-- Argument 25 of the launch memory on device c, at the reference's type. -/
abbrev x25 (c : Dev nD) : (⟨Cert.ReferenceIdeal.S128, .f32⟩ : BufTy).Contents (Elt Ideal) := m ((c : Thread nD τ).loc main_arg25)
/-- Argument 26 of the launch memory on device c, at the reference's type. -/
abbrev x26 (c : Dev nD) : (⟨Cert.ReferenceIdeal.S128, .f32⟩ : BufTy).Contents (Elt Ideal) := m ((c : Thread nD τ).loc main_arg26)
/-- Argument 27 of the launch memory on device c, at the reference's type. -/
abbrev x27 (c : Dev nD) : (⟨Cert.ReferenceIdeal.S128, .f32⟩ : BufTy).Contents (Elt Ideal) := m ((c : Thread nD τ).loc main_arg27)
/-- Argument 28 of the launch memory on device c, at the reference's type. -/
abbrev x28 (c : Dev nD) : (⟨Cert.ReferenceIdeal.S128, .f32⟩ : BufTy).Contents (Elt Ideal) := m ((c : Thread nD τ).loc main_arg28)
/-- Argument 29 of the launch memory on device c, at the reference's type. -/
abbrev x29 (c : Dev nD) : (⟨Cert.ReferenceIdeal.S128x32, .f32⟩ : BufTy).Contents (Elt Ideal) := m ((c : Thread nD τ).loc main_arg29)
/-- Argument 30 of the launch memory on device c, at the reference's type. -/
abbrev x30 (c : Dev nD) : (⟨Cert.ReferenceIdeal.S32, .f32⟩ : BufTy).Contents (Elt Ideal) := m ((c : Thread nD τ).loc main_arg30)
/-- Argument 31 of the launch memory on device c, at the reference's type. -/
abbrev x31 (c : Dev nD) : (⟨Cert.ReferenceIdeal.S32x1, .f32⟩ : BufTy).Contents (Elt Ideal) := m ((c : Thread nD τ).loc main_arg31)
/-- Argument 32 of the launch memory on device c, at the reference's type. -/
abbrev x32 (c : Dev nD) : (⟨Cert.ReferenceIdeal.S1, .f32⟩ : BufTy).Contents (Elt Ideal) := m ((c : Thread nD τ).loc main_arg32)
/-- Argument 33 of the launch memory on device c, at the reference's type. -/
abbrev x33 (c : Dev nD) : (⟨Cert.ReferenceIdeal.S128x1, .f32⟩ : BufTy).Contents (Elt Ideal) := m ((c : Thread nD τ).loc main_arg33)
/-- Argument 34 of the launch memory on device c, at the reference's type. -/
abbrev x34 (c : Dev nD) : (⟨Cert.ReferenceIdeal.S1, .f32⟩ : BufTy).Contents (Elt Ideal) := m ((c : Thread nD τ).loc main_arg34)

/-! ## The edge stage -/

/-- Relation re's message table, as the encoder region leaves it, is the reference's. -/
theorem table_re (c : Dev nD) : (dat1 (F := Ideal) (V3 m ρ) c).arrAt 10 cfg1.N = Cert.ReferenceIdeal.Read.val_main_v23 (F := Ideal) (x1 m c) (x15 m c) (x16 m c) (x17 m c) (x18 m c) (x19 m c) (x20 m c) := by
  rw [EncoderValues.firm_msg_re_m m ρ c]
  funext i
  obtain ⟨r, j, rfl⟩ : ∃ (r : Fin 50000) (j : Fin 128), i = ix2 r j := ⟨i 0, i 1, eq_ix2 i⟩
  exact (Cert.ReferenceIdeal.RefValue.ref_msg_re _ _ _ _ _ _ _ r j).symm

/-- Relation re's summed messages are the reference's: the same host operations on the same table. -/
theorem sum_re_eq (c : Dev nD) : W5 m ρ c (Proc.devRef .tc main_v21) = Cert.ReferenceIdeal.Read.val_main_v35 (F := Ideal) (x1 m c) (x2 m c) (x3 m c) (x4 m c) (x15 m c) (x16 m c) (x17 m c) (x18 m c) (x19 m c) (x20 m c) := by
  rw [sum_re m ρ c, table_re m ρ c]
  rfl

/-- Relation re's edge count at a target node. -/
theorem cnt_re_eq (c : Dev nD) (r : Fin 200000) :
    W5 m ρ c (Proc.devRef .tc main_v26) (ix2 r (0 : Fin 1)) = Cert.ReferenceIdeal.Read.val_main_v39 (F := Ideal) (x3 m c) (ix1 r) := by
  rw [cnt_re m ρ c]
  exact Keepdims.column_apply _ _ r

/-- Relation ef's message table, as the encoder region leaves it, is the reference's. -/
theorem table_ef (c : Dev nD) : (dat0 (F := Ideal) (V1 m ρ) c).arrAt 8 cfg0.N = Cert.ReferenceIdeal.Read.val_main_v48 (F := Ideal) (x0 m c) (x11 m c) (x12 m c) (x13 m c) (x14 m c) (x21 m c) (x22 m c) := by
  rw [EncoderValues.event_msg_m m ρ c]
  funext i
  obtain ⟨r, j, rfl⟩ : ∃ (r : Fin 200000) (j : Fin 128), i = ix2 r j := ⟨i 0, i 1, eq_ix2 i⟩
  exact (Cert.ReferenceIdeal.RefValue.ref_msg_ef _ _ _ _ _ _ _ r j).symm

/-- Relation ef's summed messages are the reference's: the same host operations on the same table. -/
theorem sum_ef_eq (c : Dev nD) : W5 m ρ c (Proc.devRef .tc main_v39) = Cert.ReferenceIdeal.Read.val_main_v60 (F := Ideal) (x0 m c) (x5 m c) (x6 m c) (x7 m c) (x11 m c) (x12 m c) (x13 m c) (x14 m c) (x21 m c) (x22 m c) := by
  rw [sum_ef m ρ c, table_ef m ρ c]
  rfl

/-- Relation ef's edge count at a target node. -/
theorem cnt_ef_eq (c : Dev nD) (r : Fin 50000) :
    W5 m ρ c (Proc.devRef .tc main_v44) (ix2 r (0 : Fin 1)) = Cert.ReferenceIdeal.Read.val_main_v64 (F := Ideal) (x6 m c) (ix1 r) := by
  rw [cnt_ef m ρ c]
  exact Keepdims.column_apply _ _ r

/-- Relation ff's message table, as the encoder region leaves it, is the reference's. -/
theorem table_ff (c : Dev nD) : (dat1 (F := Ideal) (V3 m ρ) c).arrAt 11 cfg1.N = Cert.ReferenceIdeal.Read.val_main_v73 (F := Ideal) (x1 m c) (x15 m c) (x16 m c) (x17 m c) (x18 m c) (x23 m c) (x24 m c) := by
  rw [EncoderValues.firm_msg_ff_m m ρ c]
  funext i
  obtain ⟨r, j, rfl⟩ : ∃ (r : Fin 50000) (j : Fin 128), i = ix2 r j := ⟨i 0, i 1, eq_ix2 i⟩
  exact (Cert.ReferenceIdeal.RefValue.ref_msg_ff _ _ _ _ _ _ _ r j).symm

/-- Relation ff's summed messages are the reference's: the same host operations on the same table. -/
theorem sum_ff_eq (c : Dev nD) : W5 m ρ c (Proc.devRef .tc main_v57) = Cert.ReferenceIdeal.Read.val_main_v85 (F := Ideal) (x1 m c) (x8 m c) (x9 m c) (x10 m c) (x15 m c) (x16 m c) (x17 m c) (x18 m c) (x23 m c) (x24 m c) := by
  rw [sum_ff m ρ c, table_ff m ρ c]
  rfl

/-- Relation ff's edge count at a target node. -/
theorem cnt_ff_eq (c : Dev nD) (r : Fin 50000) :
    W5 m ρ c (Proc.devRef .tc main_v62) (ix2 r (0 : Fin 1)) = Cert.ReferenceIdeal.Read.val_main_v89 (F := Ideal) (x9 m c) (ix1 r) := by
  rw [cnt_ff m ρ c]
  exact Keepdims.column_apply _ _ r

/-- The event nodes' encodings, as the first region leaves them, are the reference's. -/
theorem enc_event_eq (c : Dev nD) : (dat0 (F := Ideal) (V1 m ρ) c).arrAt 7 cfg0.N = Cert.ReferenceIdeal.Read.val_main_v9 (F := Ideal) (x0 m c) (x11 m c) (x12 m c) (x13 m c) (x14 m c) := by
  rw [EncoderValues.event_enc_m m ρ c]
  funext i
  obtain ⟨r, j, rfl⟩ : ∃ (r : Fin 200000) (j : Fin 128), i = ix2 r j := ⟨i 0, i 1, eq_ix2 i⟩
  exact (Cert.ReferenceIdeal.RefValue.ref_event_enc _ _ _ _ _ r j).symm

/-- The firm nodes' encodings, as the second region leaves them, are the reference's. -/
theorem enc_firm_eq (c : Dev nD) : (dat1 (F := Ideal) (V3 m ρ) c).arrAt 9 cfg1.N = Cert.ReferenceIdeal.Read.val_main_v19 (F := Ideal) (x1 m c) (x15 m c) (x16 m c) (x17 m c) (x18 m c) := by
  rw [EncoderValues.firm_enc_m m ρ c]
  funext i
  obtain ⟨r, j, rfl⟩ : ∃ (r : Fin 50000) (j : Fin 128), i = ix2 r j := ⟨i 0, i 1, eq_ix2 i⟩
  exact (Cert.ReferenceIdeal.RefValue.ref_firm_enc _ _ _ _ _ r j).symm

/-! ## Congruences of the row functions -/

theorem eventMix_congr {g g' b b' : Fin 128 → EReal} {gw1 gw1' : Fin 128 → Fin 32 → EReal} {gb1 gb1' : Fin 32 → EReal}
    {gw2 gw2' : Fin 32 → Fin 1 → EReal} {gb2 gb2' : Fin 1 → EReal} {h h' s s' : Fin 128 → EReal} {n n' : EReal}
    (e1 : g = g') (e2 : b = b') (e3 : gw1 = gw1') (e4 : gb1 = gb1') (e5 : gw2 = gw2') (e6 : gb2 = gb2') (e7 : h = h') (e8 : s = s')
    (e9 : n = n') (j : Fin 128) :
    NodeSpec.eventMix g b gw1 gb1 gw2 gb2 h s n j = NodeSpec.eventMix g' b' gw1' gb1' gw2' gb2' h' s' n' j := by
  subst e1 e2 e3 e4 e5 e6 e7 e8 e9; rfl

theorem gate_congr {gw1 gw1' : Fin 128 → Fin 32 → EReal} {gb1 gb1' : Fin 32 → EReal}
    {gw2 gw2' : Fin 32 → Fin 1 → EReal} {gb2 gb2' : Fin 1 → EReal} {h h' : Fin 128 → EReal}
    (e3 : gw1 = gw1') (e4 : gb1 = gb1') (e5 : gw2 = gw2') (e6 : gb2 = gb2') (e7 : h = h') :
    NodeSpec.gate gw1 gb1 gw2 gb2 h = NodeSpec.gate gw1' gb1' gw2' gb2' h' := by
  subst e3 e4 e5 e6 e7; rfl

theorem head_congr {hw hw' : Fin 128 → Fin 1 → EReal} {hb hb' : Fin 1 → EReal} {x x' : Fin 128 → EReal}
    (e1 : hw = hw') (e2 : hb = hb') (e3 : x = x') : NodeSpec.head hw hb x = NodeSpec.head hw' hb' x' := by
  subst e1 e2 e3; rfl

theorem firmOut_congr {g g' b b' h h' s1 s1' s2 s2' : Fin 128 → EReal} {c1 c1' c2 c2' : EReal}
    (e1 : g = g') (e2 : b = b') (e3 : h = h') (e4 : s1 = s1') (e5 : c1 = c1') (e6 : s2 = s2') (e7 : c2 = c2') (j : Fin 128) :
    NodeSpec.firmOut g b h s1 c1 s2 c2 j = NodeSpec.firmOut g' b' h' s1' c1' s2' c2' j := by
  subst e1 e2 e3 e4 e5 e6 e7; rfl

/-- An [a, 1] column cast to a vector reads at i the column's entry (i, 0). -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    first
      | (show i.val * 1 + 0 = i.val; omega)
      | (show i.val = i.val * 1 + 0; omega))

/-! ## The event nodes -/

/-- The mixed row of an event node is the reference's: the same row function of the same encodings, summed
    messages, count and weights. -/
theorem mixRow_eq (c : Dev nD) (r : Fin 200000) (j : Fin 128) :
    EventPostArrays.mixRow (V5 m ρ) c r j = Cert.ReferenceIdeal.Read.val_main_v165 (F := Ideal) (x0 m c) (x1 m c) (x2 m c) (x3 m c) (x4 m c) (x11 m c) (x12 m c) (x13 m c) (x14 m c) (x15 m c) (x16 m c) (x17 m c) (x18 m c) (x19 m c) (x20 m c) (x25 m c) (x26 m c) (x29 m c) (x30 m c) (x31 m c) (x32 m c) (ix2 r j) := by
  rw [Cert.ReferenceIdeal.RefValue.ref_event_mix]
  unfold EventPostArrays.mixRow
  refine eventMix_congr (funext fun j => row_main_v63 m ρ c j) (funext fun j => row_main_v64 m ρ c j)
    (funext fun k => funext fun j => congrFun (at5_main_arg29 m ρ c) (ix2 k j)) (funext fun j => row_main_v65 m ρ c j)
    (funext fun k => funext fun j => congrFun (at5_main_arg31 m ρ c) (ix2 k j)) (funext fun j => row_main_v66 m ρ c j)
    (funext fun k => ?_) (funext fun k => ?_) (cnt_re_eq m ρ c r) j
  · exact congrFun ((at5_main_v3_0 m ρ c).trans (enc_event_eq m ρ c)) (ix2 r k)
  · exact congrFun (sum_re_eq m ρ c) (ix2 r k)

/-- The mixed rows, as the third region leaves them, are the reference's. -/
theorem mix_eq (c : Dev nD) : W9 m ρ c (Proc.devRef .tc main_v68_1) = Cert.ReferenceIdeal.Read.val_main_v165 (F := Ideal) (x0 m c) (x1 m c) (x2 m c) (x3 m c) (x4 m c) (x11 m c) (x12 m c) (x13 m c) (x14 m c) (x15 m c) (x16 m c) (x17 m c) (x18 m c) (x19 m c) (x20 m c) (x25 m c) (x26 m c) (x29 m c) (x30 m c) (x31 m c) (x32 m c) := by
  rw [at9_main_v68_1 m ρ c, EventPostArrays.event_mix (V5 m ρ) c]
  funext i
  obtain ⟨r, j, rfl⟩ : ∃ (r : Fin 200000) (j : Fin 128), i = ix2 r j := ⟨i 0, i 1, eq_ix2 i⟩
  exact mixRow_eq m ρ c r j

/-- The gate, column 1 of the packed slab, is the reference's. -/
theorem alpha_eq (c : Dev nD) : W9 m ρ c (Proc.devRef .tc main_v74) = Cert.ReferenceIdeal.Read.val_main_v158 (F := Ideal) (x0 m c) (x11 m c) (x12 m c) (x13 m c) (x14 m c) (x29 m c) (x30 m c) (x31 m c) (x32 m c) := by
  rw [out_alpha m ρ c]
  funext i
  obtain ⟨r, rfl⟩ : ∃ r : Fin 200000, i = ix2 r (0 : Fin 1) :=
    ⟨i 0, (eq_ix2 i).trans (congrArg (ix2 (i 0)) (Fin.ext (Nat.lt_one_iff.mp (i 1).isLt)))⟩
  refine (extractStridedSlice_apply _ _ _ _ (ix2 r (1 : Fin 128)) (fun a => ?_)).trans ?_
  · match a with
    | ⟨0, _⟩ => show r.val = 0 + r.val; omega
    | ⟨1, _⟩ => rfl
  rw [EventPostArrays.event_gate (V5 m ρ) c r, Cert.ReferenceIdeal.RefValue.ref_event_gate]
  refine gate_congr (funext fun k => funext fun j => congrFun (at5_main_arg29 m ρ c) (ix2 k j)) (funext fun j => row_main_v65 m ρ c j)
    (funext fun k => funext fun j => congrFun (at5_main_arg31 m ρ c) (ix2 k j)) (funext fun j => row_main_v66 m ρ c j)
    (funext fun k => congrFun ((at5_main_v3_0 m ρ c).trans (enc_event_eq m ρ c)) (ix2 r k))

/-- The prediction, column 0 of the packed slab, is the reference's. -/
theorem y_eq (c : Dev nD) : W9 m ρ c (Proc.devRef .tc main_v73) = Cert.ReferenceIdeal.Read.val_main_v171 (F := Ideal) (x0 m c) (x1 m c) (x2 m c) (x3 m c) (x4 m c) (x11 m c) (x12 m c) (x13 m c) (x14 m c) (x15 m c) (x16 m c) (x17 m c) (x18 m c) (x19 m c) (x20 m c) (x25 m c) (x26 m c) (x29 m c) (x30 m c) (x31 m c) (x32 m c) (x33 m c) (x34 m c) := by
  rw [out_y m ρ c]
  funext i
  obtain ⟨r, rfl⟩ : ∃ r : Fin 200000, i = ix1 r := ⟨i 0, eq_ix1 i⟩
  refine (shapeCast_a1_a_apply _ _ r).trans ?_
  refine (extractStridedSlice_apply _ _ _ _ (ix2 r (0 : Fin 128)) (fun a => ?_)).trans ?_
  · match a with
    | ⟨0, _⟩ => show r.val = 0 + r.val; omega
    | ⟨1, _⟩ => rfl
  rw [EventPostArrays.event_head (V5 m ρ) c r, Cert.ReferenceIdeal.RefValue.ref_event_head]
  exact head_congr (funext fun k => funext fun j => congrFun (at5_main_arg33 m ρ c) (ix2 k j)) (funext fun j => row_main_v67 m ρ c j)
    (funext fun j => mixRow_eq m ρ c r j)

/-! ## The firm nodes -/

/-- The firm nodes' outputs, as the fourth region leaves them, are the reference's. -/
theorem firm_eq (c : Dev nD) : W9 m ρ c (Proc.devRef .tc main_v71) = Cert.ReferenceIdeal.Read.val_main_v172 (F := Ideal) (x0 m c) (x1 m c) (x5 m c) (x6 m c) (x7 m c) (x8 m c) (x9 m c) (x10 m c) (x11 m c) (x12 m c) (x13 m c) (x14 m c) (x15 m c) (x16 m c) (x17 m c) (x18 m c) (x21 m c) (x22 m c) (x23 m c) (x24 m c) (x27 m c) (x28 m c) := by
  rw [at9_main_v71 m ρ c, FirmPostArrays.firm_out (V7 m ρ) c]
  funext i
  obtain ⟨r, j, rfl⟩ : ∃ (r : Fin 50000) (j : Fin 128), i = ix2 r j := ⟨i 0, i 1, eq_ix2 i⟩
  rw [Cert.ReferenceIdeal.RefValue.ref_firm_out]
  refine firmOut_congr (funext fun j => row_main_v69 m ρ c j) (funext fun j => row_main_v70 m ρ c j)
    (funext fun k => congrFun ((at7_main_v8_0 m ρ c).trans (enc_firm_eq m ρ c)) (ix2 r k))
    (funext fun k => congrFun ((at7_main_v39 m ρ c).trans (sum_ef_eq m ρ c)) (ix2 r k))
    ((congrFun (at7_main_v44 m ρ c) (ix2 r (0 : Fin 1))).trans (cnt_ef_eq m ρ c r))
    (funext fun k => congrFun ((at7_main_v57 m ρ c).trans (sum_ff_eq m ρ c)) (ix2 r k))
    ((congrFun (at7_main_v62 m ρ c) (ix2 r (0 : Fin 1))).trans (cnt_ff_eq m ρ c r)) j

end Cert.KernelIdeal.Bridge

end
-- ==== Proof.lean ====
/-
  The five claims of this certificate.

  Both programs compute, for a graph of event and firm nodes, an encoding of every node (two dense layers with a
  rectifier), per relation a message table (one more dense layer), the messages gathered along the edges, weighted,
  summed and counted per target node, and per node type a layer-normalised neighbour average combined with the
  node's own encoding: for an event node through a learned gate, with a prediction head on the rectified mix; for a
  firm node by addition. The kernel does the dense stages in four row-tiled pipelined regions and the edge stage
  in host operations between them; the reference is host operations throughout. At the ideal instance a change of
  float format is the identity and every operation is exact, the two programs apply the same operations in the
  same order to the same rows, and a row-tiled region computes each row from that row alone, so the results agree
  entry by entry with no assumption on the inputs.

  The three frames are the generated ones; the idealisation rewrote nothing; the value claim is the bridge.
-/
import proofs.«181421_j6158983102955_2_alg».proof.Defs
import proofs.«181421_j6158983102955_2_alg».proof.Proof.Gen.Kernel
import proofs.«181421_j6158983102955_2_alg».proof.Proof.Gen.Kernel.Frame
import proofs.«181421_j6158983102955_2_alg».proof.Proof.Gen.KernelIdeal
import proofs.«181421_j6158983102955_2_alg».proof.Proof.Gen.KernelIdeal.Frame
import proofs.«181421_j6158983102955_2_alg».proof.Proof.Gen.ReferenceIdeal
import proofs.«181421_j6158983102955_2_alg».proof.Proof.Gen.Pre_finite_inputs
import proofs.«181421_j6158983102955_2_alg».proof.Proof.Gen.ReferenceIdeal.Run
import proofs.«181421_j6158983102955_2_alg».proof.Proof.Gen.ReferenceIdeal.Read
import proofs.«181421_j6158983102955_2_alg».proof.Proof.KernelRun
import proofs.«181421_j6158983102955_2_alg».proof.Proof.Bridge
import Idealize.ShloMosaic.Adequacy
import Idealize.ShloMosaic.Init

set_option maxRecDepth 16384

noncomputable section

namespace Cert.Proof

open Idealize.ShloMosaic Idealize.SL.Sem

section Claims
variable [hKernel : Cert.Kernel.Facts] [hKernelIdeal : Cert.KernelIdeal.Facts] [hReferenceIdeal : Cert.ReferenceIdeal.Facts]
  [hPre_finite_inputs : Cert.Pre_finite_inputs.Facts]

theorem frame_kernel : Cert.frame_Kernel := fun m ρ _ => Cert.Kernel.Gen.frame m ρ
theorem frame_kernelIdeal : Cert.frame_KernelIdeal := fun m ρ _ => Cert.KernelIdeal.Gen.frame m ρ
/-- The reference's frame is its run with the results dropped. -/
theorem frame_reference : Cert.frame_ReferenceIdeal := fun m ρ _ =>
  (θ_run Cert.ReferenceIdeal.defs _ _).mono (fun _ h c => (h c).2.2.2.2) (Cert.ReferenceIdeal.Value.run (F := Ideal) m ρ)

set_option maxHeartbeats 4000000 in  -- thirty-five argument arrays are rewritten in each of the four results
/-- From memories agreeing on the arguments both programs end with the reference's values of those arguments. -/
theorem algebraic : Cert.algebraic_KernelIdeal_ReferenceIdeal := by
  intro m ρ m' ρ' _ hagree
  refine ⟨fun c => Cert.ReferenceIdeal.Read.val_main_v171 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)),
    fun c => Cert.ReferenceIdeal.Read.val_main_v158 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)),
    fun c => Cert.ReferenceIdeal.Read.val_main_v165 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)),
    fun c => Cert.ReferenceIdeal.Read.val_main_v172 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)), ?_, ?_⟩
  · refine (θ_run Cert.KernelIdeal.defs _ _).mono (fun r h c => ?_) (Cert.KernelIdeal.RunValue.run_final (F := Ideal) m ρ)
    exact ⟨(h c Cert.KernelIdeal.main_v73 (by decide)).trans (Cert.KernelIdeal.Bridge.y_eq m ρ c),
      (h c Cert.KernelIdeal.main_v74 (by decide)).trans (Cert.KernelIdeal.Bridge.alpha_eq m ρ c),
      (h c Cert.KernelIdeal.main_v68_1 (by decide)).trans (Cert.KernelIdeal.Bridge.mix_eq m ρ c),
      (h c Cert.KernelIdeal.main_v71 (by decide)).trans (Cert.KernelIdeal.Bridge.firm_eq m ρ c),
      (h c Cert.KernelIdeal.main_arg0 (by decide)).trans (Cert.KernelIdeal.Gen.W9_main_arg0 m ρ c),
      (h c Cert.KernelIdeal.main_arg1 (by decide)).trans (Cert.KernelIdeal.Gen.W9_main_arg1 m ρ c),
      (h c Cert.KernelIdeal.main_arg2 (by decide)).trans (Cert.KernelIdeal.Gen.W9_main_arg2 m ρ c),
      (h c Cert.KernelIdeal.main_arg3 (by decide)).trans (Cert.KernelIdeal.Gen.W9_main_arg3 m ρ c),
      (h c Cert.KernelIdeal.main_arg4 (by decide)).trans (Cert.KernelIdeal.Gen.W9_main_arg4 m ρ c),
      (h c Cert.KernelIdeal.main_arg5 (by decide)).trans (Cert.KernelIdeal.Gen.W9_main_arg5 m ρ c),
      (h c Cert.KernelIdeal.main_arg6 (by decide)).trans (Cert.KernelIdeal.Gen.W9_main_arg6 m ρ c),
      (h c Cert.KernelIdeal.main_arg7 (by decide)).trans (Cert.KernelIdeal.Gen.W9_main_arg7 m ρ c),
      (h c Cert.KernelIdeal.main_arg8 (by decide)).trans (Cert.KernelIdeal.Gen.W9_main_arg8 m ρ c),
      (h c Cert.KernelIdeal.main_arg9 (by decide)).trans (Cert.KernelIdeal.Gen.W9_main_arg9 m ρ c),
      (h c Cert.KernelIdeal.main_arg10 (by decide)).trans (Cert.KernelIdeal.Gen.W9_main_arg10 m ρ c),
      (h c Cert.KernelIdeal.main_arg11 (by decide)).trans (Cert.KernelIdeal.Gen.W9_main_arg11 m ρ c),
      (h c Cert.KernelIdeal.main_arg12 (by decide)).trans (Cert.KernelIdeal.Gen.W9_main_arg12 m ρ c),
      (h c Cert.KernelIdeal.main_arg13 (by decide)).trans (Cert.KernelIdeal.Gen.W9_main_arg13 m ρ c),
      (h c Cert.KernelIdeal.main_arg14 (by decide)).trans (Cert.KernelIdeal.Gen.W9_main_arg14 m ρ c),
      (h c Cert.KernelIdeal.main_arg15 (by decide)).trans (Cert.KernelIdeal.Gen.W9_main_arg15 m ρ c),
      (h c Cert.KernelIdeal.main_arg16 (by decide)).trans (Cert.KernelIdeal.Gen.W9_main_arg16 m ρ c),
      (h c Cert.KernelIdeal.main_arg17 (by decide)).trans (Cert.KernelIdeal.Gen.W9_main_arg17 m ρ c),
      (h c Cert.KernelIdeal.main_arg18 (by decide)).trans (Cert.KernelIdeal.Gen.W9_main_arg18 m ρ c),
      (h c Cert.KernelIdeal.main_arg19 (by decide)).trans (Cert.KernelIdeal.Gen.W9_main_arg19 m ρ c),
      (h c Cert.KernelIdeal.main_arg20 (by decide)).trans (Cert.KernelIdeal.Gen.W9_main_arg20 m ρ c),
      (h c Cert.KernelIdeal.main_arg21 (by decide)).trans (Cert.KernelIdeal.Gen.W9_main_arg21 m ρ c),
      (h c Cert.KernelIdeal.main_arg22 (by decide)).trans (Cert.KernelIdeal.Gen.W9_main_arg22 m ρ c),
      (h c Cert.KernelIdeal.main_arg23 (by decide)).trans (Cert.KernelIdeal.Gen.W9_main_arg23 m ρ c),
      (h c Cert.KernelIdeal.main_arg24 (by decide)).trans (Cert.KernelIdeal.Gen.W9_main_arg24 m ρ c),
      (h c Cert.KernelIdeal.main_arg25 (by decide)).trans (Cert.KernelIdeal.Gen.W9_main_arg25 m ρ c),
      (h c Cert.KernelIdeal.main_arg26 (by decide)).trans (Cert.KernelIdeal.Gen.W9_main_arg26 m ρ c),
      (h c Cert.KernelIdeal.main_arg27 (by decide)).trans (Cert.KernelIdeal.Gen.W9_main_arg27 m ρ c),
      (h c Cert.KernelIdeal.main_arg28 (by decide)).trans (Cert.KernelIdeal.Gen.W9_main_arg28 m ρ c),
      (h c Cert.KernelIdeal.main_arg29 (by decide)).trans (Cert.KernelIdeal.Gen.W9_main_arg29 m ρ c),
      (h c Cert.KernelIdeal.main_arg30 (by decide)).trans (Cert.KernelIdeal.Gen.W9_main_arg30 m ρ c),
      (h c Cert.KernelIdeal.main_arg31 (by decide)).trans (Cert.KernelIdeal.Gen.W9_main_arg31 m ρ c),
      (h c Cert.KernelIdeal.main_arg32 (by decide)).trans (Cert.KernelIdeal.Gen.W9_main_arg32 m ρ c),
      (h c Cert.KernelIdeal.main_arg33 (by decide)).trans (Cert.KernelIdeal.Gen.W9_main_arg33 m ρ c),
      (h c Cert.KernelIdeal.main_arg34 (by decide)).trans (Cert.KernelIdeal.Gen.W9_main_arg34 m ρ c)⟩
  · refine (θ_run Cert.ReferenceIdeal.defs _ _).mono (fun r h c => ?_) (Cert.ReferenceIdeal.Value.run (F := Ideal) m' ρ')
    refine ⟨?_, ?_, ?_, ?_, (h c).2.2.2.2⟩
    · rw [(h c).1, Cert.ReferenceIdeal.Read.val_main_v171_eq, (hagree c).1, (hagree c).2.1, (hagree c).2.2.1, (hagree c).2.2.2.1, (hagree c).2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2.2.2.2.2.1, (hagree c).2.2.2.2.2.2.2.2.2.2.2.2.2.2.2.2.2.2.2.2.2.2.2.2.2.2.1, (hagree c).2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2]
    · rw [(h c).2.1, Cert.ReferenceIdeal.Read.val_main_v158_eq, (hagree c).1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.1]
    · rw [(h c).2.2.1, Cert.ReferenceIdeal.Read.val_main_v165_eq, (hagree c).1, (hagree c).2.1, (hagree c).2.2.1, (hagree c).2.2.2.1, (hagree c).2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2.2.2.2.2.1, (hagree c).2.2.2.2.2.2.2.2.2.2.2.2.2.2.2.2.2.2.2.2.2.2.2.2.2.2.1, (hagree c).2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.1]
    · rw [(h c).2.2.2.1, Cert.ReferenceIdeal.Read.val_main_v172_eq, (hagree c).1, (hagree c).2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.2.2.1, (hagree c).2.2.2.2.2.2.2.2.2.2.2.2.2.2.2.2.2.2.2.2.2.2.1, (hagree c).2.2.2.2.2.2.2.2.2.2.2.2.2.2.2.2.2.2.2.2.2.2.2.1, (hagree c).2.2.2.2.2.2.2.2.2.2.2.2.2.2.2.2.2.2.2.2.2.2.2.2.1, (hagree c).2.2.2.2.2.2.2.2.2.2.2.2.2.2.2.2.2.2.2.2.2.2.2.2.2.2.2.1, (hagree c).2.2.2.2.2.2.2.2.2.2.2.2.2.2.2.2.2.2.2.2.2.2.2.2.2.2.2.2.1]

end Claims

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
